-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x288 : Shape := ⟨2, ![131072, 288]⟩
abbrev S288x1024 : Shape := ⟨2, ![288, 1024]⟩
abbrev S1024 : Shape := ⟨1, ![1024]⟩
abbrev S1024x1024 : Shape := ⟨2, ![1024, 1024]⟩
abbrev S1024x7 : Shape := ⟨2, ![1024, 7]⟩
abbrev S7 : Shape := ⟨1, ![7]⟩
abbrev S_ : Shape := ⟨0, ![]⟩

class Facts : Prop where
  bcast_S_S131072x288 : S_.BroadcastsInDim S131072x288 (![] : Fin 0 → Fin S131072x288.rank)
  reducesTo_S131072x288_S_d0_1 : S131072x288.ReducesTo [0, 1] S_
  h_S_ : 0 < S_.numel
  bcast_S_S288x1024 : S_.BroadcastsInDim S288x1024 (![] : Fin 0 → Fin S288x1024.rank)
  reducesTo_S288x1024_S_d0_1 : S288x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x7 : S_.BroadcastsInDim S1024x7 (![] : Fin 0 → Fin S1024x7.rank)
  reducesTo_S1024x7_S_d0_1 : S1024x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg7 : FVec F S1024x7 .f32) (main_arg8 : FVec F S7 .f32) (main_v33 : IVec S_ 1) : IVec S_ 1 :=
  let main_v34 : FVec F S1024x7 .f32 := Host.absf main_arg7
  let main_cst_12 : FVec F S_ .f32 := constant S_ .f32 0x7F800000#32
  let main_v35 : FVec F S1024x7 .f32 := broadcastInDim S1024x7 ![] bcast_S_S1024x7 main_cst_12
  let main_v36 : IVec S1024x7 1 := cmpf .olt main_v34 main_v35
  let main_c_13 : IVec S_ 1 := constantI S_ 1 1#1
  let main_v37 : IVec S_ 1 := (fun x v => Host.reduce IntOp.andi x v reducesTo_S1024x7_S_d0_1 h_S_) main_v36 main_c_13
  let main_v38 : IVec S_ 1 := andi main_v33 main_v37
  let main_v39 : FVec F S7 .f32 := Host.absf main_arg8
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x7 .f32) (main_arg8 : FVec F S7 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S131072x288 .f32) (main_arg1 : FVec F S288x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x7 .f32) (main_arg8 : FVec F S7 .f32) : IVec S_ 1 :=
  let main_v0 : FVec F S131072x288 .f32 := Host.absf main_arg0
  let main_cst : FVec F S_ .f32 := constant S_ .f32 0x7F800000#32
  let main_v1 : FVec F S131072x288 .f32 := broadcastInDim S131072x288 ![] bcast_S_S131072x288 main_cst
  let main_v2 : IVec S131072x288 1 := cmpf .olt main_v0 main_v1
  let main_c : IVec S_ 1 := constantI S_ 1 1#1
  let main_v3 : IVec S_ 1 := (fun x v => Host.reduce IntOp.andi x v reducesTo_S131072x288_S_d0_1 h_S_) main_v2 main_c
  let main_v4 : FVec F S288x1024 .f32 := Host.absf main_arg1
  let main_cst_0 : FVec F S_ .f32 := constant S_ .f32 0x7F800000#32
  let main_v5 : FVec F S288x1024 .f32 := broadcastInDim S288x1024 ![] bcast_S_S288x1024 main_cst_0
  let main_v6 : IVec S288x1024 1 := cmpf .olt main_v4 main_v5
  let main_c_1 : IVec S_ 1 := constantI S_ 1 1#1
  let main_v7 : IVec S_ 1 := (fun x v => Host.reduce IntOp.andi x v reducesTo_S288x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S131072x288 : Shape := ⟨2, ![131072, 288]⟩
abbrev S288x1024 : Shape := ⟨2, ![288, 1024]⟩
abbrev S1024 : Shape := ⟨1, ![1024]⟩
abbrev S1024x1024 : Shape := ⟨2, ![1024, 1024]⟩
abbrev S1024x7 : Shape := ⟨2, ![1024, 7]⟩
abbrev S7 : Shape := ⟨1, ![7]⟩
abbrev S9x131072 : Shape := ⟨2, ![9, 131072]⟩
abbrev S1x131072 : Shape := ⟨2, ![1, 131072]⟩
abbrev S2048x288 : Shape := ⟨2, ![2048, 288]⟩
abbrev S9x2048 : Shape := ⟨2, ![9, 2048]⟩
abbrev S1x2048 : Shape := ⟨2, ![1, 2048]⟩
abbrev S2048x1024 : Shape := ⟨2, ![2048, 1024]⟩
abbrev S1x1024 : Shape := ⟨2, ![1, 1024]⟩
abbrev S2048x7 : Shape := ⟨2, ![2048, 7]⟩
abbrev S1x7 : Shape := ⟨2, ![1, 7]⟩
abbrev S7x2048 : Shape := ⟨2, ![7, 2048]⟩
abbrev S6x2048 : Shape := ⟨2, ![6, 2048]⟩
abbrev S131072x9 : Shape := ⟨2, ![131072, 9]⟩
abbrev S131072x3x3 : Shape := ⟨3, ![131072, 3, 3]⟩
abbrev S131072 : Shape := ⟨1, ![131072]⟩

abbrev nBuf : Space → Nat
  | .hbm => 24
  | .vmem => 18
  | .smem => 0
  | _ => 0

abbrev bufTy : (tb : Table) → Fin (tcTables nBuf tb) → BufTy
  | .hbm, ⟨0, _⟩ => ⟨S131072x288, .f32⟩
  | .hbm, ⟨1, _⟩ => ⟨S288x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x7, .f32⟩
  | .hbm, ⟨8, _⟩ => ⟨S7, .f32⟩
  | .hbm, ⟨9, _⟩ => ⟨S288x1024, .bf16⟩
  | .hbm, ⟨10, _⟩ => ⟨S1024x1024, .bf16⟩
  | .hbm, ⟨11, _⟩ => ⟨S1024x1024, .bf16⟩
  | .hbm, ⟨12, _⟩ => ⟨S1024x7, .bf16⟩
  | .hbm, ⟨13, _⟩ => ⟨S9x131072, .f32⟩
  | .hbm, ⟨14, _⟩ => ⟨S9x131072, .f32⟩
  | .hbm, ⟨15, _⟩ => ⟨S9x131072, .f32⟩
  | .hbm, ⟨16, _⟩ => ⟨S1x131072, .f32⟩
  | .hbm, ⟨17, _⟩ => ⟨S131072x9, .f32⟩
  | .hbm, ⟨18, _⟩ => ⟨S131072x3x3, .f32⟩
  | .hbm, ⟨19, _⟩ => ⟨S131072x9, .f32⟩
  | .hbm, ⟨20, _⟩ => ⟨S131072x3x3, .f32⟩
  | .hbm, ⟨21, _⟩ => ⟨S131072x9, .f32⟩
  | .hbm, ⟨22, _⟩ => ⟨S131072x3x3, .f32⟩
  | .hbm, ⟨23, _⟩ => ⟨S131072, .f32⟩
  | .local _ .vmem, ⟨0, _⟩ => ⟨S2048x288, .f32⟩
  | .local _ .vmem, ⟨1, _⟩ => ⟨S2048x288, .f32⟩
  | .local _ .vmem, ⟨2, _⟩ => ⟨S288x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x7, .bf16⟩
  | .local _ .vmem, ⟨9, _⟩ => ⟨S7, .f32⟩
  | .local _ .vmem, ⟨10, _⟩ => ⟨S9x2048, .f32⟩
  | .local _ .vmem, ⟨11, _⟩ => ⟨S9x2048, .f32⟩
  | .local _ .vmem, ⟨12, _⟩ => ⟨S9x2048, .f32⟩
  | .local _ .vmem, ⟨13, _⟩ => ⟨S9x2048, .f32⟩
  | .local _ .vmem, ⟨14, _⟩ => ⟨S9x2048, .f32⟩
  | .local _ .vmem, ⟨15, _⟩ => ⟨S9x2048, .f32⟩
  | .local _ .vmem, ⟨16, _⟩ => ⟨S1x2048, .f32⟩
  | .local _ .vmem, ⟨17, _⟩ => ⟨S1x2048, .f32⟩
  | _, _ => ⟨S131072x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x7 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S9x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S9x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S9x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  inb_S2048x288_S2048x288_0_0 : ∀ a, (![0, 0] : Fin 2 → Nat) a + S2048x288.size a ≤ S2048x288.size a
  h_S2048x288 : 0 < S2048x288.numel
  inb_S288x1024_S288x1024_0_0 : ∀ a, (![0, 0] : Fin 2 → Nat) a + S288x1024.size a ≤ S288x1024.size a
  h_S288x1024 : 0 < S288x1024.numel
  shapeCasts_S288x1024_S288x1024 : S288x1024.ShapeCasts S288x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x7_S1024x7_0_0 : ∀ a, (![0, 0] : Fin 2 → Nat) a + S1024x7.size a ≤ S1024x7.size a
  h_S1024x7 : 0 < S1024x7.numel
  shapeCasts_S1024x7_S1024x7 : S1024x7.ShapeCasts S1024x7
  inb_S7_S7_0 : ∀ a, (![0] : Fin 1 → Nat) a + S7.size a ≤ S7.size a
  h_S7 : 0 < S7.numel
  shapeCasts_S7_S1x7 : S7.ShapeCasts S1x7
  broadcasts_S1x7_S2048x7 : S1x7.Broadcasts S2048x7
  transposes_S2048x7_p1_0_S7x2048 : S2048x7.Transposes [1, 0] S7x2048
  slices_S7x2048_o0_0_S6x2048 : S7x2048.Slices ![0, 0] S6x2048
  slices_S7x2048_o6_0_S1x2048 : S7x2048.Slices ![6, 0] S1x2048
  slices_S6x2048_o0_0_S1x2048 : S6x2048.Slices ![0, 0] S1x2048
  slices_S6x2048_o1_0_S1x2048 : S6x2048.Slices ![1, 0] S1x2048
  slices_S6x2048_o2_0_S1x2048 : S6x2048.Slices ![2, 0] S1x2048
  slices_S6x2048_o3_0_S1x2048 : S6x2048.Slices ![3, 0] S1x2048
  slices_S6x2048_o4_0_S1x2048 : S6x2048.Slices ![4, 0] S1x2048
  slices_S6x2048_o5_0_S1x2048 : S6x2048.Slices ![5, 0] S1x2048
  concatenates_S1x2048_S1x2048_S1x2048_S1x2048_S1x2048_S1x2048_S1x2048_S1x2048_S1x2048_S9x2048_d0 : Shape.Concatenates [S1x2048, S1x2048, S1x2048, S1x2048, S1x2048, S1x2048, S1x2048, S1x2048, S1x2048] S9x2048 0
  inb_S9x2048_S9x2048_0_0 : ∀ a, (![0, 0] : Fin 2 → Nat) a + S9x2048.size a ≤ S9x2048.size a
  h_S9x2048 : 0 < S9x2048.numel
  inb_S1x2048_S1x2048_0_0 : ∀ a, (![0, 0] : Fin 2 → Nat) a + S1x2048.size a ≤ S1x2048.size a
  h_S1x2048 : 0 < S1x2048.numel
  transposes_S9x131072_S131072x9_1_0 : S9x131072.Transposes [1, 0] S131072x9
  shapeCasts_S131072x9_S131072x3x3 : S131072x9.ShapeCasts S131072x3x3
  shapeCasts_S1x131072_S131072 : S1x131072.ShapeCasts S131072
  dot_S2048x288_S288x1024_S2048x1024_1_0_0_1_n_n_wf : DotDims.WF S2048x288 S288x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x7_S2048x7_1_0_0_1_n_n_wf : DotDims.WF S2048x1024 S1024x7 S2048x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x288.size a ≤ S131072x288.size a
  hwx0_0 : ∀ i : grid0.Coords, EltTy.bits .f32 = 32 ∨ (Rect.block (s := S131072x288) S2048x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x1024.size a ≤ S288x1024.size a
  hwx0_1 : ∀ i : grid0.Coords, EltTy.bits .bf16 = 32 ∨ (Rect.block (s := S288x1024) S288x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x7.size a ≤ S1024x7.size a
  hwx0_7 : ∀ i : grid0.Coords, EltTy.bits .bf16 = 32 ∨ (Rect.block (s := S1024x7) S1024x7.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S7.size a ≤ S7.size a
  hwx0_8 : ∀ i : grid0.Coords, EltTy.bits .f32 = 32 ∨ (Rect.block (s := S7) S7.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S9x2048.size a ≤ S9x131072.size a
  hwx0_9 : ∀ i : grid0.Coords, EltTy.bits .f32 = 32 ∨ (Rect.block (s := S9x131072) S9x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S9x2048.size a ≤ S9x131072.size a
  hwx0_10 : ∀ i : grid0.Coords, EltTy.bits .f32 = 32 ∨ (Rect.block (s := S9x131072) S9x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S9x2048.size a ≤ S9x131072.size a
  hwx0_11 : ∀ i : grid0.Coords, EltTy.bits .f32 = 32 ∨ (Rect.block (s := S9x131072) S9x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x131072.size a
  hwx0_12 : ∀ i : grid0.Coords, EltTy.bits .f32 = 32 ∨ (Rect.block (s := S1x131072) S1x2048.size (cc0_transform_12 i) (hinb0_12 i)).WholeWords (EltTy.packing .f32)

variable [Facts₀]

def dot_S2048x288_S288x1024_S2048x1024_1_0_0_1_n_n : DotDims S2048x288 S288x1024 S2048x1024 where
  lhsContracting := [1]
  rhsContracting := [0]
  lhsNonContracting := [0]
  rhsNonContracting := [1]
  lhsBatch := []
  rhsBatch := []
  wf := dot_S2048x288_S288x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x7_S2048x7_1_0_0_1_n_n : DotDims S2048x1024 S1024x7 S2048x7 where
  lhsContracting := [1]
  rhsContracting := [0]
  lhsNonContracting := [0]
  rhsNonContracting := [1]
  lhsBatch := []
  rhsBatch := []
  wf := dot_S2048x1024_S1024x7_S2048x7_1_0_0_1_n_n_wf

abbrev win0_0 : Pipeline.Window sig grid0 :=
  Pipeline.Window.ofSpec (Memref.whole main_arg0) S2048x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S288x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x7.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S7.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S9x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S9x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S9x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_3) S1x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S131072x288 : Shape := ⟨2, ![131072, 288]⟩
abbrev S288x1024 : Shape := ⟨2, ![288, 1024]⟩
abbrev S1024 : Shape := ⟨1, ![1024]⟩
abbrev S1024x1024 : Shape := ⟨2, ![1024, 1024]⟩
abbrev S1024x7 : Shape := ⟨2, ![1024, 7]⟩
abbrev S7 : Shape := ⟨1, ![7]⟩
abbrev S131072x1024 : Shape := ⟨2, ![131072, 1024]⟩
abbrev S1x1024 : Shape := ⟨2, ![1, 1024]⟩
abbrev S_ : Shape := ⟨0, ![]⟩
abbrev S131072x7 : Shape := ⟨2, ![131072, 7]⟩
abbrev S1x7 : Shape := ⟨2, ![1, 7]⟩
abbrev S131072x6 : Shape := ⟨2, ![131072, 6]⟩
abbrev S131072x1 : Shape := ⟨2, ![131072, 1]⟩
abbrev S131072 : Shape := ⟨1, ![131072]⟩
abbrev S131072x3 : Shape := ⟨2, ![131072, 3]⟩
abbrev S131072x1x3 : Shape := ⟨3, ![131072, 1, 3]⟩
abbrev S131072x3x3 : Shape := ⟨3, ![131072, 3, 3]⟩
abbrev S131072x3x1 : Shape := ⟨3, ![131072, 3, 1]⟩
abbrev S3x3 : Shape := ⟨2, ![3, 3]⟩
abbrev S1x3x3 : Shape := ⟨3, ![1, 3, 3]⟩

abbrev nBuf : Space → Nat
  | .hbm => 156
  | .vmem => 0
  | .smem => 0
  | _ => 0

abbrev hbmTy0_0 (i : Nat) : BufTy := match i % 128 with
  | 0 => ⟨S131072x288, .f32⟩
  | 1 => ⟨S288x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x7, .f32⟩
  | 8 => ⟨S7, .f32⟩
  | 9 => ⟨S131072x1024, .f32⟩
  | 10 => ⟨S1x1024, .f32⟩
  | 11 => ⟨S131072x1024, .f32⟩
  | 12 => ⟨S131072x1024, .f32⟩
  | 13 => ⟨S_, .f32⟩
  | 14 => ⟨S131072x1024, .f32⟩
  | 15 => ⟨S131072x1024, .f32⟩
  | 16 => ⟨S131072x1024, .f32⟩
  | 17 => ⟨S1x1024, .f32⟩
  | 18 => ⟨S131072x1024, .f32⟩
  | 19 => ⟨S131072x1024, .f32⟩
  | 20 => ⟨S_, .f32⟩
  | 21 => ⟨S131072x1024, .f32⟩
  | 22 => ⟨S131072x1024, .f32⟩
  | 23 => ⟨S131072x1024, .f32⟩
  | 24 => ⟨S1x1024, .f32⟩
  | 25 => ⟨S131072x1024, .f32⟩
  | 26 => ⟨S131072x1024, .f32⟩
  | 27 => ⟨S_, .f32⟩
  | 28 => ⟨S131072x1024, .f32⟩
  | 29 => ⟨S131072x1024, .f32⟩
  | 30 => ⟨S131072x7, .f32⟩
  | 31 => ⟨S1x7, .f32⟩
  | 32 => ⟨S131072x7, .f32⟩
  | 33 => ⟨S131072x7, .f32⟩
  | 34 => ⟨S131072x6, .f32⟩
  | 35 => ⟨S131072x6, .f32⟩
  | 36 => ⟨S131072x6, .f32⟩
  | 37 => ⟨S_, .f32⟩
  | 38 => ⟨S131072x6, .f32⟩
  | 39 => ⟨S131072x6, .f32⟩
  | 40 => ⟨S_, .f32⟩
  | 41 => ⟨S131072x6, .f32⟩
  | 42 => ⟨S131072x6, .f32⟩
  | 43 => ⟨S131072x1, .f32⟩
  | 44 => ⟨S131072, .f32⟩
  | 45 => ⟨S131072, .f32⟩
  | 46 => ⟨S_, .f32⟩
  | 47 => ⟨S131072, .f32⟩
  | 48 => ⟨S131072, .f32⟩
  | 49 => ⟨S131072x1, .f32⟩
  | 50 => ⟨S131072, .f32⟩
  | 51 => ⟨S_, .f32⟩
  | 52 => ⟨S131072, .f32⟩
  | 53 => ⟨S131072, .f32⟩
  | 54 => ⟨S131072x1, .f32⟩
  | 55 => ⟨S131072, .f32⟩
  | 56 => ⟨S_, .f32⟩
  | 57 => ⟨S131072, .f32⟩
  | 58 => ⟨S131072, .f32⟩
  | 59 => ⟨S131072x1, .f32⟩
  | 60 => ⟨S131072, .f32⟩
  | 61 => ⟨S_, .f32⟩
  | 62 => ⟨S131072, .f32⟩
  | 63 => ⟨S131072, .f32⟩
  | 64 => ⟨S131072x1, .f32⟩
  | 65 => ⟨S131072, .f32⟩
  | 66 => ⟨S_, .f32⟩
  | 67 => ⟨S131072, .f32⟩
  | 68 => ⟨S131072, .f32⟩
  | 69 => ⟨S131072x1, .f32⟩
  | 70 => ⟨S131072, .f32⟩
  | 71 => ⟨S131072, .f32⟩
  | 72 => ⟨S131072x1, .f32⟩
  | 73 => ⟨S131072, .f32⟩
  | 74 => ⟨S131072, .f32⟩
  | 75 => ⟨S131072, .f32⟩
  | 76 => ⟨S131072, .f32⟩
  | 77 => ⟨S131072, .f32⟩
  | 78 => ⟨S131072, .f32⟩
  | 79 => ⟨S131072, .f32⟩
  | 80 => ⟨S131072, .f32⟩
  | 81 => ⟨S_, .f32⟩
  | 82 => ⟨S131072, .f32⟩
  | 83 => ⟨S_, .f32⟩
  | 84 => ⟨S131072, .f32⟩
  | 85 => ⟨S131072x1, .f32⟩
  | 86 => ⟨S131072x1, .f32⟩
  | 87 => ⟨S131072x1, .f32⟩
  | 88 => ⟨S131072x3, .f32⟩
  | 89 => ⟨S131072, .f32⟩
  | 90 => ⟨S131072x1, .f32⟩
  | 91 => ⟨S131072x1, .f32⟩
  | 92 => ⟨S131072x1, .f32⟩
  | 93 => ⟨S131072x3, .f32⟩
  | 94 => ⟨S131072x1, .f32⟩
  | 95 => ⟨S131072x1, .f32⟩
  | 96 => ⟨S131072x1, .f32⟩
  | 97 => ⟨S131072x3, .f32⟩
  | 98 => ⟨S131072x1x3, .f32⟩
  | 99 => ⟨S131072x1x3, .f32⟩
  | 100 => ⟨S131072x1x3, .f32⟩
  | 101 => ⟨S131072x3x3, .f32⟩
  | 102 => ⟨S131072x1, .f32⟩
  | 103 => ⟨S131072x1, .f32⟩
  | 104 => ⟨S131072x1, .f32⟩
  | 105 => ⟨S131072x3, .f32⟩
  | 106 => ⟨S131072x1, .f32⟩
  | 107 => ⟨S131072x1, .f32⟩
  | 108 => ⟨S131072x1, .f32⟩
  | 109 => ⟨S131072x3, .f32⟩
  | 110 => ⟨S131072, .f32⟩
  | 111 => ⟨S131072x1, .f32⟩
  | 112 => ⟨S131072x1, .f32⟩
  | 113 => ⟨S131072x1, .f32⟩
  | 114 => ⟨S131072x3, .f32⟩
  | 115 => ⟨S131072x1x3, .f32⟩
  | 116 => ⟨S131072x1x3, .f32⟩
  | 117 => ⟨S131072x1x3, .f32⟩
  | 118 => ⟨S131072x3x3, .f32⟩
  | 119 => ⟨S131072, .f32⟩
  | 120 => ⟨S131072x1, .f32⟩
  | 121 => ⟨S131072x1, .f32⟩
  | 122 => ⟨S131072x1, .f32⟩
  | 123 => ⟨S131072x3, .f32⟩
  | 124 => ⟨S131072x1, .f32⟩
  | 125 => ⟨S131072x1, .f32⟩
  | 126 => ⟨S131072x1, .f32⟩
  | 127 => ⟨S131072x3, .f32⟩
  | _ => ⟨S131072x288, .f32⟩

abbrev hbmTy0_1 (i : Nat) : BufTy := match i % 128 with
  | 0 => ⟨S131072x1, .f32⟩
  | 1 => ⟨S131072x1, .f32⟩
  | 2 => ⟨S131072x1, .f32⟩
  | 3 => ⟨S131072x3, .f32⟩
  | 4 => ⟨S131072x1x3, .f32⟩
  | 5 => ⟨S131072x1x3, .f32⟩
  | 6 => ⟨S131072x1x3, .f32⟩
  | 7 => ⟨S131072x3x3, .f32⟩
  | 8 => ⟨S131072x3x3, .f32⟩
  | 9 => ⟨S131072x3x3, .f32⟩
  | 10 => ⟨S131072x1, .f32⟩
  | 11 => ⟨S131072x1, .f32⟩
  | 12 => ⟨S131072x1, .f32⟩
  | 13 => ⟨S131072x3, .f32⟩
  | 14 => ⟨S131072x3x1, .f32⟩
  | 15 => ⟨S3x3, .i32⟩
  | 16 => ⟨S3x3, .i32⟩
  | 17 => ⟨S_, .i32⟩
  | 18 => ⟨S3x3, .i32⟩
  | 19 => ⟨S3x3, .i32⟩
  | 20 => ⟨S3x3, .i1⟩
  | 21 => ⟨S3x3, .f32⟩
  | 22 => ⟨S1x3x3, .f32⟩
  | 23 => ⟨S131072x3x3, .f32⟩
  | 24 => ⟨S131072x3x3, .f32⟩
  | 25 => ⟨S131072x3x3, .f32⟩
  | 26 => ⟨S131072x3x3, .f32⟩
  | 27 => ⟨S131072x3x3, .f32⟩
  | _ => ⟨S131072x288, .f32⟩

abbrev hbmTy (i : Nat) : BufTy := match i / 128 with
  | 0 => hbmTy0_0 i
  | 1 => hbmTy0_1 i
  | _ => ⟨S131072x288, .f32⟩

abbrev bufTy : (tb : Table) → Fin (tcTables nBuf tb) → BufTy
  | .hbm, ⟨i, _⟩ => hbmTy i
  | _, _ => ⟨S131072x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_c : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  bcast_S7_S1x7_1 : S7.BroadcastsInDim S1x7 (![1] : Fin 1 → Fin S1x7.rank)
  bcast_S1x7_S131072x7_0_1 : S1x7.BroadcastsInDim S131072x7 (![0, 1] : Fin 2 → Fin S131072x7.rank)
  slices_S131072x7_S131072x6_0_0 : S131072x7.Slices ![0, 0] S131072x6
  bcast_S_S131072x6 : S_.BroadcastsInDim S131072x6 (![] : Fin 0 → Fin S131072x6.rank)
  slices_S131072x7_S131072x1_0_6 : S131072x7.Slices ![0, 6] S131072x1
  shapeCasts_S131072x1_S131072 : S131072x1.ShapeCasts S131072
  bcast_S_S131072 : S_.BroadcastsInDim S131072 (![] : Fin 0 → Fin S131072.rank)
  slices_S131072x6_S131072x1_0_0 : S131072x6.Slices ![0, 0] S131072x1
  slices_S131072x6_S131072x1_0_1 : S131072x6.Slices ![0, 1] S131072x1
  slices_S131072x6_S131072x1_0_2 : S131072x6.Slices ![0, 2] S131072x1
  slices_S131072x6_S131072x1_0_3 : S131072x6.Slices ![0, 3] S131072x1
  slices_S131072x6_S131072x1_0_4 : S131072x6.Slices ![0, 4] S131072x1
  slices_S131072x6_S131072x1_0_5 : S131072x6.Slices ![0, 5] S131072x1
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  bcast_S131072x3_S131072x1x3_0_2 : S131072x3.BroadcastsInDim S131072x1x3 (![0, 2] : Fin 2 → Fin S131072x1x3.rank)
  concatenates_S131072x1x3_S131072x1x3_S131072x1x3_S131072x3x3_d1 : Shape.Concatenates [S131072x1x3, S131072x1x3, S131072x1x3] S131072x3x3 1
  bcast_S131072x3_S131072x3x1_0_1 : S131072x3.BroadcastsInDim S131072x3x1 (![0, 1] : Fin 2 → Fin S131072x3x1.rank)
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S131072x3x1_S131072x3x3_0_1_2 : S131072x3x1.BroadcastsInDim S131072x3x3 (![0, 1, 2] : Fin 3 → Fin S131072x3x3.rank)
  bcast_S1x3x3_S131072x3x3_0_1_2 : S1x3x3.BroadcastsInDim S131072x3x3 (![0, 1, 2] : Fin 3 → Fin S131072x3x3.rank)
  dot_S131072x288_S288x1024_S131072x1024_1_0_0_1_n_n_wf : DotDims.WF S131072x288 S288x1024 S131072x1024 [1] [0] [0] [1] [] []
  dot_S131072x1024_S1024x1024_S131072x1024_1_0_0_1_n_n_wf : DotDims.WF S131072x1024 S1024x1024 S131072x1024 [1] [0] [0] [1] [] []
  dot_S131072x1024_S1024x7_S131072x7_1_0_0_1_n_n_wf : DotDims.WF S131072x1024 S1024x7 S131072x7 [1] [0] [0] [1] [] []
  dot_S131072x3x3_S131072x3x3_S131072x3x3_1_2_2_1_0_0_wf : DotDims.WF S131072x3x3 S131072x3x3 S131072x3x3 [1] [2] [2] [1] [0] [0]
  dot_S131072x3x3_S131072x3x3_S131072x3x3_1_1_2_2_0_0_wf : DotDims.WF S131072x3x3 S131072x3x3 S131072x3x3 [1] [1] [2] [2] [0] [0]

variable [Facts₀]

def dot_S131072x288_S288x1024_S131072x1024_1_0_0_1_n_n : DotDims S131072x288 S288x1024 S131072x1024 where
  lhsContracting := [1]
  rhsContracting := [0]
  lhsNonContracting := [0]
  rhsNonContracting := [1]
  lhsBatch := []
  rhsBatch := []
  wf := dot_S131072x288_S288x1024_S131072x1024_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S131072x1024_S1024x7_S131072x7_1_0_0_1_n_n : DotDims S131072x1024 S1024x7 S131072x7 where
  lhsContracting := [1]
  rhsContracting := [0]
  lhsNonContracting := [0]
  rhsNonContracting := [1]
  lhsBatch := []
  rhsBatch := []
  wf := dot_S131072x1024_S1024x7_S131072x7_1_0_0_1_n_n_wf
def dot_S131072x3x3_S131072x3x3_S131072x3x3_1_2_2_1_0_0 : DotDims S131072x3x3 S131072x3x3 S131072x3x3 where
  lhsContracting := [1]
  rhsContracting := [2]
  lhsNonContracting := [2]
  rhsNonContracting := [1]
  lhsBatch := [0]
  rhsBatch := [0]
  wf := dot_S131072x3x3_S131072x3x3_S131072x3x3_1_2_2_1_0_0_wf
def dot_S131072x3x3_S131072x3x3_S131072x3x3_1_1_2_2_0_0 : DotDims S131072x3x3 S131072x3x3 S131072x3x3 where
  lhsContracting := [1]
  rhsContracting := [1]
  lhsNonContracting := [2]
  rhsNonContracting := [2]
  lhsBatch := [0]
  rhsBatch := [0]
  wf := dot_S131072x3x3_S131072x3x3_S131072x3x3_1_1_2_2_0_0_wf

class Facts : Prop extends Facts₀ where

variable [Facts]
-- ==== Proof.PoseSpec.lean ====
/-
  What both programs compute, written once over the extended reals.

  A row of 288 inputs goes through a four-layer perceptron (three hidden layers of width 1024, each
  an affine map followed by max(·, 0), and an affine head of width 7). Of the head's seven numbers the
  first six go through the logistic function: three become Euler angles (the logistic value times 2π,
  π, 2π), three become eigenvalues (e₁ = g₃·0.003, e₂ = e₁·g₄, e₃ = e₂·g₅); the seventh becomes
  tanh(·) + 1. From the angles' cosines and sines come the rotation R = R_z·R_y·R_x, the diagonal
  matrix E = diag(e₁, e₂, e₃) and D = R·E·Rᵀ.

  The nine entries of R, E and D are written twice: in CLOSED form (each entry a short polynomial in
  the six trigonometric values and the three eigenvalues), and as the MATRIX PRODUCTS themselves
  (sums over an index of Fin 3 of entries of the three elementary rotations, of E as the eigenvalue
  times the Kronecker delta). That the two agree is a statement of real algebra, proved elsewhere.
-/
import Idealize.ShloMosaic.PureOps.Ideal
import Idealize.ShloMosaic.PureOps.Ideal.Laws
import Idealize.ShloMosaic.Lib.IdealHost
import Idealize.ShloMosaic.Lib.ValueIdx

noncomputable section

open Idealize.ShloMosaic Idealize.ShloMosaic.ValueIdx
open scoped BigOperators

namespace Cert.Pose

/-! ## The literals, kept as the patterns the programs spell -/

abbrev lit0 : EReal := Ideal.ofBits .f32 0x00000000#32
abbrev lit1 : EReal := Ideal.ofBits .f32 0x3F800000#32
/-- the single-precision neighbour of 2π -/
abbrev lit2pi : EReal := Ideal.ofBits .f32 0x40C90FDB#32
/-- the single-precision neighbour of π -/
abbrev litpi : EReal := Ideal.ofBits .f32 0x40490FDB#32
/-- the single-precision neighbour of 0.003 -/
abbrev litThr : EReal := Ideal.ofBits .f32 0x3B449BA6#32

theorem lit0_eq : lit0 = 0 := Ideal.ofBits_zero_f32
theorem lit1_eq : lit1 = 1 := Ideal.ofBits_one_f32

/-! ## The perceptron, one row at a time -/

/-- An affine layer at output unit `n`: the inner product of the incoming row with column `n` of the
    weights, plus the bias. -/
def dense {K N : ℕ} (h : Fin K → EReal) (W : (⟨2, ![K, N]⟩ : Shape).Idx → EReal)
    (b : (⟨1, ![N]⟩ : Shape).Idx → EReal) (n : Fin N) : EReal :=
  (∑ k : Fin K, h k * W (ix2 k n)) + b (ix1 n)

/-- max(·, 0) -/
def relu (v : EReal) : EReal := max v lit0

/-- The head's seven numbers for one input row. -/
def mlp (xr : Fin 288 → EReal)
    (W1 : (⟨2, ![288, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (W4 : (⟨2, ![1024, 7]⟩ : Shape).Idx → EReal) (b4 : (⟨1, ![7]⟩ : Shape).Idx → EReal) : Fin 7 → EReal :=
  dense (fun k3 => relu (dense (fun k2 => relu (dense (fun k1 => relu (dense xr W1 b1 k1)) W2 b2 k2)) W3 b3 k3)) W4 b4

/-- The head's seven numbers for row `r` of an array of `B` input rows. -/
def headOf {B : ℕ} (x : (⟨2, ![B, 288]⟩ : Shape).Idx → EReal)
    (W1 : (⟨2, ![288, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (W4 : (⟨2, ![1024, 7]⟩ : Shape).Idx → EReal) (b4 : (⟨1, ![7]⟩ : Shape).Idx → EReal) (r : Fin B) : Fin 7 → EReal :=
  mlp (fun k => x (ix2 r k)) W1 b1 W2 b2 W3 b3 W4 b4

/-! ## From the head's seven numbers to angles, eigenvalues and the shift -/

section
variable (o : Fin 7 → EReal)

def gate (i : Fin 7) : EReal := Ideal.logistic (o i)

def angX : EReal := gate o 0 * lit2pi
def angY : EReal := gate o 1 * litpi
def angZ : EReal := gate o 2 * lit2pi
def eig1 : EReal := gate o 3 * litThr
def eig2 : EReal := eig1 o * gate o 4
def eig3 : EReal := eig2 o * gate o 5

def cx : EReal := Ideal.cos (angX o)
def sx : EReal := Ideal.sin (angX o)
def cy : EReal := Ideal.cos (angY o)
def sy : EReal := Ideal.sin (angY o)
def cz : EReal := Ideal.cos (angZ o)
def sz : EReal := Ideal.sin (angZ o)

/-- tanh of the seventh number, plus one -/
def shift : EReal := Ideal.tanh (o 6) + lit1

/-! ### Closed forms -/

def r00 : EReal := cz o * cy o
def r01 : EReal := cz o * sy o * sx o - sz o * cx o
def r02 : EReal := cz o * sy o * cx o + sz o * sx o
def r10 : EReal := sz o * cy o
def r11 : EReal := sz o * sy o * sx o + cz o * cx o
def r12 : EReal := sz o * sy o * cx o - cz o * sx o
def r20 : EReal := lit0 - sy o
def r21 : EReal := cy o * sx o
def r22 : EReal := cy o * cx o

/-- R, row-major -/
def rotK : Fin 9 → EReal := ![r00 o, r01 o, r02 o, r10 o, r11 o, r12 o, r20 o, r21 o, r22 o]

/-- E, row-major -/
def eigK : Fin 9 → EReal := ![eig1 o, lit0, lit0, lit0, eig2 o, lit0, lit0, lit0, eig3 o]

def d00 : EReal := eig1 o * r00 o * r00 o + eig2 o * r01 o * r01 o + eig3 o * r02 o * r02 o
def d01 : EReal := eig1 o * r00 o * r10 o + eig2 o * r01 o * r11 o + eig3 o * r02 o * r12 o
def d02 : EReal := eig1 o * r00 o * r20 o + eig2 o * r01 o * r21 o + eig3 o * r02 o * r22 o
def d11 : EReal := eig1 o * r10 o * r10 o + eig2 o * r11 o * r11 o + eig3 o * r12 o * r12 o
def d12 : EReal := eig1 o * r10 o * r20 o + eig2 o * r11 o * r21 o + eig3 o * r12 o * r22 o
def d22 : EReal := eig1 o * r20 o * r20 o + eig2 o * r21 o * r21 o + eig3 o * r22 o * r22 o

/-- D, row-major; the entries below the diagonal are those above it -/
def diffK : Fin 9 → EReal := ![d00 o, d01 o, d02 o, d01 o, d11 o, d12 o, d02 o, d12 o, d22 o]

/-! ### The matrix products -/

end

/-- rotation about the first axis, from the angle's cosine and sine -/
def matXof (c s : EReal) : Fin 3 → Fin 3 → EReal := ![![lit1, lit0, lit0], ![lit0, c, -s], ![lit0, s, c]]
/-- rotation about the second axis -/
def matYof (c s : EReal) : Fin 3 → Fin 3 → EReal := ![![c, lit0, s], ![lit0, lit1, lit0], ![-s, lit0, c]]
/-- rotation about the third axis -/
def matZof (c s : EReal) : Fin 3 → Fin 3 → EReal := ![![c, -s, lit0], ![s, c, lit0], ![lit0, lit0, lit1]]

/-- (R_z·R_y)·R_x, entry (i, l), from the three angles' cosines and sines; the inner sum is entry (i, k) of
    R_z·R_y with its factors in the order R_y's entry first. -/
def rotRof (cx sx cy sy cz sz : EReal) (i l : Fin 3) : EReal :=
  ∑ k : Fin 3, (∑ j : Fin 3, matYof cy sy j k * matZof cz sz i j) * matXof cx sx k l

/-- the Kronecker delta -/
def eye (j k : Fin 3) : EReal := if j = k then 1 else 0

/-- diag(e₁, e₂, e₃) as eigenvalue times delta -/
def eigRof (e1 e2 e3 : EReal) (j k : Fin 3) : EReal := (![e1, e2, e3] : Fin 3 → EReal) j * eye j k

/-- (R·E)·Rᵀ, entry (i, l), of any two 3×3 arrays; the inner sum is entry (i, k) of R·E with E's entry first. -/
def diffRof (R E : Fin 3 → Fin 3 → EReal) (i l : Fin 3) : EReal :=
  ∑ k : Fin 3, (∑ j : Fin 3, E j k * R i j) * R l k

section
variable (o : Fin 7 → EReal)

def rotR : Fin 3 → Fin 3 → EReal := rotRof (cx o) (sx o) (cy o) (sy o) (cz o) (sz o)
def eigR : Fin 3 → Fin 3 → EReal := eigRof (eig1 o) (eig2 o) (eig3 o)
def diffR : Fin 3 → Fin 3 → EReal := diffRof (rotR o) (eigR o)

end

/-- row-major position of entry (i, l) of a 3×3 matrix -/
def flat (i l : Fin 3) : Fin 9 := ⟨3 * i.val + l.val, by omega⟩

end Cert.Pose

end
-- ==== Proof.KernMlp.lean ====
/-
  The perceptron inside the kernel body, read one element at a time.

  The body multiplies a block of 2048 input rows through four weight matrices. Each product goes into a zero
  accumulator, so its entry (r, n) is the plain inner product of row r of the left factor with column n of
  the right one; the bias vector is cast to one row and repeated down the block, so it contributes its n-th
  entry; a change of float format is the identity on the extended reals. Hence entry (r, n) of the body's
  head is the head of the specification evaluated on row r of the block — a statement about ONE row.
-/
import proofs.«124405_j83932250898799_2_alg».proof.Proof.Gen.KernelIdeal.Skeleton
import proofs.«124405_j83932250898799_2_alg».proof.Proof.PoseSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.BodyValue

open Cert.KernelIdeal Cert.KernelIdeal.Gen Cert.Pose

theorem dot1_apply_l0 (i : S2048x1024.Idx) (q : dot_S2048x288_S288x1024_S2048x1024_1_0_0_1_n_n.contr.Idx) : (dot_S2048x288_S288x1024_S2048x1024_1_0_0_1_n_n.lhsIdx i q 0).val = (i 0).val := by
  unfold DotDims.lhsIdx
  rw [dif_neg (show ¬(0 : Fin S2048x288.rank) ∈ dot_S2048x288_S288x1024_S2048x1024_1_0_0_1_n_n.lhsBatch by decide), dif_pos (show (0 : Fin S2048x288.rank) ∈ dot_S2048x288_S288x1024_S2048x1024_1_0_0_1_n_n.lhsNonContracting by decide)]
  rfl
theorem dot1_apply_r1 (i : S2048x1024.Idx) (q : dot_S2048x288_S288x1024_S2048x1024_1_0_0_1_n_n.contr.Idx) : (dot_S2048x288_S288x1024_S2048x1024_1_0_0_1_n_n.rhsIdx i q 1).val = (i 1).val := by
  unfold DotDims.rhsIdx
  rw [dif_neg (show ¬(1 : Fin S288x1024.rank) ∈ dot_S2048x288_S288x1024_S2048x1024_1_0_0_1_n_n.rhsBatch by decide), dif_pos (show (1 : Fin S288x1024.rank) ∈ dot_S2048x288_S288x1024_S2048x1024_1_0_0_1_n_n.rhsNonContracting by decide)]
  rfl

/-- A row of a plain matrix product into a zero accumulator: the inner product of row `r` of the left factor with
    column `n` of the right one (contraction over 288 terms). -/
theorem dot1_apply (l : FVec Ideal S2048x288 .bf16) (w : FVec Ideal S288x1024 .bf16) (r : Fin 2048) (n : Fin 1024) :
    matmul dot_S2048x288_S288x1024_S2048x1024_1_0_0_1_n_n none l w (constant S2048x1024 .f32 0x00000000#32) (ix2 r n)
      = ∑ k : Fin 288, l (ix2 r k) * w (ix2 k n) := by
  refine (Ideal.matmul_constant_zero_apply dot_S2048x288_S288x1024_S2048x1024_1_0_0_1_n_n none l w (ix2 r n)).trans ?_
  rw [← Equiv.sum_comp (contrEquiv1 dot_S2048x288_S288x1024_S2048x1024_1_0_0_1_n_n 288 rfl rfl).symm]
  refine Finset.sum_congr rfl fun k _ => ?_
  have hk := contrEquiv1_symm_val dot_S2048x288_S288x1024_S2048x1024_1_0_0_1_n_n 288 rfl rfl k
  have el : dot_S2048x288_S288x1024_S2048x1024_1_0_0_1_n_n.lhsIdx (ix2 r n) ((contrEquiv1 dot_S2048x288_S288x1024_S2048x1024_1_0_0_1_n_n 288 rfl rfl).symm k) = ix2 r k := funext fun a => Fin.ext (by
    match a with
    | ⟨0, _⟩ => exact dot1_apply_l0 _ _
    | ⟨1, _⟩ => exact (dot_S2048x288_S288x1024_S2048x1024_1_0_0_1_n_n.lhsIdx_val_of_single rfl _ _).trans hk)
  have er : dot_S2048x288_S288x1024_S2048x1024_1_0_0_1_n_n.rhsIdx (ix2 r n) ((contrEquiv1 dot_S2048x288_S288x1024_S2048x1024_1_0_0_1_n_n 288 rfl rfl).symm k) = ix2 k n := funext fun a => Fin.ext (by
    match a with
    | ⟨0, _⟩ => exact (dot_S2048x288_S288x1024_S2048x1024_1_0_0_1_n_n.rhsIdx_val_of_single rfl _ _).trans hk
    | ⟨1, _⟩ => exact dot1_apply_r1 _ _)
  rw [el, er]

theorem dot2_apply_l0 (i : S2048x1024.Idx) (q : dot_S2048x1024_S1024x1024_S2048x1024_1_0_0_1_n_n.contr.Idx) : (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem dot2_apply_r1 (i : S2048x1024.Idx) (q : dot_S2048x1024_S1024x1024_S2048x1024_1_0_0_1_n_n.contr.Idx) : (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- A row of a plain matrix product into a zero accumulator: the inner product of row `r` of the left factor with
    column `n` of the right one (contraction over 1024 terms). -/
theorem dot2_apply (l : FVec Ideal S2048x1024 .bf16) (w : FVec Ideal S1024x1024 .bf16) (r : Fin 2048) (n : Fin 1024) :
    matmul dot_S2048x1024_S1024x1024_S2048x1024_1_0_0_1_n_n none l w (constant S2048x1024 .f32 0x00000000#32) (ix2 r n)
      = ∑ k : Fin 1024, l (ix2 r k) * w (ix2 k n) := by
  refine (Ideal.matmul_constant_zero_apply dot_S2048x1024_S1024x1024_S2048x1024_1_0_0_1_n_n none l w (ix2 r n)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r n) ((contrEquiv1 dot_S2048x1024_S1024x1024_S2048x1024_1_0_0_1_n_n 1024 rfl rfl).symm k) = ix2 r k := funext fun a => Fin.ext (by
    match a with
    | ⟨0, _⟩ => exact dot2_apply_l0 _ _
    | ⟨1, _⟩ => exact (dot_S2048x1024_S1024x1024_S2048x1024_1_0_0_1_n_n.lhsIdx_val_of_single rfl _ _).trans hk)
  have er : dot_S2048x1024_S1024x1024_S2048x1024_1_0_0_1_n_n.rhsIdx (ix2 r n) ((contrEquiv1 dot_S2048x1024_S1024x1024_S2048x1024_1_0_0_1_n_n 1024 rfl rfl).symm k) = ix2 k n := funext fun a => Fin.ext (by
    match a with
    | ⟨0, _⟩ => exact (dot_S2048x1024_S1024x1024_S2048x1024_1_0_0_1_n_n.rhsIdx_val_of_single rfl _ _).trans hk
    | ⟨1, _⟩ => exact dot2_apply_r1 _ _)
  rw [el, er]

theorem dot3_apply_l0 (i : S2048x7.Idx) (q : dot_S2048x1024_S1024x7_S2048x7_1_0_0_1_n_n.contr.Idx) : (dot_S2048x1024_S1024x7_S2048x7_1_0_0_1_n_n.lhsIdx i q 0).val = (i 0).val := by
  unfold DotDims.lhsIdx
  rw [dif_neg (show ¬(0 : Fin S2048x1024.rank) ∈ dot_S2048x1024_S1024x7_S2048x7_1_0_0_1_n_n.lhsBatch by decide), dif_pos (show (0 : Fin S2048x1024.rank) ∈ dot_S2048x1024_S1024x7_S2048x7_1_0_0_1_n_n.lhsNonContracting by decide)]
  rfl
theorem dot3_apply_r1 (i : S2048x7.Idx) (q : dot_S2048x1024_S1024x7_S2048x7_1_0_0_1_n_n.contr.Idx) : (dot_S2048x1024_S1024x7_S2048x7_1_0_0_1_n_n.rhsIdx i q 1).val = (i 1).val := by
  unfold DotDims.rhsIdx
  rw [dif_neg (show ¬(1 : Fin S1024x7.rank) ∈ dot_S2048x1024_S1024x7_S2048x7_1_0_0_1_n_n.rhsBatch by decide), dif_pos (show (1 : Fin S1024x7.rank) ∈ dot_S2048x1024_S1024x7_S2048x7_1_0_0_1_n_n.rhsNonContracting by decide)]
  rfl

/-- A row of a plain matrix product into a zero accumulator: the inner product of row `r` of the left factor with
    column `n` of the right one (contraction over 1024 terms). -/
theorem dot3_apply (l : FVec Ideal S2048x1024 .bf16) (w : FVec Ideal S1024x7 .bf16) (r : Fin 2048) (n : Fin 7) :
    matmul dot_S2048x1024_S1024x7_S2048x7_1_0_0_1_n_n none l w (constant S2048x7 .f32 0x00000000#32) (ix2 r n)
      = ∑ k : Fin 1024, l (ix2 r k) * w (ix2 k n) := by
  refine (Ideal.matmul_constant_zero_apply dot_S2048x1024_S1024x7_S2048x7_1_0_0_1_n_n none l w (ix2 r n)).trans ?_
  rw [← Equiv.sum_comp (contrEquiv1 dot_S2048x1024_S1024x7_S2048x7_1_0_0_1_n_n 1024 rfl rfl).symm]
  refine Finset.sum_congr rfl fun k _ => ?_
  have hk := contrEquiv1_symm_val dot_S2048x1024_S1024x7_S2048x7_1_0_0_1_n_n 1024 rfl rfl k
  have el : dot_S2048x1024_S1024x7_S2048x7_1_0_0_1_n_n.lhsIdx (ix2 r n) ((contrEquiv1 dot_S2048x1024_S1024x7_S2048x7_1_0_0_1_n_n 1024 rfl rfl).symm k) = ix2 r k := funext fun a => Fin.ext (by
    match a with
    | ⟨0, _⟩ => exact dot3_apply_l0 _ _
    | ⟨1, _⟩ => exact (dot_S2048x1024_S1024x7_S2048x7_1_0_0_1_n_n.lhsIdx_val_of_single rfl _ _).trans hk)
  have er : dot_S2048x1024_S1024x7_S2048x7_1_0_0_1_n_n.rhsIdx (ix2 r n) ((contrEquiv1 dot_S2048x1024_S1024x7_S2048x7_1_0_0_1_n_n 1024 rfl rfl).symm k) = ix2 k n := funext fun a => Fin.ext (by
    match a with
    | ⟨0, _⟩ => exact (dot_S2048x1024_S1024x7_S2048x7_1_0_0_1_n_n.rhsIdx_val_of_single rfl _ _).trans hk
    | ⟨1, _⟩ => exact dot3_apply_r1 _ _)
  rw [el, er]

/-- A bias vector cast to one row and repeated down a block contributes its `n`-th entry at `(r, n)`. -/
theorem bias1024_apply (b : FVec Ideal S1024 .f32) (r : Fin 2048) (n : Fin 1024) :
    broadcastTo S2048x1024 (shapeCast S1x1024 b shapeCasts_S1024_S1x1024) broadcasts_S1x1024_S2048x1024 (ix2 r n) = b (ix1 n) := by
  rw [broadcastTo_1b_ab_apply, shapeCast_a_1a_apply]

theorem bias7_apply (b : FVec Ideal S7 .f32) (r : Fin 2048) (n : Fin 7) :
    broadcastTo S2048x7 (shapeCast S1x7 b shapeCasts_S7_S1x7) broadcasts_S1x7_S2048x7 (ix2 r n) = b (ix1 n) := by
  rw [broadcastTo_1b_ab_apply, shapeCast_a_1a_apply]

/-- The first hidden layer at `(r, n)`. -/
theorem hidden1_apply (l : FVec Ideal S2048x288 .bf16) (w : FVec Ideal S288x1024 .bf16) (b : FVec Ideal S1024 .f32)
    (r : Fin 2048) (n : Fin 1024) :
    maximumf (addf (matmul dot_S2048x288_S288x1024_S2048x1024_1_0_0_1_n_n none l (shapeCast S288x1024 w shapeCasts_S288x1024_S288x1024) (constant S2048x1024 .f32 0x00000000#32))
        (broadcastTo S2048x1024 (shapeCast S1x1024 b shapeCasts_S1024_S1x1024) broadcasts_S1x1024_S2048x1024))
      (broadcast S2048x1024 (Scalar.ofBits .f32 0x00000000#32)) (ix2 r n)
      = relu (dense (fun k => l (ix2 r k)) w b n) := by
  rw [shapeCast_self]
  show max (matmul dot_S2048x288_S288x1024_S2048x1024_1_0_0_1_n_n none l w (constant S2048x1024 .f32 0x00000000#32) (ix2 r n)
      + broadcastTo S2048x1024 (shapeCast S1x1024 b shapeCasts_S1024_S1x1024) broadcasts_S1x1024_S2048x1024 (ix2 r n)) lit0 = _
  rw [dot1_apply, bias1024_apply]
  rfl

/-- A later hidden layer at `(r, n)`. -/
theorem hidden2_apply (l : FVec Ideal S2048x1024 .bf16) (w : FVec Ideal S1024x1024 .bf16) (b : FVec Ideal S1024 .f32)
    (r : Fin 2048) (n : Fin 1024) :
    maximumf (addf (matmul dot_S2048x1024_S1024x1024_S2048x1024_1_0_0_1_n_n none l (shapeCast S1024x1024 w shapeCasts_S1024x1024_S1024x1024) (constant S2048x1024 .f32 0x00000000#32))
        (broadcastTo S2048x1024 (shapeCast S1x1024 b shapeCasts_S1024_S1x1024) broadcasts_S1x1024_S2048x1024))
      (broadcast S2048x1024 (Scalar.ofBits .f32 0x00000000#32)) (ix2 r n)
      = relu (dense (fun k => l (ix2 r k)) w b n) := by
  rw [shapeCast_self]
  show max (matmul dot_S2048x1024_S1024x1024_S2048x1024_1_0_0_1_n_n none l w (constant S2048x1024 .f32 0x00000000#32) (ix2 r n)
      + broadcastTo S2048x1024 (shapeCast S1x1024 b shapeCasts_S1024_S1x1024) broadcasts_S1x1024_S2048x1024 (ix2 r n)) lit0 = _
  rw [dot2_apply, bias1024_apply]
  rfl

/-- The affine head at `(r, n)`. -/
theorem headLayer_apply (l : FVec Ideal S2048x1024 .bf16) (w : FVec Ideal S1024x7 .bf16) (b : FVec Ideal S7 .f32)
    (r : Fin 2048) (n : Fin 7) :
    addf (matmul dot_S2048x1024_S1024x7_S2048x7_1_0_0_1_n_n none l (shapeCast S1024x7 w shapeCasts_S1024x7_S1024x7) (constant S2048x7 .f32 0x00000000#32))
        (broadcastTo S2048x7 (shapeCast S1x7 b shapeCasts_S7_S1x7) broadcasts_S1x7_S2048x7) (ix2 r n)
      = dense (fun k => l (ix2 r k)) w b n := by
  rw [shapeCast_self]
  show matmul dot_S2048x1024_S1024x7_S2048x7_1_0_0_1_n_n none l w (constant S2048x7 .f32 0x00000000#32) (ix2 r n)
      + broadcastTo S2048x7 (shapeCast S1x7 b shapeCasts_S7_S1x7) broadcasts_S1x7_S2048x7 (ix2 r n) = _
  rw [dot3_apply, bias7_apply]
  rfl

/-- THE BODY'S HEAD: entry `(r, n)` of the block's seven-column head is the specification's head of row `r`. -/
theorem head_apply (x0 : Vec Ideal S2048x288 .f32) (x1 : Vec Ideal S288x1024 .bf16) (x2 : Vec Ideal S1024 .f32)
    (x3 : Vec Ideal S1024x1024 .bf16) (x4 : Vec Ideal S1024 .f32) (x5 : Vec Ideal S1024x1024 .bf16) (x6 : Vec Ideal S1024 .f32)
    (x7 : Vec Ideal S1024x7 .bf16) (x8 : Vec Ideal S7 .f32) (r : Fin 2048) (n : Fin 7) :
    addf (k0_pay1 x0 x1 x2 x3 x4 x5 x6 x7) (k0_pay2 x8) (ix2 r n)
      = mlp (fun k => x0 (ix2 r k)) x1 x2 x3 x4 x5 x6 x7 x8 n := by
  unfold k0_pay1 k0_pay2 mlp
  dsimp only
  refine (headLayer_apply _ x7 x8 r n).trans ?_
  refine congrArg (fun h => dense h x7 x8 n) (funext fun k3 => ?_)
  refine (hidden2_apply _ x5 x6 r k3).trans ?_
  refine congrArg (fun h => relu (dense h x5 x6 k3)) (funext fun k2 => ?_)
  refine (hidden2_apply _ x3 x4 r k2).trans ?_
  refine congrArg (fun h => relu (dense h x3 x4 k2)) (funext fun k1 => ?_)
  exact hidden1_apply _ x1 x2 r k1

end Cert.KernelIdeal.BodyValue

end
-- ==== Proof.KernPose.lean ====
/-
  The rest of the kernel body, read one element at a time.

  After the head the body transposes the block's seven columns into seven rows of 2048 lanes, so lane r of
  row n is entry (r, n) of the head. Everything that follows acts lane by lane on single rows: the logistic
  function on the first six rows, tanh(·) + 1 on the seventh, products with the three literals, cosines and
  sines, and the short polynomials that are the entries of R and D. Each named value of the body, read at
  lane r, is therefore the specification's value of the same name for the head's row r. The three outputs
  with nine rows stack nine such rows; row a of a stack of nine one-row pieces is piece a.
-/
import proofs.«124405_j83932250898799_2_alg».proof.Proof.KernMlp

noncomputable section

open Idealize.ShloMosaic Idealize.ShloMosaic.ValueIdx
open scoped BigOperators

namespace Cert.KernelIdeal.BodyValue

open Cert.KernelIdeal Cert.KernelIdeal.Gen Cert.Pose

/-- Row `a` of nine one-row pieces stacked along the first axis is piece `a`. -/
theorem stack9_apply {α : Type} (p0 p1 p2 p3 p4 p5 p6 p7 p8 : S1x2048.Idx → α) (a : Fin 9) (r : Fin 2048) :
    concatenate S9x2048 0 [⟨S1x2048, p0⟩, ⟨S1x2048, p1⟩, ⟨S1x2048, p2⟩, ⟨S1x2048, p3⟩, ⟨S1x2048, p4⟩, ⟨S1x2048, p5⟩, ⟨S1x2048, p6⟩, ⟨S1x2048, p7⟩, ⟨S1x2048, p8⟩] concatenates_S1x2048_S1x2048_S1x2048_S1x2048_S1x2048_S1x2048_S1x2048_S1x2048_S1x2048_S9x2048_d0 (ix2 a r)
      = (![p0, p1, p2, p3, p4, p5, p6, p7, p8] : Fin 9 → S1x2048.Idx → α) a (ix2 (0 : Fin 1) r) := by
  fin_cases a
  · exact concatenate_apply_piece (0 : Fin S9x2048.rank) _ _ _ 0 (by simp) S1x2048 p0 rfl rfl 0 rfl (ix2 (0 : Fin 1) r)
      (fun b hb => by match b with | ⟨0, _⟩ => exact absurd rfl hb | ⟨1, _⟩ => rfl) rfl
  · exact concatenate_apply_piece (0 : Fin S9x2048.rank) _ _ _ 1 (by simp) S1x2048 p1 rfl rfl 1 rfl (ix2 (0 : Fin 1) r)
      (fun b hb => by match b with | ⟨0, _⟩ => exact absurd rfl hb | ⟨1, _⟩ => rfl) rfl
  · exact concatenate_apply_piece (0 : Fin S9x2048.rank) _ _ _ 2 (by simp) S1x2048 p2 rfl rfl 2 rfl (ix2 (0 : Fin 1) r)
      (fun b hb => by match b with | ⟨0, _⟩ => exact absurd rfl hb | ⟨1, _⟩ => rfl) rfl
  · exact concatenate_apply_piece (0 : Fin S9x2048.rank) _ _ _ 3 (by simp) S1x2048 p3 rfl rfl 3 rfl (ix2 (0 : Fin 1) r)
      (fun b hb => by match b with | ⟨0, _⟩ => exact absurd rfl hb | ⟨1, _⟩ => rfl) rfl
  · exact concatenate_apply_piece (0 : Fin S9x2048.rank) _ _ _ 4 (by simp) S1x2048 p4 rfl rfl 4 rfl (ix2 (0 : Fin 1) r)
      (fun b hb => by match b with | ⟨0, _⟩ => exact absurd rfl hb | ⟨1, _⟩ => rfl) rfl
  · exact concatenate_apply_piece (0 : Fin S9x2048.rank) _ _ _ 5 (by simp) S1x2048 p5 rfl rfl 5 rfl (ix2 (0 : Fin 1) r)
      (fun b hb => by match b with | ⟨0, _⟩ => exact absurd rfl hb | ⟨1, _⟩ => rfl) rfl
  · exact concatenate_apply_piece (0 : Fin S9x2048.rank) _ _ _ 6 (by simp) S1x2048 p6 rfl rfl 6 rfl (ix2 (0 : Fin 1) r)
      (fun b hb => by match b with | ⟨0, _⟩ => exact absurd rfl hb | ⟨1, _⟩ => rfl) rfl
  · exact concatenate_apply_piece (0 : Fin S9x2048.rank) _ _ _ 7 (by simp) S1x2048 p7 rfl rfl 7 rfl (ix2 (0 : Fin 1) r)
      (fun b hb => by match b with | ⟨0, _⟩ => exact absurd rfl hb | ⟨1, _⟩ => rfl) rfl
  · exact concatenate_apply_piece (0 : Fin S9x2048.rank) _ _ _ 8 (by simp) S1x2048 p8 rfl rfl 8 rfl (ix2 (0 : Fin 1) r)
      (fun b hb => by match b with | ⟨0, _⟩ => exact absurd rfl hb | ⟨1, _⟩ => rfl) rfl

/-- The head's row `r`: its seven numbers, bias included. -/
abbrev rowOf (v34 v37 : FVec Ideal S2048x7 .f32) (r : Fin 2048) : Fin 7 → EReal := fun n => addf v34 v37 (ix2 r n)

/-- The transposed head at row `n`, lane `r`. -/
theorem pay3_apply (v34 v37 : FVec Ideal S2048x7 .f32) (r : Fin 2048) (n : Fin 7) :
    k0_pay3 v34 v37 (ix2 n r) = rowOf v34 v37 r n := by
  unfold k0_pay3
  exact transpose_ix2_apply _ _ n r

/-- The logistic rows. -/
theorem pay4_apply (v34 v37 : FVec Ideal S2048x7 .f32) (r : Fin 2048) (g : Fin 6) :
    k0_pay4 v34 v37 (ix2 g r) = gate (rowOf v34 v37 r) ⟨g.val, by omega⟩ := by
  unfold k0_pay4
  show FloatOps.logistic (extractStridedSlice S6x2048 ![0, 0] (k0_pay3 v34 v37) slices_S7x2048_o0_0_S6x2048 (ix2 g r)) = _
  rw [slice2_axis0_apply 0 _ _ g r (⟨g.val, by omega⟩ : Fin 7) (by simp), pay3_apply]
  rfl

theorem pay5_apply (v34 v37 : FVec Ideal S2048x7 .f32) (r : Fin 2048) (u : Fin 1) :
    k0_pay5 v34 v37 (ix2 u r) = shift (rowOf v34 v37 r) := by
  have hu : u.val = 0 := by omega
  unfold k0_pay5
  show FloatOps.tanh (extractStridedSlice S1x2048 ![6, 0] (k0_pay3 v34 v37) slices_S7x2048_o6_0_S1x2048 (ix2 u r)) + lit1 = _
  rw [slice2_axis0_apply 6 _ _ u r (6 : Fin 7) (by rw [hu]; rfl), pay3_apply]
  rfl

theorem pay6_apply (v34 v37 : FVec Ideal S2048x7 .f32) (r : Fin 2048) (u : Fin 1) :
    k0_pay6 v34 v37 (ix2 u r) = angX (rowOf v34 v37 r) := by
  have hu : u.val = 0 := by omega
  unfold k0_pay6
  show extractStridedSlice S1x2048 ![0, 0] (k0_pay4 v34 v37) slices_S6x2048_o0_0_S1x2048 (ix2 u r) * lit2pi = _
  rw [slice2_axis0_apply 0 _ _ u r (0 : Fin 6) (by rw [hu]; rfl), pay4_apply]
  rfl

theorem pay7_apply (v34 v37 : FVec Ideal S2048x7 .f32) (r : Fin 2048) (u : Fin 1) :
    k0_pay7 v34 v37 (ix2 u r) = angY (rowOf v34 v37 r) := by
  have hu : u.val = 0 := by omega
  unfold k0_pay7
  show extractStridedSlice S1x2048 ![1, 0] (k0_pay4 v34 v37) slices_S6x2048_o1_0_S1x2048 (ix2 u r) * litpi = _
  rw [slice2_axis0_apply 1 _ _ u r (1 : Fin 6) (by rw [hu]; rfl), pay4_apply]
  rfl

theorem pay8_apply (v34 v37 : FVec Ideal S2048x7 .f32) (r : Fin 2048) (u : Fin 1) :
    k0_pay8 v34 v37 (ix2 u r) = angZ (rowOf v34 v37 r) := by
  have hu : u.val = 0 := by omega
  unfold k0_pay8
  show extractStridedSlice S1x2048 ![2, 0] (k0_pay4 v34 v37) slices_S6x2048_o2_0_S1x2048 (ix2 u r) * lit2pi = _
  rw [slice2_axis0_apply 2 _ _ u r (2 : Fin 6) (by rw [hu]; rfl), pay4_apply]
  rfl

theorem pay9_apply (v34 v37 : FVec Ideal S2048x7 .f32) (r : Fin 2048) (u : Fin 1) :
    k0_pay9 v34 v37 (ix2 u r) = eig1 (rowOf v34 v37 r) := by
  have hu : u.val = 0 := by omega
  unfold k0_pay9
  show extractStridedSlice S1x2048 ![3, 0] (k0_pay4 v34 v37) slices_S6x2048_o3_0_S1x2048 (ix2 u r) * litThr = _
  rw [slice2_axis0_apply 3 _ _ u r (3 : Fin 6) (by rw [hu]; rfl), pay4_apply]
  rfl

theorem pay10_apply (v34 v37 : FVec Ideal S2048x7 .f32) (r : Fin 2048) (u : Fin 1) :
    k0_pay10 v34 v37 (ix2 u r) = eig2 (rowOf v34 v37 r) := by
  have hu : u.val = 0 := by omega
  unfold k0_pay10
  show k0_pay9 v34 v37 (ix2 u r) * extractStridedSlice S1x2048 ![4, 0] (k0_pay4 v34 v37) slices_S6x2048_o4_0_S1x2048 (ix2 u r) = _
  rw [slice2_axis0_apply 4 _ _ u r (4 : Fin 6) (by rw [hu]; rfl), pay4_apply, pay9_apply]
  rfl

theorem pay11_apply (v34 v37 : FVec Ideal S2048x7 .f32) (r : Fin 2048) (u : Fin 1) :
    k0_pay11 v34 v37 (ix2 u r) = eig3 (rowOf v34 v37 r) := by
  have hu : u.val = 0 := by omega
  unfold k0_pay11
  show k0_pay10 v34 v37 (ix2 u r) * extractStridedSlice S1x2048 ![5, 0] (k0_pay4 v34 v37) slices_S6x2048_o5_0_S1x2048 (ix2 u r) = _
  rw [slice2_axis0_apply 5 _ _ u r (5 : Fin 6) (by rw [hu]; rfl), pay4_apply, pay10_apply]
  rfl

theorem pay12_apply (v34 v37 : FVec Ideal S2048x7 .f32) (r : Fin 2048) (u : Fin 1) :
    k0_pay12 v34 v37 (ix2 u r) = cx (rowOf v34 v37 r) := by
  unfold k0_pay12
  show FloatOps.cos (k0_pay6 v34 v37 (ix2 u r)) = _
  rw [pay6_apply]
  rfl

theorem pay13_apply (v34 v37 : FVec Ideal S2048x7 .f32) (r : Fin 2048) (u : Fin 1) :
    k0_pay13 v34 v37 (ix2 u r) = sx (rowOf v34 v37 r) := by
  unfold k0_pay13
  show FloatOps.sin (k0_pay6 v34 v37 (ix2 u r)) = _
  rw [pay6_apply]
  rfl

theorem pay14_apply (v34 v37 : FVec Ideal S2048x7 .f32) (r : Fin 2048) (u : Fin 1) :
    k0_pay14 v34 v37 (ix2 u r) = cy (rowOf v34 v37 r) := by
  unfold k0_pay14
  show FloatOps.cos (k0_pay7 v34 v37 (ix2 u r)) = _
  rw [pay7_apply]
  rfl

theorem pay15_apply (v34 v37 : FVec Ideal S2048x7 .f32) (r : Fin 2048) (u : Fin 1) :
    k0_pay15 v34 v37 (ix2 u r) = sy (rowOf v34 v37 r) := by
  unfold k0_pay15
  show FloatOps.sin (k0_pay7 v34 v37 (ix2 u r)) = _
  rw [pay7_apply]
  rfl

theorem pay16_apply (v34 v37 : FVec Ideal S2048x7 .f32) (r : Fin 2048) (u : Fin 1) :
    k0_pay16 v34 v37 (ix2 u r) = cz (rowOf v34 v37 r) := by
  unfold k0_pay16
  show FloatOps.cos (k0_pay8 v34 v37 (ix2 u r)) = _
  rw [pay8_apply]
  rfl

theorem pay17_apply (v34 v37 : FVec Ideal S2048x7 .f32) (r : Fin 2048) (u : Fin 1) :
    k0_pay17 v34 v37 (ix2 u r) = sz (rowOf v34 v37 r) := by
  unfold k0_pay17
  show FloatOps.sin (k0_pay8 v34 v37 (ix2 u r)) = _
  rw [pay8_apply]
  rfl

theorem pay19_apply (v34 v37 : FVec Ideal S2048x7 .f32) (r : Fin 2048) (u : Fin 1) :
    k0_pay19 v34 v37 (ix2 u r) = r00 (rowOf v34 v37 r) := by
  unfold k0_pay19
  show k0_pay16 v34 v37 (ix2 u r) * k0_pay14 v34 v37 (ix2 u r) = _
  rw [pay16_apply, pay14_apply]
  rfl

theorem pay20_apply (v34 v37 : FVec Ideal S2048x7 .f32) (r : Fin 2048) (u : Fin 1) :
    k0_pay20 v34 v37 (ix2 u r) = r01 (rowOf v34 v37 r) := by
  unfold k0_pay20
  show k0_pay16 v34 v37 (ix2 u r) * k0_pay15 v34 v37 (ix2 u r) * k0_pay13 v34 v37 (ix2 u r) - k0_pay17 v34 v37 (ix2 u r) * k0_pay12 v34 v37 (ix2 u r) = _
  rw [pay16_apply, pay15_apply, pay13_apply, pay17_apply, pay12_apply]
  rfl

theorem pay21_apply (v34 v37 : FVec Ideal S2048x7 .f32) (r : Fin 2048) (u : Fin 1) :
    k0_pay21 v34 v37 (ix2 u r) = r02 (rowOf v34 v37 r) := by
  unfold k0_pay21
  show k0_pay16 v34 v37 (ix2 u r) * k0_pay15 v34 v37 (ix2 u r) * k0_pay12 v34 v37 (ix2 u r) + k0_pay17 v34 v37 (ix2 u r) * k0_pay13 v34 v37 (ix2 u r) = _
  rw [pay16_apply, pay15_apply, pay12_apply, pay17_apply, pay13_apply]
  rfl

theorem pay22_apply (v34 v37 : FVec Ideal S2048x7 .f32) (r : Fin 2048) (u : Fin 1) :
    k0_pay22 v34 v37 (ix2 u r) = r10 (rowOf v34 v37 r) := by
  unfold k0_pay22
  show k0_pay17 v34 v37 (ix2 u r) * k0_pay14 v34 v37 (ix2 u r) = _
  rw [pay17_apply, pay14_apply]
  rfl

theorem pay23_apply (v34 v37 : FVec Ideal S2048x7 .f32) (r : Fin 2048) (u : Fin 1) :
    k0_pay23 v34 v37 (ix2 u r) = r11 (rowOf v34 v37 r) := by
  unfold k0_pay23
  show k0_pay17 v34 v37 (ix2 u r) * k0_pay15 v34 v37 (ix2 u r) * k0_pay13 v34 v37 (ix2 u r) + k0_pay16 v34 v37 (ix2 u r) * k0_pay12 v34 v37 (ix2 u r) = _
  rw [pay17_apply, pay15_apply, pay13_apply, pay16_apply, pay12_apply]
  rfl

theorem pay24_apply (v34 v37 : FVec Ideal S2048x7 .f32) (r : Fin 2048) (u : Fin 1) :
    k0_pay24 v34 v37 (ix2 u r) = r12 (rowOf v34 v37 r) := by
  unfold k0_pay24
  show k0_pay17 v34 v37 (ix2 u r) * k0_pay15 v34 v37 (ix2 u r) * k0_pay12 v34 v37 (ix2 u r) - k0_pay16 v34 v37 (ix2 u r) * k0_pay13 v34 v37 (ix2 u r) = _
  rw [pay17_apply, pay15_apply, pay12_apply, pay16_apply, pay13_apply]
  rfl

theorem pay25_apply (v34 v37 : FVec Ideal S2048x7 .f32) (r : Fin 2048) (u : Fin 1) :
    k0_pay25 v34 v37 (ix2 u r) = r20 (rowOf v34 v37 r) := by
  unfold k0_pay25
  show lit0 - k0_pay15 v34 v37 (ix2 u r) = _
  rw [pay15_apply]
  rfl

theorem pay26_apply (v34 v37 : FVec Ideal S2048x7 .f32) (r : Fin 2048) (u : Fin 1) :
    k0_pay26 v34 v37 (ix2 u r) = r21 (rowOf v34 v37 r) := by
  unfold k0_pay26
  show k0_pay14 v34 v37 (ix2 u r) * k0_pay13 v34 v37 (ix2 u r) = _
  rw [pay14_apply, pay13_apply]
  rfl

theorem pay27_apply (v34 v37 : FVec Ideal S2048x7 .f32) (r : Fin 2048) (u : Fin 1) :
    k0_pay27 v34 v37 (ix2 u r) = r22 (rowOf v34 v37 r) := by
  unfold k0_pay27
  show k0_pay14 v34 v37 (ix2 u r) * k0_pay12 v34 v37 (ix2 u r) = _
  rw [pay14_apply, pay12_apply]
  rfl

end Cert.KernelIdeal.BodyValue

end
-- ==== Proof.KernOut.lean ====
/-
  What the body leaves in each output block, element by element.

  Each output block is written by ONE store of the whole block, so the block after the body is the stored
  value. Row a of the three nine-row outputs is the a-th of nine stacked single rows; lane r of that row is
  the corresponding entry of R, E or D (in closed form, row-major) for the head of the block's row r. The
  one-row output holds tanh(·) + 1 of the seventh head number of row r at lane r.
-/
import proofs.«124405_j83932250898799_2_alg».proof.Proof.KernPose
import proofs.«124405_j83932250898799_2_alg».proof.Proof.Gen.KernelIdeal.Frame

noncomputable section

open Idealize.ShloMosaic Idealize.ShloMosaic.ValueIdx
open scoped BigOperators

namespace Cert.KernelIdeal.BodyValue

open Cert.KernelIdeal Cert.KernelIdeal.Gen Cert.Pose

theorem hz2 : (![0, 0] : Fin 2 → Nat) = fun _ => 0 := funext fun a => by fin_cases a <;> rfl
theorem hz1 : (![0] : Fin 1 → Nat) = fun _ => 0 := funext fun a => by fin_cases a <;> rfl

/-- The head's row `r` of the block is the specification's head of the block's input row `r`. -/
theorem row_eq (x0 : Vec Ideal S2048x288 .f32) (x1 : Vec Ideal S288x1024 .bf16) (x2 : Vec Ideal S1024 .f32)
    (x3 : Vec Ideal S1024x1024 .bf16) (x4 : Vec Ideal S1024 .f32) (x5 : Vec Ideal S1024x1024 .bf16) (x6 : Vec Ideal S1024 .f32)
    (x7 : Vec Ideal S1024x7 .bf16) (x8 : Vec Ideal S7 .f32) (r : Fin 2048) :
    rowOf (k0_pay1 x0 x1 x2 x3 x4 x5 x6 x7) (k0_pay2 x8) r = mlp (fun k => x0 (ix2 r k)) x1 x2 x3 x4 x5 x6 x7 x8 :=
  funext fun n => head_apply x0 x1 x2 x3 x4 x5 x6 x7 x8 r n

/-- The block of R: row `a`, lane `r`. -/
theorem out9_apply (x0 : Vec Ideal S2048x288 .f32) (x1 : Vec Ideal S288x1024 .bf16) (x2 : Vec Ideal S1024 .f32)
    (x3 : Vec Ideal S1024x1024 .bf16) (x4 : Vec Ideal S1024 .f32) (x5 : Vec Ideal S1024x1024 .bf16) (x6 : Vec Ideal S1024 .f32)
    (x7 : Vec Ideal S1024x7 .bf16) (x8 : Vec Ideal S7 .f32) (a : Fin 9) (r : Fin 2048) :
    out0_9 x0 x1 x2 x3 x4 x5 x6 x7 x8 (ix2 a r) = rotK (mlp (fun k => x0 (ix2 r k)) x1 x2 x3 x4 x5 x6 x7 x8) a := by
  have hrow := row_eq x0 x1 x2 x3 x4 x5 x6 x7 x8 r
  unfold out0_9
  rw [View.canon_unit_zero hz2]
  simp only [View.ld_unit_zero (S := S2048x288) hz2, View.ld_unit_zero (S := S288x1024) hz2, View.ld_unit_zero (S := S1024) hz1,
    View.ld_unit_zero (S := S1024x1024) hz2, View.ld_unit_zero (S := S1024x7) hz2, View.ld_unit_zero (S := S7) hz1]
  unfold k0_pay28
  refine (stack9_apply _ _ _ _ _ _ _ _ _ a r).trans ?_
  fin_cases a
  · show k0_pay19 (k0_pay1 x0 x1 x2 x3 x4 x5 x6 x7) (k0_pay2 x8) (ix2 (0 : Fin 1) r) = r00 _
    rw [pay19_apply, hrow]
  · show k0_pay20 (k0_pay1 x0 x1 x2 x3 x4 x5 x6 x7) (k0_pay2 x8) (ix2 (0 : Fin 1) r) = r01 _
    rw [pay20_apply, hrow]
  · show k0_pay21 (k0_pay1 x0 x1 x2 x3 x4 x5 x6 x7) (k0_pay2 x8) (ix2 (0 : Fin 1) r) = r02 _
    rw [pay21_apply, hrow]
  · show k0_pay22 (k0_pay1 x0 x1 x2 x3 x4 x5 x6 x7) (k0_pay2 x8) (ix2 (0 : Fin 1) r) = r10 _
    rw [pay22_apply, hrow]
  · show k0_pay23 (k0_pay1 x0 x1 x2 x3 x4 x5 x6 x7) (k0_pay2 x8) (ix2 (0 : Fin 1) r) = r11 _
    rw [pay23_apply, hrow]
  · show k0_pay24 (k0_pay1 x0 x1 x2 x3 x4 x5 x6 x7) (k0_pay2 x8) (ix2 (0 : Fin 1) r) = r12 _
    rw [pay24_apply, hrow]
  · show k0_pay25 (k0_pay1 x0 x1 x2 x3 x4 x5 x6 x7) (k0_pay2 x8) (ix2 (0 : Fin 1) r) = r20 _
    rw [pay25_apply, hrow]
  · show k0_pay26 (k0_pay1 x0 x1 x2 x3 x4 x5 x6 x7) (k0_pay2 x8) (ix2 (0 : Fin 1) r) = r21 _
    rw [pay26_apply, hrow]
  · show k0_pay27 (k0_pay1 x0 x1 x2 x3 x4 x5 x6 x7) (k0_pay2 x8) (ix2 (0 : Fin 1) r) = r22 _
    rw [pay27_apply, hrow]

/-- The block of E: row `a`, lane `r`. -/
theorem out10_apply (x0 : Vec Ideal S2048x288 .f32) (x1 : Vec Ideal S288x1024 .bf16) (x2 : Vec Ideal S1024 .f32)
    (x3 : Vec Ideal S1024x1024 .bf16) (x4 : Vec Ideal S1024 .f32) (x5 : Vec Ideal S1024x1024 .bf16) (x6 : Vec Ideal S1024 .f32)
    (x7 : Vec Ideal S1024x7 .bf16) (x8 : Vec Ideal S7 .f32) (a : Fin 9) (r : Fin 2048) :
    out0_10 x0 x1 x2 x3 x4 x5 x6 x7 x8 (ix2 a r) = eigK (mlp (fun k => x0 (ix2 r k)) x1 x2 x3 x4 x5 x6 x7 x8) a := by
  have hrow := row_eq x0 x1 x2 x3 x4 x5 x6 x7 x8 r
  unfold out0_10
  rw [View.canon_unit_zero hz2]
  simp only [View.ld_unit_zero (S := S2048x288) hz2, View.ld_unit_zero (S := S288x1024) hz2, View.ld_unit_zero (S := S1024) hz1,
    View.ld_unit_zero (S := S1024x1024) hz2, View.ld_unit_zero (S := S1024x7) hz2, View.ld_unit_zero (S := S7) hz1]
  unfold k0_pay29
  refine (stack9_apply _ _ _ _ _ _ _ _ _ a r).trans ?_
  fin_cases a
  · show k0_pay9 (k0_pay1 x0 x1 x2 x3 x4 x5 x6 x7) (k0_pay2 x8) (ix2 (0 : Fin 1) r) = eig1 _
    rw [pay9_apply, hrow]
  · rfl
  · rfl
  · rfl
  · show k0_pay10 (k0_pay1 x0 x1 x2 x3 x4 x5 x6 x7) (k0_pay2 x8) (ix2 (0 : Fin 1) r) = eig2 _
    rw [pay10_apply, hrow]
  · rfl
  · rfl
  · rfl
  · show k0_pay11 (k0_pay1 x0 x1 x2 x3 x4 x5 x6 x7) (k0_pay2 x8) (ix2 (0 : Fin 1) r) = eig3 _
    rw [pay11_apply, hrow]

/-- The block of D: row `a`, lane `r`. -/
theorem out11_apply (x0 : Vec Ideal S2048x288 .f32) (x1 : Vec Ideal S288x1024 .bf16) (x2 : Vec Ideal S1024 .f32)
    (x3 : Vec Ideal S1024x1024 .bf16) (x4 : Vec Ideal S1024 .f32) (x5 : Vec Ideal S1024x1024 .bf16) (x6 : Vec Ideal S1024 .f32)
    (x7 : Vec Ideal S1024x7 .bf16) (x8 : Vec Ideal S7 .f32) (a : Fin 9) (r : Fin 2048) :
    out0_11 x0 x1 x2 x3 x4 x5 x6 x7 x8 (ix2 a r) = diffK (mlp (fun k => x0 (ix2 r k)) x1 x2 x3 x4 x5 x6 x7 x8) a := by
  have hrow := row_eq x0 x1 x2 x3 x4 x5 x6 x7 x8 r
  unfold out0_11
  rw [View.canon_unit_zero hz2]
  simp only [View.ld_unit_zero (S := S2048x288) hz2, View.ld_unit_zero (S := S288x1024) hz2, View.ld_unit_zero (S := S1024) hz1,
    View.ld_unit_zero (S := S1024x1024) hz2, View.ld_unit_zero (S := S1024x7) hz2, View.ld_unit_zero (S := S7) hz1]
  unfold k0_pay30
  refine (stack9_apply _ _ _ _ _ _ _ _ _ a r).trans ?_
  fin_cases a
  · show k0_pay9 (k0_pay1 x0 x1 x2 x3 x4 x5 x6 x7) (k0_pay2 x8) (ix2 (0 : Fin 1) r) * k0_pay19 (k0_pay1 x0 x1 x2 x3 x4 x5 x6 x7) (k0_pay2 x8) (ix2 (0 : Fin 1) r) * k0_pay19 (k0_pay1 x0 x1 x2 x3 x4 x5 x6 x7) (k0_pay2 x8) (ix2 (0 : Fin 1) r) + k0_pay10 (k0_pay1 x0 x1 x2 x3 x4 x5 x6 x7) (k0_pay2 x8) (ix2 (0 : Fin 1) r) * k0_pay20 (k0_pay1 x0 x1 x2 x3 x4 x5 x6 x7) (k0_pay2 x8) (ix2 (0 : Fin 1) r) * k0_pay20 (k0_pay1 x0 x1 x2 x3 x4 x5 x6 x7) (k0_pay2 x8) (ix2 (0 : Fin 1) r) + k0_pay11 (k0_pay1 x0 x1 x2 x3 x4 x5 x6 x7) (k0_pay2 x8) (ix2 (0 : Fin 1) r) * k0_pay21 (k0_pay1 x0 x1 x2 x3 x4 x5 x6 x7) (k0_pay2 x8) (ix2 (0 : Fin 1) r) * k0_pay21 (k0_pay1 x0 x1 x2 x3 x4 x5 x6 x7) (k0_pay2 x8) (ix2 (0 : Fin 1) r) = d00 _
    rw [pay9_apply, pay10_apply, pay11_apply, pay19_apply, pay20_apply, pay21_apply, hrow]
    rfl
  · show k0_pay9 (k0_pay1 x0 x1 x2 x3 x4 x5 x6 x7) (k0_pay2 x8) (ix2 (0 : Fin 1) r) * k0_pay19 (k0_pay1 x0 x1 x2 x3 x4 x5 x6 x7) (k0_pay2 x8) (ix2 (0 : Fin 1) r) * k0_pay22 (k0_pay1 x0 x1 x2 x3 x4 x5 x6 x7) (k0_pay2 x8) (ix2 (0 : Fin 1) r) + k0_pay10 (k0_pay1 x0 x1 x2 x3 x4 x5 x6 x7) (k0_pay2 x8) (ix2 (0 : Fin 1) r) * k0_pay20 (k0_pay1 x0 x1 x2 x3 x4 x5 x6 x7) (k0_pay2 x8) (ix2 (0 : Fin 1) r) * k0_pay23 (k0_pay1 x0 x1 x2 x3 x4 x5 x6 x7) (k0_pay2 x8) (ix2 (0 : Fin 1) r) + k0_pay11 (k0_pay1 x0 x1 x2 x3 x4 x5 x6 x7) (k0_pay2 x8) (ix2 (0 : Fin 1) r) * k0_pay21 (k0_pay1 x0 x1 x2 x3 x4 x5 x6 x7) (k0_pay2 x8) (ix2 (0 : Fin 1) r) * k0_pay24 (k0_pay1 x0 x1 x2 x3 x4 x5 x6 x7) (k0_pay2 x8) (ix2 (0 : Fin 1) r) = d01 _
    rw [pay9_apply, pay10_apply, pay11_apply, pay19_apply, pay22_apply, pay20_apply, pay23_apply, pay21_apply, pay24_apply, hrow]
    rfl
  · show k0_pay9 (k0_pay1 x0 x1 x2 x3 x4 x5 x6 x7) (k0_pay2 x8) (ix2 (0 : Fin 1) r) * k0_pay19 (k0_pay1 x0 x1 x2 x3 x4 x5 x6 x7) (k0_pay2 x8) (ix2 (0 : Fin 1) r) * k0_pay25 (k0_pay1 x0 x1 x2 x3 x4 x5 x6 x7) (k0_pay2 x8) (ix2 (0 : Fin 1) r) + k0_pay10 (k0_pay1 x0 x1 x2 x3 x4 x5 x6 x7) (k0_pay2 x8) (ix2 (0 : Fin 1) r) * k0_pay20 (k0_pay1 x0 x1 x2 x3 x4 x5 x6 x7) (k0_pay2 x8) (ix2 (0 : Fin 1) r) * k0_pay26 (k0_pay1 x0 x1 x2 x3 x4 x5 x6 x7) (k0_pay2 x8) (ix2 (0 : Fin 1) r) + k0_pay11 (k0_pay1 x0 x1 x2 x3 x4 x5 x6 x7) (k0_pay2 x8) (ix2 (0 : Fin 1) r) * k0_pay21 (k0_pay1 x0 x1 x2 x3 x4 x5 x6 x7) (k0_pay2 x8) (ix2 (0 : Fin 1) r) * k0_pay27 (k0_pay1 x0 x1 x2 x3 x4 x5 x6 x7) (k0_pay2 x8) (ix2 (0 : Fin 1) r) = d02 _
    rw [pay9_apply, pay10_apply, pay11_apply, pay19_apply, pay25_apply, pay20_apply, pay26_apply, pay21_apply, pay27_apply, hrow]
    rfl
  · show k0_pay9 (k0_pay1 x0 x1 x2 x3 x4 x5 x6 x7) (k0_pay2 x8) (ix2 (0 : Fin 1) r) * k0_pay19 (k0_pay1 x0 x1 x2 x3 x4 x5 x6 x7) (k0_pay2 x8) (ix2 (0 : Fin 1) r) * k0_pay22 (k0_pay1 x0 x1 x2 x3 x4 x5 x6 x7) (k0_pay2 x8) (ix2 (0 : Fin 1) r) + k0_pay10 (k0_pay1 x0 x1 x2 x3 x4 x5 x6 x7) (k0_pay2 x8) (ix2 (0 : Fin 1) r) * k0_pay20 (k0_pay1 x0 x1 x2 x3 x4 x5 x6 x7) (k0_pay2 x8) (ix2 (0 : Fin 1) r) * k0_pay23 (k0_pay1 x0 x1 x2 x3 x4 x5 x6 x7) (k0_pay2 x8) (ix2 (0 : Fin 1) r) + k0_pay11 (k0_pay1 x0 x1 x2 x3 x4 x5 x6 x7) (k0_pay2 x8) (ix2 (0 : Fin 1) r) * k0_pay21 (k0_pay1 x0 x1 x2 x3 x4 x5 x6 x7) (k0_pay2 x8) (ix2 (0 : Fin 1) r) * k0_pay24 (k0_pay1 x0 x1 x2 x3 x4 x5 x6 x7) (k0_pay2 x8) (ix2 (0 : Fin 1) r) = d01 _
    rw [pay9_apply, pay10_apply, pay11_apply, pay19_apply, pay22_apply, pay20_apply, pay23_apply, pay21_apply, pay24_apply, hrow]
    rfl
  · show k0_pay9 (k0_pay1 x0 x1 x2 x3 x4 x5 x6 x7) (k0_pay2 x8) (ix2 (0 : Fin 1) r) * k0_pay22 (k0_pay1 x0 x1 x2 x3 x4 x5 x6 x7) (k0_pay2 x8) (ix2 (0 : Fin 1) r) * k0_pay22 (k0_pay1 x0 x1 x2 x3 x4 x5 x6 x7) (k0_pay2 x8) (ix2 (0 : Fin 1) r) + k0_pay10 (k0_pay1 x0 x1 x2 x3 x4 x5 x6 x7) (k0_pay2 x8) (ix2 (0 : Fin 1) r) * k0_pay23 (k0_pay1 x0 x1 x2 x3 x4 x5 x6 x7) (k0_pay2 x8) (ix2 (0 : Fin 1) r) * k0_pay23 (k0_pay1 x0 x1 x2 x3 x4 x5 x6 x7) (k0_pay2 x8) (ix2 (0 : Fin 1) r) + k0_pay11 (k0_pay1 x0 x1 x2 x3 x4 x5 x6 x7) (k0_pay2 x8) (ix2 (0 : Fin 1) r) * k0_pay24 (k0_pay1 x0 x1 x2 x3 x4 x5 x6 x7) (k0_pay2 x8) (ix2 (0 : Fin 1) r) * k0_pay24 (k0_pay1 x0 x1 x2 x3 x4 x5 x6 x7) (k0_pay2 x8) (ix2 (0 : Fin 1) r) = d11 _
    rw [pay9_apply, pay10_apply, pay11_apply, pay22_apply, pay23_apply, pay24_apply, hrow]
    rfl
  · show k0_pay9 (k0_pay1 x0 x1 x2 x3 x4 x5 x6 x7) (k0_pay2 x8) (ix2 (0 : Fin 1) r) * k0_pay22 (k0_pay1 x0 x1 x2 x3 x4 x5 x6 x7) (k0_pay2 x8) (ix2 (0 : Fin 1) r) * k0_pay25 (k0_pay1 x0 x1 x2 x3 x4 x5 x6 x7) (k0_pay2 x8) (ix2 (0 : Fin 1) r) + k0_pay10 (k0_pay1 x0 x1 x2 x3 x4 x5 x6 x7) (k0_pay2 x8) (ix2 (0 : Fin 1) r) * k0_pay23 (k0_pay1 x0 x1 x2 x3 x4 x5 x6 x7) (k0_pay2 x8) (ix2 (0 : Fin 1) r) * k0_pay26 (k0_pay1 x0 x1 x2 x3 x4 x5 x6 x7) (k0_pay2 x8) (ix2 (0 : Fin 1) r) + k0_pay11 (k0_pay1 x0 x1 x2 x3 x4 x5 x6 x7) (k0_pay2 x8) (ix2 (0 : Fin 1) r) * k0_pay24 (k0_pay1 x0 x1 x2 x3 x4 x5 x6 x7) (k0_pay2 x8) (ix2 (0 : Fin 1) r) * k0_pay27 (k0_pay1 x0 x1 x2 x3 x4 x5 x6 x7) (k0_pay2 x8) (ix2 (0 : Fin 1) r) = d12 _
    rw [pay9_apply, pay10_apply, pay11_apply, pay22_apply, pay25_apply, pay23_apply, pay26_apply, pay24_apply, pay27_apply, hrow]
    rfl
  · show k0_pay9 (k0_pay1 x0 x1 x2 x3 x4 x5 x6 x7) (k0_pay2 x8) (ix2 (0 : Fin 1) r) * k0_pay19 (k0_pay1 x0 x1 x2 x3 x4 x5 x6 x7) (k0_pay2 x8) (ix2 (0 : Fin 1) r) * k0_pay25 (k0_pay1 x0 x1 x2 x3 x4 x5 x6 x7) (k0_pay2 x8) (ix2 (0 : Fin 1) r) + k0_pay10 (k0_pay1 x0 x1 x2 x3 x4 x5 x6 x7) (k0_pay2 x8) (ix2 (0 : Fin 1) r) * k0_pay20 (k0_pay1 x0 x1 x2 x3 x4 x5 x6 x7) (k0_pay2 x8) (ix2 (0 : Fin 1) r) * k0_pay26 (k0_pay1 x0 x1 x2 x3 x4 x5 x6 x7) (k0_pay2 x8) (ix2 (0 : Fin 1) r) + k0_pay11 (k0_pay1 x0 x1 x2 x3 x4 x5 x6 x7) (k0_pay2 x8) (ix2 (0 : Fin 1) r) * k0_pay21 (k0_pay1 x0 x1 x2 x3 x4 x5 x6 x7) (k0_pay2 x8) (ix2 (0 : Fin 1) r) * k0_pay27 (k0_pay1 x0 x1 x2 x3 x4 x5 x6 x7) (k0_pay2 x8) (ix2 (0 : Fin 1) r) = d02 _
    rw [pay9_apply, pay10_apply, pay11_apply, pay19_apply, pay25_apply, pay20_apply, pay26_apply, pay21_apply, pay27_apply, hrow]
    rfl
  · show k0_pay9 (k0_pay1 x0 x1 x2 x3 x4 x5 x6 x7) (k0_pay2 x8) (ix2 (0 : Fin 1) r) * k0_pay22 (k0_pay1 x0 x1 x2 x3 x4 x5 x6 x7) (k0_pay2 x8) (ix2 (0 : Fin 1) r) * k0_pay25 (k0_pay1 x0 x1 x2 x3 x4 x5 x6 x7) (k0_pay2 x8) (ix2 (0 : Fin 1) r) + k0_pay10 (k0_pay1 x0 x1 x2 x3 x4 x5 x6 x7) (k0_pay2 x8) (ix2 (0 : Fin 1) r) * k0_pay23 (k0_pay1 x0 x1 x2 x3 x4 x5 x6 x7) (k0_pay2 x8) (ix2 (0 : Fin 1) r) * k0_pay26 (k0_pay1 x0 x1 x2 x3 x4 x5 x6 x7) (k0_pay2 x8) (ix2 (0 : Fin 1) r) + k0_pay11 (k0_pay1 x0 x1 x2 x3 x4 x5 x6 x7) (k0_pay2 x8) (ix2 (0 : Fin 1) r) * k0_pay24 (k0_pay1 x0 x1 x2 x3 x4 x5 x6 x7) (k0_pay2 x8) (ix2 (0 : Fin 1) r) * k0_pay27 (k0_pay1 x0 x1 x2 x3 x4 x5 x6 x7) (k0_pay2 x8) (ix2 (0 : Fin 1) r) = d12 _
    rw [pay9_apply, pay10_apply, pay11_apply, pay22_apply, pay25_apply, pay23_apply, pay26_apply, pay24_apply, pay27_apply, hrow]
    rfl
  · show k0_pay9 (k0_pay1 x0 x1 x2 x3 x4 x5 x6 x7) (k0_pay2 x8) (ix2 (0 : Fin 1) r) * k0_pay25 (k0_pay1 x0 x1 x2 x3 x4 x5 x6 x7) (k0_pay2 x8) (ix2 (0 : Fin 1) r) * k0_pay25 (k0_pay1 x0 x1 x2 x3 x4 x5 x6 x7) (k0_pay2 x8) (ix2 (0 : Fin 1) r) + k0_pay10 (k0_pay1 x0 x1 x2 x3 x4 x5 x6 x7) (k0_pay2 x8) (ix2 (0 : Fin 1) r) * k0_pay26 (k0_pay1 x0 x1 x2 x3 x4 x5 x6 x7) (k0_pay2 x8) (ix2 (0 : Fin 1) r) * k0_pay26 (k0_pay1 x0 x1 x2 x3 x4 x5 x6 x7) (k0_pay2 x8) (ix2 (0 : Fin 1) r) + k0_pay11 (k0_pay1 x0 x1 x2 x3 x4 x5 x6 x7) (k0_pay2 x8) (ix2 (0 : Fin 1) r) * k0_pay27 (k0_pay1 x0 x1 x2 x3 x4 x5 x6 x7) (k0_pay2 x8) (ix2 (0 : Fin 1) r) * k0_pay27 (k0_pay1 x0 x1 x2 x3 x4 x5 x6 x7) (k0_pay2 x8) (ix2 (0 : Fin 1) r) = d22 _
    rw [pay9_apply, pay10_apply, pay11_apply, pay25_apply, pay26_apply, pay27_apply, hrow]
    rfl

/-- The one-row block: lane `r`. -/
theorem out12_apply (x0 : Vec Ideal S2048x288 .f32) (x1 : Vec Ideal S288x1024 .bf16) (x2 : Vec Ideal S1024 .f32)
    (x3 : Vec Ideal S1024x1024 .bf16) (x4 : Vec Ideal S1024 .f32) (x5 : Vec Ideal S1024x1024 .bf16) (x6 : Vec Ideal S1024 .f32)
    (x7 : Vec Ideal S1024x7 .bf16) (x8 : Vec Ideal S7 .f32) (u : Fin 1) (r : Fin 2048) :
    out0_12 x0 x1 x2 x3 x4 x5 x6 x7 x8 (ix2 u r) = shift (mlp (fun k => x0 (ix2 r k)) x1 x2 x3 x4 x5 x6 x7 x8) := by
  have hrow := row_eq x0 x1 x2 x3 x4 x5 x6 x7 x8 r
  unfold out0_12
  rw [View.canon_unit_zero hz2]
  simp only [View.ld_unit_zero (S := S2048x288) hz2, View.ld_unit_zero (S := S288x1024) hz2, View.ld_unit_zero (S := S1024) hz1,
    View.ld_unit_zero (S := S1024x1024) hz2, View.ld_unit_zero (S := S1024x7) hz2, View.ld_unit_zero (S := S7) hz1]
  rw [pay5_apply, hrow]

end Cert.KernelIdeal.BodyValue

end
-- ==== Proof.KernArr.lean ====
/-
  From blocks to the arrays, on the kernel's side.

  The kernel runs over 64 grid points. At point t it reads rows 2048·t … 2048·t + 2047 of the input
  array (a block of 2048 rows) and the whole of every weight matrix and bias, and writes back column
  block t (2048 columns) of each of the four output arrays: three of shape [9, 131072] and one of shape
  [1, 131072]. What a point leaves in an output block, entry by entry, is the closed form of the pose
  (rotation, eigenvalue matrix, D, shift) of the perceptron's head for the block's row r.

  Here that is carried to the arrays: the input block's row r at point t is row 2048·t + r of the input
  array; the weights' and biases' blocks are their arrays (the host's conversion of the weights to a
  narrower format being the identity on the extended reals); so what point t writes back is block t of
  ONE function of the argument arrays — entry (a, j) is the closed form at the head of input row j.
  The 64 column blocks cover every column (column j lies in block j / 2048), hence after the run each
  output array IS that function.
-/
import proofs.«124405_j83932250898799_2_alg».proof.Proof.Gen.KernelIdeal.Frame
import proofs.«124405_j83932250898799_2_alg».proof.Proof.KernOut
import Idealize.ShloMosaic.Lib.Pipeline.Value

noncomputable section

namespace Cert.KernelIdeal.ArrValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## The printed index maps, decided once over the 64 grid points -/

/-- The input rows' block moves with the outputs' column block; every output's first block index is 0. -/
theorem idx_facts : ∀ t : Fin cfg0.N,
    win0_0.index t (0 : Fin 2) = win0_9.index t (1 : Fin 2) ∧ win0_0.index t (1 : Fin 2) = 0
    ∧ win0_9.index t (0 : Fin 2) = 0 ∧ win0_9.index t (1 : Fin 2) ≤ 63
    ∧ win0_10.index t = win0_9.index t ∧ win0_11.index t = win0_9.index t ∧ win0_12.index t = win0_9.index t :=
  (by decide +kernel : ∀ t : Fin grid0.N, _)

/-- The weights' and biases' blocks are their whole arrays: every block index is 0. -/
theorem idx_zero : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Every one of the 64 column blocks is some point's. -/
theorem idx_onto : ∀ q : Fin 64, ∃ t : Fin cfg0.N, win0_9.index t = ![0, q.val] :=
  (by decide +kernel : ∀ q : Fin 64, ∃ t : Fin grid0.N, win0_9.index t = ![0, q.val])

/-! ## The input blocks as the region finds them

A block's coordinate in its array is always (block index) × (block size) + the coordinate inside the
block. For the input rows that is row (block index)·2048 + r; for the weights and biases every block
index is 0 and the block is the array. The four weight matrices reach the region through a host
conversion to a narrower format, which on the extended reals is the identity. -/

/-- Row r of the input block at point t is row (the point's block index)·2048 + r of the input array. -/
theorem xblk_apply (c : Dev nD) (t : Fin cfg0.N) (r : Fin 2048) (k : Fin 288) (b : Fin 131072)
    (hb : b.val = win0_9.index t (1 : Fin 2) * 2048 + r.val) :
    (Gen.iblk m c 0 t : Vec Ideal S2048x288 .f32) (ix2 r k)
      = (m ((c : Thread nD τ).loc main_arg0) : S131072x288.Idx → EReal) (ix2 b k) := by
  obtain ⟨e0, e1, -⟩ := idx_facts t
  unfold Gen.iblk
  rw [View.read_apply]
  show V m c main_arg0 (((cfg0.win 0).blk t).view.emb (ix2 r k)) = _
  rw [V_main_arg0]
  refine congrArg _ ?_
  funext a; apply Fin.ext
  match a with
  | ⟨0, _⟩ => show win0_0.index t (0 : Fin 2) * 2048 + 1 * r.val = b.val; omega
  | ⟨1, _⟩ => show win0_0.index t (1 : Fin 2) * 288 + 1 * k.val = k.val; omega

/-- The array window 1 reads is argument 1 converted on the host; on the extended reals the conversion changes nothing. -/
theorem V_main_v0 (c : Dev nD) : (V m c main_v0 : S288x1024.Idx → EReal) = m ((c : Thread nD τ).loc main_arg1) := by
  show StableHlo.after hostOps0 (fun b => m (c, b)) (Proc.devRef .tc main_v0) = _
  after_results
  rfl

/-- Window 1's block at every point is its whole array. -/
theorem wblk1 (c : Dev nD) (t : Fin cfg0.N) :
    (Gen.iblk m c 1 t : Vec Ideal S288x1024 .bf16) = (m ((c : Thread nD τ).loc main_arg1) : S288x1024.Idx → EReal) := by
  obtain ⟨z10, z11, z20, z30, z31, z40, z50, z51, z60, z70, z71, z80⟩ := idx_zero t
  refine Eq.trans ?_ (V_main_v0 m c)
  unfold Gen.iblk
  funext y
  rw [View.read_apply]
  show V m c main_v0 (((cfg0.win 1).blk t).view.emb y) = V m c main_v0 y
  refine congrArg _ ?_
  funext a; apply Fin.ext
  match a with
  | ⟨0, _⟩ => show win0_1.index t (0 : Fin 2) * 288 + 1 * (y 0).val = (y 0).val; omega
  | ⟨1, _⟩ => show win0_1.index t (1 : Fin 2) * 1024 + 1 * (y 1).val = (y 1).val; omega

/-- Window 2's block at every point is its whole array. -/
theorem wblk2 (c : Dev nD) (t : Fin cfg0.N) :
    (Gen.iblk m c 2 t : Vec Ideal S1024 .f32) = (m ((c : Thread nD τ).loc main_arg2) : S1024.Idx → EReal) := by
  obtain ⟨z10, z11, z20, z30, z31, z40, z50, z51, z60, z70, z71, z80⟩ := idx_zero t
  refine Eq.trans ?_ (V_main_arg2 m c)
  unfold Gen.iblk
  funext y
  rw [View.read_apply]
  show V m c main_arg2 (((cfg0.win 2).blk t).view.emb y) = V m c main_arg2 y
  refine congrArg _ ?_
  funext a; apply Fin.ext
  match a with
  | ⟨0, _⟩ => show win0_2.index t (0 : Fin 1) * 1024 + 1 * (y 0).val = (y 0).val; omega

/-- The array window 3 reads is argument 3 converted on the host; on the extended reals the conversion changes nothing. -/
theorem V_main_v1 (c : Dev nD) : (V m c main_v1 : S1024x1024.Idx → EReal) = m ((c : Thread nD τ).loc main_arg3) := by
  show StableHlo.after hostOps0 (fun b => m (c, b)) (Proc.devRef .tc main_v1) = _
  after_results
  rfl

/-- Window 3's block at every point is its whole array. -/
theorem wblk3 (c : Dev nD) (t : Fin cfg0.N) :
    (Gen.iblk m c 3 t : Vec Ideal S1024x1024 .bf16) = (m ((c : Thread nD τ).loc main_arg3) : S1024x1024.Idx → EReal) := by
  obtain ⟨z10, z11, z20, z30, z31, z40, z50, z51, z60, z70, z71, z80⟩ := idx_zero t
  refine Eq.trans ?_ (V_main_v1 m c)
  unfold Gen.iblk
  funext y
  rw [View.read_apply]
  show V m c main_v1 (((cfg0.win 3).blk t).view.emb y) = V m c main_v1 y
  refine congrArg _ ?_
  funext a; apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Window 4's block at every point is its whole array. -/
theorem wblk4 (c : Dev nD) (t : Fin cfg0.N) :
    (Gen.iblk m c 4 t : Vec Ideal S1024 .f32) = (m ((c : Thread nD τ).loc main_arg4) : S1024.Idx → EReal) := by
  obtain ⟨z10, z11, z20, z30, z31, z40, z50, z51, z60, z70, z71, z80⟩ := idx_zero t
  refine Eq.trans ?_ (V_main_arg4 m c)
  unfold Gen.iblk
  funext y
  rw [View.read_apply]
  show V m c main_arg4 (((cfg0.win 4).blk t).view.emb y) = V m c main_arg4 y
  refine congrArg _ ?_
  funext a; apply Fin.ext
  match a with
  | ⟨0, _⟩ => show win0_4.index t (0 : Fin 1) * 1024 + 1 * (y 0).val = (y 0).val; omega

/-- The array window 5 reads is argument 5 converted on the host; on the extended reals the conversion changes nothing. -/
theorem V_main_v2 (c : Dev nD) : (V m c main_v2 : S1024x1024.Idx → EReal) = m ((c : Thread nD τ).loc main_arg5) := by
  show StableHlo.after hostOps0 (fun b => m (c, b)) (Proc.devRef .tc main_v2) = _
  after_results
  rfl

/-- Window 5's block at every point is its whole array. -/
theorem wblk5 (c : Dev nD) (t : Fin cfg0.N) :
    (Gen.iblk m c 5 t : Vec Ideal S1024x1024 .bf16) = (m ((c : Thread nD τ).loc main_arg5) : S1024x1024.Idx → EReal) := by
  obtain ⟨z10, z11, z20, z30, z31, z40, z50, z51, z60, z70, z71, z80⟩ := idx_zero t
  refine Eq.trans ?_ (V_main_v2 m c)
  unfold Gen.iblk
  funext y
  rw [View.read_apply]
  show V m c main_v2 (((cfg0.win 5).blk t).view.emb y) = V m c main_v2 y
  refine congrArg _ ?_
  funext a; apply Fin.ext
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- Window 6's block at every point is its whole array. -/
theorem wblk6 (c : Dev nD) (t : Fin cfg0.N) :
    (Gen.iblk m c 6 t : Vec Ideal S1024 .f32) = (m ((c : Thread nD τ).loc main_arg6) : S1024.Idx → EReal) := by
  obtain ⟨z10, z11, z20, z30, z31, z40, z50, z51, z60, z70, z71, z80⟩ := idx_zero t
  refine Eq.trans ?_ (V_main_arg6 m c)
  unfold Gen.iblk
  funext y
  rw [View.read_apply]
  show V m c main_arg6 (((cfg0.win 6).blk t).view.emb y) = V m c main_arg6 y
  refine congrArg _ ?_
  funext a; apply Fin.ext
  match a with
  | ⟨0, _⟩ => show win0_6.index t (0 : Fin 1) * 1024 + 1 * (y 0).val = (y 0).val; omega

/-- The array window 7 reads is argument 7 converted on the host; on the extended reals the conversion changes nothing. -/
theorem V_main_v3 (c : Dev nD) : (V m c main_v3 : S1024x7.Idx → EReal) = m ((c : Thread nD τ).loc main_arg7) := by
  show StableHlo.after hostOps0 (fun b => m (c, b)) (Proc.devRef .tc main_v3) = _
  after_results
  rfl

/-- Window 7's block at every point is its whole array. -/
theorem wblk7 (c : Dev nD) (t : Fin cfg0.N) :
    (Gen.iblk m c 7 t : Vec Ideal S1024x7 .bf16) = (m ((c : Thread nD τ).loc main_arg7) : S1024x7.Idx → EReal) := by
  obtain ⟨z10, z11, z20, z30, z31, z40, z50, z51, z60, z70, z71, z80⟩ := idx_zero t
  refine Eq.trans ?_ (V_main_v3 m c)
  unfold Gen.iblk
  funext y
  rw [View.read_apply]
  show V m c main_v3 (((cfg0.win 7).blk t).view.emb y) = V m c main_v3 y
  refine congrArg _ ?_
  funext a; apply Fin.ext
  match a with
  | ⟨0, _⟩ => show win0_7.index t (0 : Fin 2) * 1024 + 1 * (y 0).val = (y 0).val; omega
  | ⟨1, _⟩ => show win0_7.index t (1 : Fin 2) * 7 + 1 * (y 1).val = (y 1).val; omega

/-- Window 8's block at every point is its whole array. -/
theorem wblk8 (c : Dev nD) (t : Fin cfg0.N) :
    (Gen.iblk m c 8 t : Vec Ideal S7 .f32) = (m ((c : Thread nD τ).loc main_arg8) : S7.Idx → EReal) := by
  obtain ⟨z10, z11, z20, z30, z31, z40, z50, z51, z60, z70, z71, z80⟩ := idx_zero t
  refine Eq.trans ?_ (V_main_arg8 m c)
  unfold Gen.iblk
  funext y
  rw [View.read_apply]
  show V m c main_arg8 (((cfg0.win 8).blk t).view.emb y) = V m c main_arg8 y
  refine congrArg _ ?_
  funext a; apply Fin.ext
  match a with
  | ⟨0, _⟩ => show win0_8.index t (0 : Fin 1) * 7 + 1 * (y 0).val = (y 0).val; omega

/-! ## What each point writes back -/

/-- The head's seven numbers for row b of the input array as launched. -/
def headRow (c : Dev nD) (b : Fin 131072) : Fin 7 → EReal :=
  Pose.headOf (B := 131072)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b

/-- The perceptron of row r of the blocks at point t is the head of row (block index)·2048 + r of the arrays. -/
theorem mlp_blocks (c : Dev nD) (t : Fin cfg0.N) (r : Fin 2048) (b : Fin 131072)
    (hb : b.val = win0_9.index t (1 : Fin 2) * 2048 + r.val) :
    Pose.mlp (fun k => (Gen.iblk m c 0 t : Vec Ideal S2048x288 .f32) (ix2 r k)) (Gen.iblk m c 1 t) (Gen.iblk m c 2 t) (Gen.iblk m c 3 t)
      (Gen.iblk m c 4 t) (Gen.iblk m c 5 t) (Gen.iblk m c 6 t) (Gen.iblk m c 7 t) (Gen.iblk m c 8 t) = headRow m c b := by
  have h0 : (fun k : Fin 288 => (Gen.iblk m c 0 t : Vec Ideal S2048x288 .f32) (ix2 r k))
      = fun k => (m ((c : Thread nD τ).loc main_arg0) : S131072x288.Idx → EReal) (ix2 b k) :=
    funext fun k => xblk_apply m c t r k b hb
  rw [h0, wblk1 m c t, wblk2 m c t, wblk3 m c t, wblk4 m c t, wblk5 m c t, wblk6 m c t, wblk7 m c t, wblk8 m c t]
  rfl

/-! ### Output window 9: the rotation -/

/-- Entry (a, r) of point t's block sits in the array at (a, (block index)·2048 + r). -/
theorem emb9 (t : Fin cfg0.N) (a : Fin 9) (r : Fin 2048) (b : Fin 131072)
    (hb : b.val = win0_9.index t (1 : Fin 2) * 2048 + r.val) :
    ((cfg0.win 9).blk t).view.emb (ix2 a r) = (ix2 a b : S9x131072.Idx) := by
  obtain ⟨-, -, e2, e3, e10, e11, e12⟩ := idx_facts t
  funext d; apply Fin.ext
  match d with
  | ⟨0, _⟩ => show win0_9.index t (0 : Fin 2) * 9 + 1 * a.val = a.val; omega
  | ⟨1, _⟩ => show win0_9.index t (1 : Fin 2) * 2048 + 1 * r.val = b.val; omega

/-- What point t writes back to window 9's array is its block of the closed form over the argument arrays. -/
theorem flushed9_eq (c : Dev nD) (t : Fin cfg0.N) :
    (dats m 0 c).flushed 9 t
      = ((cfg0.win 9).blk t).view.read (Elt Ideal) (fun i : S9x131072.Idx => Pose.rotK (headRow m c (i 1)) (i 0)) := by
  obtain ⟨-, -, e2, e3, e10, e11, e12⟩ := idx_facts t
  show (cfg0.win 9).cut (grid0.coords t) ((dats m 0 c).after 9 t) = _
  rw [after0_9]
  funext y
  obtain ⟨a, r, rfl⟩ : ∃ (a : Fin 9) (r : Fin 2048), y = ix2 a r := ⟨y 0, y 1, eq_ix2 y⟩
  have hr : r.val < 2048 := r.isLt
  obtain ⟨b, hb⟩ : ∃ b : Fin 131072, b.val = win0_9.index t (1 : Fin 2) * 2048 + r.val := ⟨⟨_, by omega⟩, rfl⟩
  rw [View.read_apply, emb9 t a r b hb]
  show out0_9 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (ix2 a r) = Pose.rotK (headRow m c b) a
  refine (BodyValue.out9_apply (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) a r).trans ?_
  exact congrArg (fun o => Pose.rotK o a) (mlp_blocks m c t r b hb)

/-- An index of the array is in point t's block iff each coordinate is in the block's range on its axis. -/
theorem mem_blk9 (t : Fin cfg0.N) (i : S9x131072.Idx) :
    i ∈ ((cfg0.win 9).blk t).view.set ↔ ∀ a : Fin 2, win0_9.index t a * S9x2048.size a ≤ (i a).val ∧ (i a).val < win0_9.index t a * S9x2048.size a + S9x2048.size a := by
  show i ∈ ((View.whole main_v4_0).slice (win0_9.rect t)).set ↔ _
  rw [View.set_slice_whole, Rect.mem_set_unit]
  exact Iff.rfl

/-- Column j of the array lies in the block of the point whose block index is j / 2048. -/
theorem cover9 (i : S9x131072.Idx) :
    ∃ t : Fin cfg0.N, (cfg0.win 9).flush t = true ∧ i ∈ ((cfg0.win 9).blk t).view.set := by
  have hi0 : (i 0).val < 9 := (i 0).isLt
  have hi1 : (i 1).val < 131072 := (i 1).isLt
  obtain ⟨t, ht⟩ := idx_onto ⟨(i 1).val / 2048, by omega⟩
  obtain ⟨-, -, e2, e3, e10, e11, e12⟩ := idx_facts t
  have q1 : win0_9.index t (1 : Fin 2) = (i 1).val / 2048 := congrFun ht 1
  refine ⟨t, flush0_9 t, ?_⟩
  rw [mem_blk9]
  intro a
  match a with
  | ⟨0, _⟩ => show win0_9.index t (0 : Fin 2) * 9 ≤ (i 0).val ∧ (i 0).val < win0_9.index t (0 : Fin 2) * 9 + 9; omega
  | ⟨1, _⟩ => show win0_9.index t (1 : Fin 2) * 2048 ≤ (i 1).val ∧ (i 1).val < win0_9.index t (1 : Fin 2) * 2048 + 2048; omega

/-- The array after the run. -/
theorem final9 (c : Dev nD) :
    (Gen.dats m 0 c).arrAt 9 cfg0.N = fun i => Pose.rotK (headRow m c (i 1)) (i 0) :=
  (dats m 0 c).arrAt_eq_of_cover 9 _ (fun t _ => flushed9_eq m c t) cover9

/-! ### Output window 10: the eigenvalue matrix -/

/-- Entry (a, r) of point t's block sits in the array at (a, (block index)·2048 + r). -/
theorem emb10 (t : Fin cfg0.N) (a : Fin 9) (r : Fin 2048) (b : Fin 131072)
    (hb : b.val = win0_9.index t (1 : Fin 2) * 2048 + r.val) :
    ((cfg0.win 10).blk t).view.emb (ix2 a r) = (ix2 a b : S9x131072.Idx) := by
  obtain ⟨-, -, e2, e3, e10, e11, e12⟩ := idx_facts t
  have e0 : win0_10.index t (0 : Fin 2) = win0_9.index t (0 : Fin 2) := congrFun e10 0
  have e1 : win0_10.index t (1 : Fin 2) = win0_9.index t (1 : Fin 2) := congrFun e10 1
  funext d; apply Fin.ext
  match d with
  | ⟨0, _⟩ => show win0_10.index t (0 : Fin 2) * 9 + 1 * a.val = a.val; omega
  | ⟨1, _⟩ => show win0_10.index t (1 : Fin 2) * 2048 + 1 * r.val = b.val; omega

/-- What point t writes back to window 10's array is its block of the closed form over the argument arrays. -/
theorem flushed10_eq (c : Dev nD) (t : Fin cfg0.N) :
    (dats m 0 c).flushed 10 t
      = ((cfg0.win 10).blk t).view.read (Elt Ideal) (fun i : S9x131072.Idx => Pose.eigK (headRow m c (i 1)) (i 0)) := by
  obtain ⟨-, -, e2, e3, e10, e11, e12⟩ := idx_facts t
  show (cfg0.win 10).cut (grid0.coords t) ((dats m 0 c).after 10 t) = _
  rw [after0_10]
  funext y
  obtain ⟨a, r, rfl⟩ : ∃ (a : Fin 9) (r : Fin 2048), y = ix2 a r := ⟨y 0, y 1, eq_ix2 y⟩
  have hr : r.val < 2048 := r.isLt
  obtain ⟨b, hb⟩ : ∃ b : Fin 131072, b.val = win0_9.index t (1 : Fin 2) * 2048 + r.val := ⟨⟨_, by omega⟩, rfl⟩
  rw [View.read_apply, emb10 t a r b hb]
  show out0_10 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (ix2 a r) = Pose.eigK (headRow m c b) a
  refine (BodyValue.out10_apply (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) a r).trans ?_
  exact congrArg (fun o => Pose.eigK o a) (mlp_blocks m c t r b hb)

/-- An index of the array is in point t's block iff each coordinate is in the block's range on its axis. -/
theorem mem_blk10 (t : Fin cfg0.N) (i : S9x131072.Idx) :
    i ∈ ((cfg0.win 10).blk t).view.set ↔ ∀ a : Fin 2, win0_10.index t a * S9x2048.size a ≤ (i a).val ∧ (i a).val < win0_10.index t a * S9x2048.size a + S9x2048.size a := by
  show i ∈ ((View.whole main_v4_1).slice (win0_10.rect t)).set ↔ _
  rw [View.set_slice_whole, Rect.mem_set_unit]
  exact Iff.rfl

/-- Column j of the array lies in the block of the point whose block index is j / 2048. -/
theorem cover10 (i : S9x131072.Idx) :
    ∃ t : Fin cfg0.N, (cfg0.win 10).flush t = true ∧ i ∈ ((cfg0.win 10).blk t).view.set := by
  have hi0 : (i 0).val < 9 := (i 0).isLt
  have hi1 : (i 1).val < 131072 := (i 1).isLt
  obtain ⟨t, ht⟩ := idx_onto ⟨(i 1).val / 2048, by omega⟩
  obtain ⟨-, -, e2, e3, e10, e11, e12⟩ := idx_facts t
  have e0 : win0_10.index t (0 : Fin 2) = win0_9.index t (0 : Fin 2) := congrFun e10 0
  have e1 : win0_10.index t (1 : Fin 2) = win0_9.index t (1 : Fin 2) := congrFun e10 1
  have q1 : win0_9.index t (1 : Fin 2) = (i 1).val / 2048 := congrFun ht 1
  refine ⟨t, flush0_10 t, ?_⟩
  rw [mem_blk10]
  intro a
  match a with
  | ⟨0, _⟩ => show win0_10.index t (0 : Fin 2) * 9 ≤ (i 0).val ∧ (i 0).val < win0_10.index t (0 : Fin 2) * 9 + 9; omega
  | ⟨1, _⟩ => show win0_10.index t (1 : Fin 2) * 2048 ≤ (i 1).val ∧ (i 1).val < win0_10.index t (1 : Fin 2) * 2048 + 2048; omega

/-- The array after the run. -/
theorem final10 (c : Dev nD) :
    (Gen.dats m 0 c).arrAt 10 cfg0.N = fun i => Pose.eigK (headRow m c (i 1)) (i 0) :=
  (dats m 0 c).arrAt_eq_of_cover 10 _ (fun t _ => flushed10_eq m c t) cover10

/-! ### Output window 11: D = R·E·Rᵀ -/

/-- Entry (a, r) of point t's block sits in the array at (a, (block index)·2048 + r). -/
theorem emb11 (t : Fin cfg0.N) (a : Fin 9) (r : Fin 2048) (b : Fin 131072)
    (hb : b.val = win0_9.index t (1 : Fin 2) * 2048 + r.val) :
    ((cfg0.win 11).blk t).view.emb (ix2 a r) = (ix2 a b : S9x131072.Idx) := by
  obtain ⟨-, -, e2, e3, e10, e11, e12⟩ := idx_facts t
  have e0 : win0_11.index t (0 : Fin 2) = win0_9.index t (0 : Fin 2) := congrFun e11 0
  have e1 : win0_11.index t (1 : Fin 2) = win0_9.index t (1 : Fin 2) := congrFun e11 1
  funext d; apply Fin.ext
  match d with
  | ⟨0, _⟩ => show win0_11.index t (0 : Fin 2) * 9 + 1 * a.val = a.val; omega
  | ⟨1, _⟩ => show win0_11.index t (1 : Fin 2) * 2048 + 1 * r.val = b.val; omega

/-- What point t writes back to window 11's array is its block of the closed form over the argument arrays. -/
theorem flushed11_eq (c : Dev nD) (t : Fin cfg0.N) :
    (dats m 0 c).flushed 11 t
      = ((cfg0.win 11).blk t).view.read (Elt Ideal) (fun i : S9x131072.Idx => Pose.diffK (headRow m c (i 1)) (i 0)) := by
  obtain ⟨-, -, e2, e3, e10, e11, e12⟩ := idx_facts t
  show (cfg0.win 11).cut (grid0.coords t) ((dats m 0 c).after 11 t) = _
  rw [after0_11]
  funext y
  obtain ⟨a, r, rfl⟩ : ∃ (a : Fin 9) (r : Fin 2048), y = ix2 a r := ⟨y 0, y 1, eq_ix2 y⟩
  have hr : r.val < 2048 := r.isLt
  obtain ⟨b, hb⟩ : ∃ b : Fin 131072, b.val = win0_9.index t (1 : Fin 2) * 2048 + r.val := ⟨⟨_, by omega⟩, rfl⟩
  rw [View.read_apply, emb11 t a r b hb]
  show out0_11 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (ix2 a r) = Pose.diffK (headRow m c b) a
  refine (BodyValue.out11_apply (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) a r).trans ?_
  exact congrArg (fun o => Pose.diffK o a) (mlp_blocks m c t r b hb)

/-- An index of the array is in point t's block iff each coordinate is in the block's range on its axis. -/
theorem mem_blk11 (t : Fin cfg0.N) (i : S9x131072.Idx) :
    i ∈ ((cfg0.win 11).blk t).view.set ↔ ∀ a : Fin 2, win0_11.index t a * S9x2048.size a ≤ (i a).val ∧ (i a).val < win0_11.index t a * S9x2048.size a + S9x2048.size a := by
  show i ∈ ((View.whole main_v4_2).slice (win0_11.rect t)).set ↔ _
  rw [View.set_slice_whole, Rect.mem_set_unit]
  exact Iff.rfl

/-- Column j of the array lies in the block of the point whose block index is j / 2048. -/
theorem cover11 (i : S9x131072.Idx) :
    ∃ t : Fin cfg0.N, (cfg0.win 11).flush t = true ∧ i ∈ ((cfg0.win 11).blk t).view.set := by
  have hi0 : (i 0).val < 9 := (i 0).isLt
  have hi1 : (i 1).val < 131072 := (i 1).isLt
  obtain ⟨t, ht⟩ := idx_onto ⟨(i 1).val / 2048, by omega⟩
  obtain ⟨-, -, e2, e3, e10, e11, e12⟩ := idx_facts t
  have e0 : win0_11.index t (0 : Fin 2) = win0_9.index t (0 : Fin 2) := congrFun e11 0
  have e1 : win0_11.index t (1 : Fin 2) = win0_9.index t (1 : Fin 2) := congrFun e11 1
  have q1 : win0_9.index t (1 : Fin 2) = (i 1).val / 2048 := congrFun ht 1
  refine ⟨t, flush0_11 t, ?_⟩
  rw [mem_blk11]
  intro a
  match a with
  | ⟨0, _⟩ => show win0_11.index t (0 : Fin 2) * 9 ≤ (i 0).val ∧ (i 0).val < win0_11.index t (0 : Fin 2) * 9 + 9; omega
  | ⟨1, _⟩ => show win0_11.index t (1 : Fin 2) * 2048 ≤ (i 1).val ∧ (i 1).val < win0_11.index t (1 : Fin 2) * 2048 + 2048; omega

/-- The array after the run. -/
theorem final11 (c : Dev nD) :
    (Gen.dats m 0 c).arrAt 11 cfg0.N = fun i => Pose.diffK (headRow m c (i 1)) (i 0) :=
  (dats m 0 c).arrAt_eq_of_cover 11 _ (fun t _ => flushed11_eq m c t) cover11

/-! ### Output window 12: the shift -/

/-- Entry (u, r) of point t's block sits in the array at (u, (block index)·2048 + r). -/
theorem emb12 (t : Fin cfg0.N) (u : Fin 1) (r : Fin 2048) (b : Fin 131072)
    (hb : b.val = win0_9.index t (1 : Fin 2) * 2048 + r.val) :
    ((cfg0.win 12).blk t).view.emb (ix2 u r) = (ix2 u b : S1x131072.Idx) := by
  obtain ⟨-, -, e2, e3, e10, e11, e12⟩ := idx_facts t
  have e0 : win0_12.index t (0 : Fin 2) = win0_9.index t (0 : Fin 2) := congrFun e12 0
  have e1 : win0_12.index t (1 : Fin 2) = win0_9.index t (1 : Fin 2) := congrFun e12 1
  funext d; apply Fin.ext
  match d with
  | ⟨0, _⟩ => show win0_12.index t (0 : Fin 2) * 1 + 1 * u.val = u.val; omega
  | ⟨1, _⟩ => show win0_12.index t (1 : Fin 2) * 2048 + 1 * r.val = b.val; omega

/-- What point t writes back to window 12's array is its block of the closed form over the argument arrays. -/
theorem flushed12_eq (c : Dev nD) (t : Fin cfg0.N) :
    (dats m 0 c).flushed 12 t
      = ((cfg0.win 12).blk t).view.read (Elt Ideal) (fun i : S1x131072.Idx => Pose.shift (headRow m c (i 1))) := by
  obtain ⟨-, -, e2, e3, e10, e11, e12⟩ := idx_facts t
  show (cfg0.win 12).cut (grid0.coords t) ((dats m 0 c).after 12 t) = _
  rw [after0_12]
  funext y
  obtain ⟨u, r, rfl⟩ : ∃ (u : Fin 1) (r : Fin 2048), y = ix2 u r := ⟨y 0, y 1, eq_ix2 y⟩
  have hr : r.val < 2048 := r.isLt
  obtain ⟨b, hb⟩ : ∃ b : Fin 131072, b.val = win0_9.index t (1 : Fin 2) * 2048 + r.val := ⟨⟨_, by omega⟩, rfl⟩
  rw [View.read_apply, emb12 t u r b hb]
  show out0_12 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (ix2 u r) = Pose.shift (headRow m c b)
  refine (BodyValue.out12_apply (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) u r).trans ?_
  exact congrArg Pose.shift (mlp_blocks m c t r b hb)

/-- An index of the array is in point t's block iff each coordinate is in the block's range on its axis. -/
theorem mem_blk12 (t : Fin cfg0.N) (i : S1x131072.Idx) :
    i ∈ ((cfg0.win 12).blk t).view.set ↔ ∀ a : Fin 2, win0_12.index t a * S1x2048.size a ≤ (i a).val ∧ (i a).val < win0_12.index t a * S1x2048.size a + S1x2048.size a := by
  show i ∈ ((View.whole main_v4_3).slice (win0_12.rect t)).set ↔ _
  rw [View.set_slice_whole, Rect.mem_set_unit]
  exact Iff.rfl

/-- Column j of the array lies in the block of the point whose block index is j / 2048. -/
theorem cover12 (i : S1x131072.Idx) :
    ∃ t : Fin cfg0.N, (cfg0.win 12).flush t = true ∧ i ∈ ((cfg0.win 12).blk t).view.set := by
  have hi0 : (i 0).val < 1 := (i 0).isLt
  have hi1 : (i 1).val < 131072 := (i 1).isLt
  obtain ⟨t, ht⟩ := idx_onto ⟨(i 1).val / 2048, by omega⟩
  obtain ⟨-, -, e2, e3, e10, e11, e12⟩ := idx_facts t
  have e0 : win0_12.index t (0 : Fin 2) = win0_9.index t (0 : Fin 2) := congrFun e12 0
  have e1 : win0_12.index t (1 : Fin 2) = win0_9.index t (1 : Fin 2) := congrFun e12 1
  have q1 : win0_9.index t (1 : Fin 2) = (i 1).val / 2048 := congrFun ht 1
  refine ⟨t, flush0_12 t, ?_⟩
  rw [mem_blk12]
  intro a
  match a with
  | ⟨0, _⟩ => show win0_12.index t (0 : Fin 2) * 1 ≤ (i 0).val ∧ (i 0).val < win0_12.index t (0 : Fin 2) * 1 + 1; omega
  | ⟨1, _⟩ => show win0_12.index t (1 : Fin 2) * 2048 ≤ (i 1).val ∧ (i 1).val < win0_12.index t (1 : Fin 2) * 2048 + 2048; omega

/-- The array after the run. -/
theorem final12 (c : Dev nD) :
    (Gen.dats m 0 c).arrAt 12 cfg0.N = fun i => Pose.shift (headRow m c (i 1)) :=
  (dats m 0 c).arrAt_eq_of_cover 12 _ (fun t _ => flushed12_eq m c t) cover12

end Cert.KernelIdeal.ArrValue

end
-- ==== Proof.KernRun.lean ====
/-
  The kernel program's run, read at its four results.

  After the call the program transposes each of the call's three [9, B] result arrays to [B, 9] and reshapes
  it to [B, 3, 3], and reshapes the [1, B] result array to [B]. Column b of a [9, B] array holds the nine
  entries, row-major, of a 3×3 matrix of input row b, so the result at (b, i, l) is entry 3 i + l of that
  column; the vector at b is the one-row array's lane b. With the arrays the region leaves (the
  rotation, the eigenvalue matrix, their product and the shift of every row's head) this gives the four
  results as functions of the launched arguments; the arguments end as launched.
-/
import proofs.«124405_j83932250898799_2_alg».proof.Proof.KernArr
import Idealize.ShloMosaic.Lib.Pipeline.Value
import Idealize.ShloMosaic.Lib.ValueLayout
import Idealize.ShloMosaic.Lib.StableHlo.Run

noncomputable section

open Idealize.ShloMosaic Idealize.ShloMosaic.ValueIdx Idealize.ShloMosaic.TcCoe
open Idealize.SL.Sem Idealize.ShloMosaic.StableHlo

namespace Cert.KernelIdeal.RunValue

open Cert.KernelIdeal Cert.KernelIdeal.Gen

/-! ## The layout of the lines after the call

  A [9, B] array transposed to [B, 9] and then reshaped to [B, 3, 3] is read, at (b, i, l), at the
  row-major position (b·3 + i)·3 + l = b·9 + (3 i + l) of the [B, 9] array, that is at (3 i + l, b) of
  the array before the transpose. A [1, B] array reshaped to [B] is read, at b, at (0, b). -/

theorem cast33_apply {α : Type} {B : ℕ} (X : (⟨2, ![9, B]⟩ : Shape).Idx → α)
    (ht : (⟨2, ![9, B]⟩ : Shape).Transposes [1, 0] ⟨2, ![B, 9]⟩)
    (hs : (⟨2, ![B, 9]⟩ : Shape).ShapeCasts ⟨3, ![B, 3, 3]⟩) (b : Fin B) (i l : Fin 3) :
    shapeCast ⟨3, ![B, 3, 3]⟩ (transpose ⟨2, ![B, 9]⟩ [1, 0] X ht) hs (ix3 b i l) = X (ix2 (Cert.Pose.flat i l) b) := by
  refine (shapeCast_apply _ hs (ix3 b i l) (ix2 b (Cert.Pose.flat i l)) ?_).trans (transpose_ix2_apply X ht b (Cert.Pose.flat i l))
  rw [Shape.rowMajor_val_two, Shape.rowMajor_val_three]
  show b.val * 9 + (3 * i.val + l.val) = (b.val * 3 + i.val) * 3 + l.val
  omega

variable (m : (ℓ : Loc nD τ sig) → Buf (Elt Ideal) ℓ)

/-! ## Each result after the lines that follow the call, from what the call's result array holds

  The lines after the call write each result from one of the call's four result arrays and from nothing
  else; the region leaves that array at the contents the frame computes for its window. -/

/-- The first result: the transposed and reshaped first result array of the call. -/
theorem tail6_of (c : Dev nD) (A : (⟨2, ![9, 131072]⟩ : Shape).Idx → EReal)
    (hA : (Gen.dats m 0 c).arrAt 9 cfg0.N = A) :
    Pipeline.afterTail₀ cfgs (Gen.dats m) 0 (Gen.V0 m) [hostOps1] c main_v6
      = fun j => A (ix2 (Cert.Pose.flat (j 1) (j 2)) (j 0)) := by
  unfold Pipeline.afterTail₀
  show StableHlo.after hostOps1 _ (Proc.devRef .tc main_v6) = _
  after_results
  have hW : Pipeline.withArrays (cfgs 0).spec c (V0 m c) (fun w => (dats m 0 c).arrAt w (cfgs 0).N) (Proc.tc.devRef main_v4_0) = A :=
    (Pipeline.withArrays_arr spec0 launch0.win.arr_inj c _ _ 9).trans hA
  rw [hW]
  funext j
  obtain ⟨b, i, l, rfl⟩ : ∃ (b : Fin 131072) (i l : Fin 3), j = ix3 b i l := ⟨j 0, j 1, j 2, eq_ix3 j⟩
  exact cast33_apply A _ _ b i l

/-- The second result, from the call's second result array. -/
theorem tail8_of (c : Dev nD) (A : (⟨2, ![9, 131072]⟩ : Shape).Idx → EReal)
    (hA : (Gen.dats m 0 c).arrAt 10 cfg0.N = A) :
    Pipeline.afterTail₀ cfgs (Gen.dats m) 0 (Gen.V0 m) [hostOps1] c main_v8
      = fun j => A (ix2 (Cert.Pose.flat (j 1) (j 2)) (j 0)) := by
  unfold Pipeline.afterTail₀
  show StableHlo.after hostOps1 _ (Proc.devRef .tc main_v8) = _
  after_results
  have hW : Pipeline.withArrays (cfgs 0).spec c (V0 m c) (fun w => (dats m 0 c).arrAt w (cfgs 0).N) (Proc.tc.devRef main_v4_1) = A :=
    (Pipeline.withArrays_arr spec0 launch0.win.arr_inj c _ _ 10).trans hA
  rw [hW]
  funext j
  obtain ⟨b, i, l, rfl⟩ : ∃ (b : Fin 131072) (i l : Fin 3), j = ix3 b i l := ⟨j 0, j 1, j 2, eq_ix3 j⟩
  exact cast33_apply A _ _ b i l

/-- The third result, from the call's third result array. -/
theorem tail10_of (c : Dev nD) (A : (⟨2, ![9, 131072]⟩ : Shape).Idx → EReal)
    (hA : (Gen.dats m 0 c).arrAt 11 cfg0.N = A) :
    Pipeline.afterTail₀ cfgs (Gen.dats m) 0 (Gen.V0 m) [hostOps1] c main_v10
      = fun j => A (ix2 (Cert.Pose.flat (j 1) (j 2)) (j 0)) := by
  unfold Pipeline.afterTail₀
  show StableHlo.after hostOps1 _ (Proc.devRef .tc main_v10) = _
  after_results
  have hW : Pipeline.withArrays (cfgs 0).spec c (V0 m c) (fun w => (dats m 0 c).arrAt w (cfgs 0).N) (Proc.tc.devRef main_v4_2) = A :=
    (Pipeline.withArrays_arr spec0 launch0.win.arr_inj c _ _ 11).trans hA
  rw [hW]
  funext j
  obtain ⟨b, i, l, rfl⟩ : ∃ (b : Fin 131072) (i l : Fin 3), j = ix3 b i l := ⟨j 0, j 1, j 2, eq_ix3 j⟩
  exact cast33_apply A _ _ b i l

/-- The fourth result: the call's one-row result array as a vector. -/
theorem tail11_of (c : Dev nD) (A : (⟨2, ![1, 131072]⟩ : Shape).Idx → EReal)
    (hA : (Gen.dats m 0 c).arrAt 12 cfg0.N = A) :
    Pipeline.afterTail₀ cfgs (Gen.dats m) 0 (Gen.V0 m) [hostOps1] c main_v11
      = fun j => A (ix2 (0 : Fin 1) (j 0)) := by
  unfold Pipeline.afterTail₀
  show StableHlo.after hostOps1 _ (Proc.devRef .tc main_v11) = _
  after_results
  have hW : Pipeline.withArrays (cfgs 0).spec c (V0 m c) (fun w => (dats m 0 c).arrAt w (cfgs 0).N) (Proc.tc.devRef main_v4_3) = A :=
    (Pipeline.withArrays_arr spec0 launch0.win.arr_inj c _ _ 12).trans hA
  rw [hW]
  funext j
  obtain ⟨b, rfl⟩ : ∃ b : Fin 131072, j = ix1 b := ⟨j 0, eq_ix1 j⟩
  exact shapeCast_1a_a_apply A _ b

/-! ## The four results, and the run -/

open Cert.KernelIdeal.ArrValue

theorem tail6 (c : Dev nD) :
    Pipeline.afterTail₀ cfgs (Gen.dats m) 0 (Gen.V0 m) [hostOps1] c main_v6
      = fun j => Cert.Pose.rotK (headRow m c (j 0)) (Cert.Pose.flat (j 1) (j 2)) :=
  tail6_of m c _ (final9 m c)
theorem tail8 (c : Dev nD) :
    Pipeline.afterTail₀ cfgs (Gen.dats m) 0 (Gen.V0 m) [hostOps1] c main_v8
      = fun j => Cert.Pose.eigK (headRow m c (j 0)) (Cert.Pose.flat (j 1) (j 2)) :=
  tail8_of m c _ (final10 m c)
theorem tail10 (c : Dev nD) :
    Pipeline.afterTail₀ cfgs (Gen.dats m) 0 (Gen.V0 m) [hostOps1] c main_v10
      = fun j => Cert.Pose.diffK (headRow m c (j 0)) (Cert.Pose.flat (j 1) (j 2)) :=
  tail10_of m c _ (final11 m c)
theorem tail11 (c : Dev nD) :
    Pipeline.afterTail₀ cfgs (Gen.dats m) 0 (Gen.V0 m) [hostOps1] c main_v11
      = fun j => Cert.Pose.shift (headRow m c (j 0)) :=
  tail11_of m c _ (final12 m c)

/-- The kernel program's run: every weakly fair execution terminates with the three matrices and the shift
    of every row in the four results, and the nine arguments as launched. -/
theorem run (ρ : Dev nD → PrngReg) :
    θ_run (defs (F := Ideal)) (onTc (τ := τ) (main (F := Ideal))) ⟨m, fun _ => 0, ρ⟩ (fun r => ∀ c : Dev nD,
        r.2.mem ((c.tc : Thread nD τ).loc main_v6) = (fun j => Cert.Pose.rotK (headRow m c (j 0)) (Cert.Pose.flat (j 1) (j 2)))
      ∧ r.2.mem ((c.tc : Thread nD τ).loc main_v8) = (fun j => Cert.Pose.eigK (headRow m c (j 0)) (Cert.Pose.flat (j 1) (j 2)))
      ∧ r.2.mem ((c.tc : Thread nD τ).loc main_v10) = (fun j => Cert.Pose.diffK (headRow m c (j 0)) (Cert.Pose.flat (j 1) (j 2)))
      ∧ r.2.mem ((c.tc : Thread nD τ).loc main_v11) = (fun j => Cert.Pose.shift (headRow m c (j 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      ((h c).2 main_v6 (Pipeline.mem_restRefs_of main_v6 (by decide) (by decide))).trans (tail6 m c),
      ((h c).2 main_v8 (Pipeline.mem_restRefs_of main_v8 (by decide) (by decide))).trans (tail8 m c),
      ((h c).2 main_v10 (Pipeline.mem_restRefs_of main_v10 (by decide) (by decide))).trans (tail10 m c),
      ((h c).2 main_v11 (Pipeline.mem_restRefs_of main_v11 (by decide) (by decide))).trans (tail11 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c)))⟩) (Gen.run_main m ρ)

end Cert.KernelIdeal.RunValue

end
-- ==== Proof.RefPoseMats.lean ====
/-
  The reference program's three elementary rotations, read entry by entry.

  Each 3×3 array is built from nine columns of extent one (a vector of cosines or sines, its negation, or a
  broadcast zero or one), joined three at a time into rows of extent three, each row given a middle axis of
  extent one, and the three rows joined along that axis. Reading a joined array at a coordinate of the joined
  axis selects the piece with that number, so entry (i, l) is column l of row i.
-/
import proofs.«124405_j83932250898799_2_alg».proof.Proof.Gen.ReferenceIdeal.Read
import Idealize.ShloMosaic.Lib.Pipeline.Value
import Idealize.ShloMosaic.Lib.ValueIdx
import proofs.«124405_j83932250898799_2_alg».proof.Proof.PoseSpec

noncomputable section

open Cert.ReferenceIdeal Cert.ReferenceIdeal.Gen Cert.ReferenceIdeal.Read Idealize.ShloMosaic Idealize.ShloMosaic.ValueIdx
open scoped BigOperators

namespace Cert.ReferenceIdeal.RefValue

/-! ## Indices are determined by their coordinates -/

theorem idx1_ext {n : Nat} (j : (⟨1, ![n]⟩ : Shape).Idx) (a : Fin n) (h : (j 0).val = a.val) : j = ix1 a := by
  funext d; match d with | ⟨0, _⟩ => exact Fin.ext h

theorem idx2_ext {n0 n1 : Nat} (j : (⟨2, ![n0, n1]⟩ : Shape).Idx) (a : Fin n0) (b : Fin n1)
    (h0 : (j 0).val = a.val) (h1 : (j 1).val = b.val) : j = ix2 a b := by
  funext d; match d with | ⟨0, _⟩ => exact Fin.ext h0 | ⟨1, _⟩ => exact Fin.ext h1

theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d; match d with | ⟨0, _⟩ => exact Fin.ext h0 | ⟨1, _⟩ => exact Fin.ext h1 | ⟨2, _⟩ => exact Fin.ext h2

/-! ## Three pieces of extent one joined along the middle axis

  At coordinate `c` of the joined axis the value is piece `c`'s, read at coordinate 0 of that axis: the pieces before
  piece `c` have total extent `c`. -/

theorem cat_col {α : Type} (p0 p1 p2 : S131072x1.Idx → α)
    (h : Shape.Concatenates (([⟨S131072x1, p0⟩, ⟨S131072x1, p1⟩, ⟨S131072x1, p2⟩] : List ((s : Shape) × (s.Idx → α))).map (·.1)) S131072x3 1)
    (r : Fin 131072) (c : Fin 3) :
    concatenate S131072x3 1 [⟨S131072x1, p0⟩, ⟨S131072x1, p1⟩, ⟨S131072x1, p2⟩] h (ix2 r c) = (![p0, p1, p2] c) (ix2 r 0) := by
  match c with
  | ⟨0, _⟩ =>
    exact concatenate_apply_piece (1 : Fin S131072x3.rank) _ h _ 0 (by show (0 : Nat) < 3; decide) S131072x1 p0 rfl rfl 0 rfl (ix2 r 0)
      (fun b hb => by match b with | ⟨0, _⟩ => rfl | ⟨1, _⟩ => exact absurd rfl hb) rfl
  | ⟨1, _⟩ =>
    exact concatenate_apply_piece (1 : Fin S131072x3.rank) _ h _ 1 (by show (1 : Nat) < 3; decide) S131072x1 p1 rfl rfl 1 rfl (ix2 r 0)
      (fun b hb => by match b with | ⟨0, _⟩ => rfl | ⟨1, _⟩ => exact absurd rfl hb) rfl
  | ⟨2, _⟩ =>
    exact concatenate_apply_piece (1 : Fin S131072x3.rank) _ h _ 2 (by show (2 : Nat) < 3; decide) S131072x1 p2 rfl rfl 2 rfl (ix2 r 0)
      (fun b hb => by match b with | ⟨0, _⟩ => rfl | ⟨1, _⟩ => exact absurd rfl hb) rfl

theorem cat_row {α : Type} (p0 p1 p2 : S131072x1x3.Idx → α)
    (h : Shape.Concatenates (([⟨S131072x1x3, p0⟩, ⟨S131072x1x3, p1⟩, ⟨S131072x1x3, p2⟩] : List ((s : Shape) × (s.Idx → α))).map (·.1)) S131072x3x3 1)
    (r : Fin 131072) (i l : Fin 3) :
    concatenate S131072x3x3 1 [⟨S131072x1x3, p0⟩, ⟨S131072x1x3, p1⟩, ⟨S131072x1x3, p2⟩] h (ix3 r i l) = (![p0, p1, p2] i) (ix3 r 0 l) := by
  match i with
  | ⟨0, _⟩ =>
    exact concatenate_apply_piece (1 : Fin S131072x3x3.rank) _ h _ 0 (by show (0 : Nat) < 3; decide) S131072x1x3 p0 rfl rfl 0 rfl (ix3 r 0 l)
      (fun b hb => by match b with | ⟨0, _⟩ => rfl | ⟨1, _⟩ => exact absurd rfl hb | ⟨2, _⟩ => rfl) rfl
  | ⟨1, _⟩ =>
    exact concatenate_apply_piece (1 : Fin S131072x3x3.rank) _ h _ 1 (by show (1 : Nat) < 3; decide) S131072x1x3 p1 rfl rfl 1 rfl (ix3 r 0 l)
      (fun b hb => by match b with | ⟨0, _⟩ => rfl | ⟨1, _⟩ => exact absurd rfl hb | ⟨2, _⟩ => rfl) rfl
  | ⟨2, _⟩ =>
    exact concatenate_apply_piece (1 : Fin S131072x3x3.rank) _ h _ 2 (by show (2 : Nat) < 3; decide) S131072x1x3 p2 rfl rfl 2 rfl (ix3 r 0 l)
      (fun b hb => by match b with | ⟨0, _⟩ => rfl | ⟨1, _⟩ => exact absurd rfl hb | ⟨2, _⟩ => rfl) rfl

/-! ## The broadcast zero and one -/

theorem v59_at (j : S131072.Idx) : val_main_v59 (F := Ideal) j = Pose.lit0 := by
  rw [val_main_v59_apply, val_main_cst_6_apply]; rfl

theorem v60_at (j : S131072.Idx) : val_main_v60 (F := Ideal) j = Pose.lit1 := by
  rw [val_main_v60_apply, val_main_cst_7_apply]; rfl

variable (x0 : (⟨S131072x288, .f32⟩ : BufTy).Contents (Elt Ideal)) (x1 : (⟨S288x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x7, .f32⟩ : BufTy).Contents (Elt Ideal))
  (x8 : (⟨S7, .f32⟩ : BufTy).Contents (Elt Ideal))

/-! ## Rotation X -/

theorem col_v61 (r : Fin 131072) : val_main_v61 (F := Ideal) (ix2 r 0) = Pose.lit1 := by
  rw [val_main_v61_apply, v60_at]

theorem col_v62 (r : Fin 131072) : val_main_v62 (F := Ideal) (ix2 r 0) = Pose.lit0 := by
  rw [val_main_v62_apply, v59_at]

theorem col_v63 (r : Fin 131072) : val_main_v63 (F := Ideal) (ix2 r 0) = Pose.lit0 := by
  rw [val_main_v63_apply, v59_at]

theorem row_v64 (r : Fin 131072) (l : Fin 3) :
    val_main_v64 (F := Ideal) (ix2 r l) = (![Pose.lit1, Pose.lit0, Pose.lit0] : Fin 3 → EReal) l := by
  unfold val_main_v64
  rw [cat_col]
  match l with
  | ⟨0, _⟩ => exact col_v61 r
  | ⟨1, _⟩ => exact col_v62 r
  | ⟨2, _⟩ => exact col_v63 r

theorem brow_v74 (r : Fin 131072) (l : Fin 3) :
    val_main_v74 (F := Ideal) (ix3 r 0 l) = (![Pose.lit1, Pose.lit0, Pose.lit0] : Fin 3 → EReal) l := by
  rw [val_main_v74_apply, idx2_ext (idx_main_v74 (ix3 r 0 l)) r l rfl rfl]
  exact row_v64 r l

theorem col_v66 (r : Fin 131072) : val_main_v66 (F := Ideal) (ix2 r 0) = Pose.lit0 := by
  rw [val_main_v66_apply, v59_at]

theorem col_v67 (r : Fin 131072) : val_main_v67 (F := Ideal) x0 x1 x2 x3 x4 x5 x6 x7 x8 (ix2 r 0) = val_main_v53 (F := Ideal) x0 x1 x2 x3 x4 x5 x6 x7 x8 (ix1 r) := by
  rw [val_main_v67_apply, idx1_ext (idx_main_v67 (ix2 r 0)) r rfl]

theorem col_v68 (r : Fin 131072) : val_main_v68 (F := Ideal) x0 x1 x2 x3 x4 x5 x6 x7 x8 (ix2 r 0) = -(val_main_v54 (F := Ideal) x0 x1 x2 x3 x4 x5 x6 x7 x8 (ix1 r)) := by
  rw [val_main_v68_apply, idx1_ext (idx_main_v68 (ix2 r 0)) r rfl]
  rfl

theorem row_v69 (r : Fin 131072) (l : Fin 3) :
    val_main_v69 (F := Ideal) x0 x1 x2 x3 x4 x5 x6 x7 x8 (ix2 r l) = (![Pose.lit0, val_main_v53 (F := Ideal) x0 x1 x2 x3 x4 x5 x6 x7 x8 (ix1 r), -(val_main_v54 (F := Ideal) x0 x1 x2 x3 x4 x5 x6 x7 x8 (ix1 r))] : Fin 3 → EReal) l := by
  unfold val_main_v69
  rw [cat_col]
  match l with
  | ⟨0, _⟩ => exact col_v66 r
  | ⟨1, _⟩ => exact col_v67 x0 x1 x2 x3 x4 x5 x6 x7 x8 r
  | ⟨2, _⟩ => exact col_v68 x0 x1 x2 x3 x4 x5 x6 x7 x8 r

theorem brow_v75 (r : Fin 131072) (l : Fin 3) :
    val_main_v75 (F := Ideal) x0 x1 x2 x3 x4 x5 x6 x7 x8 (ix3 r 0 l) = (![Pose.lit0, val_main_v53 (F := Ideal) x0 x1 x2 x3 x4 x5 x6 x7 x8 (ix1 r), -(val_main_v54 (F := Ideal) x0 x1 x2 x3 x4 x5 x6 x7 x8 (ix1 r))] : Fin 3 → EReal) l := by
  rw [val_main_v75_apply, idx2_ext (idx_main_v75 (ix3 r 0 l)) r l rfl rfl]
  exact row_v69 x0 x1 x2 x3 x4 x5 x6 x7 x8 r l

theorem col_v70 (r : Fin 131072) : val_main_v70 (F := Ideal) (ix2 r 0) = Pose.lit0 := by
  rw [val_main_v70_apply, v59_at]

theorem col_v71 (r : Fin 131072) : val_main_v71 (F := Ideal) x0 x1 x2 x3 x4 x5 x6 x7 x8 (ix2 r 0) = val_main_v54 (F := Ideal) x0 x1 x2 x3 x4 x5 x6 x7 x8 (ix1 r) := by
  rw [val_main_v71_apply, idx1_ext (idx_main_v71 (ix2 r 0)) r rfl]

theorem col_v72 (r : Fin 131072) : val_main_v72 (F := Ideal) x0 x1 x2 x3 x4 x5 x6 x7 x8 (ix2 r 0) = val_main_v53 (F := Ideal) x0 x1 x2 x3 x4 x5 x6 x7 x8 (ix1 r) := by
  rw [val_main_v72_apply, idx1_ext (idx_main_v72 (ix2 r 0)) r rfl]

theorem row_v73 (r : Fin 131072) (l : Fin 3) :
    val_main_v73 (F := Ideal) x0 x1 x2 x3 x4 x5 x6 x7 x8 (ix2 r l) = (![Pose.lit0, val_main_v54 (F := Ideal) x0 x1 x2 x3 x4 x5 x6 x7 x8 (ix1 r), val_main_v53 (F := Ideal) x0 x1 x2 x3 x4 x5 x6 x7 x8 (ix1 r)] : Fin 3 → EReal) l := by
  unfold val_main_v73
  rw [cat_col]
  match l with
  | ⟨0, _⟩ => exact col_v70 r
  | ⟨1, _⟩ => exact col_v71 x0 x1 x2 x3 x4 x5 x6 x7 x8 r
  | ⟨2, _⟩ => exact col_v72 x0 x1 x2 x3 x4 x5 x6 x7 x8 r

theorem brow_v76 (r : Fin 131072) (l : Fin 3) :
    val_main_v76 (F := Ideal) x0 x1 x2 x3 x4 x5 x6 x7 x8 (ix3 r 0 l) = (![Pose.lit0, val_main_v54 (F := Ideal) x0 x1 x2 x3 x4 x5 x6 x7 x8 (ix1 r), val_main_v53 (F := Ideal) x0 x1 x2 x3 x4 x5 x6 x7 x8 (ix1 r)] : Fin 3 → EReal) l := by
  rw [val_main_v76_apply, idx2_ext (idx_main_v76 (ix3 r 0 l)) r l rfl rfl]
  exact row_v73 x0 x1 x2 x3 x4 x5 x6 x7 x8 r l

/-- The elementary rotation X: three rows joined, each row three columns joined. -/
theorem v77_eq (r : Fin 131072) (i l : Fin 3) :
    val_main_v77 (F := Ideal) x0 x1 x2 x3 x4 x5 x6 x7 x8 (ix3 r i l) = Pose.matXof (val_main_v53 (F := Ideal) x0 x1 x2 x3 x4 x5 x6 x7 x8 (ix1 r)) (val_main_v54 (F := Ideal) x0 x1 x2 x3 x4 x5 x6 x7 x8 (ix1 r)) i l := by
  unfold val_main_v77
  rw [cat_row]
  match i with
  | ⟨0, _⟩ => exact brow_v74 r l
  | ⟨1, _⟩ => exact brow_v75 x0 x1 x2 x3 x4 x5 x6 x7 x8 r l
  | ⟨2, _⟩ => exact brow_v76 x0 x1 x2 x3 x4 x5 x6 x7 x8 r l

/-! ## Rotation Y -/

theorem col_v78 (r : Fin 131072) : val_main_v78 (F := Ideal) x0 x1 x2 x3 x4 x5 x6 x7 x8 (ix2 r 0) = val_main_v55 (F := Ideal) x0 x1 x2 x3 x4 x5 x6 x7 x8 (ix1 r) := by
  rw [val_main_v78_apply, idx1_ext (idx_main_v78 (ix2 r 0)) r rfl]

theorem col_v79 (r : Fin 131072) : val_main_v79 (F := Ideal) (ix2 r 0) = Pose.lit0 := by
  rw [val_main_v79_apply, v59_at]

theorem col_v80 (r : Fin 131072) : val_main_v80 (F := Ideal) x0 x1 x2 x3 x4 x5 x6 x7 x8 (ix2 r 0) = val_main_v56 (F := Ideal) x0 x1 x2 x3 x4 x5 x6 x7 x8 (ix1 r) := by
  rw [val_main_v80_apply, idx1_ext (idx_main_v80 (ix2 r 0)) r rfl]

theorem row_v81 (r : Fin 131072) (l : Fin 3) :
    val_main_v81 (F := Ideal) x0 x1 x2 x3 x4 x5 x6 x7 x8 (ix2 r l) = (![val_main_v55 (F := Ideal) x0 x1 x2 x3 x4 x5 x6 x7 x8 (ix1 r), Pose.lit0, val_main_v56 (F := Ideal) x0 x1 x2 x3 x4 x5 x6 x7 x8 (ix1 r)] : Fin 3 → EReal) l := by
  unfold val_main_v81
  rw [cat_col]
  match l with
  | ⟨0, _⟩ => exact col_v78 x0 x1 x2 x3 x4 x5 x6 x7 x8 r
  | ⟨1, _⟩ => exact col_v79 r
  | ⟨2, _⟩ => exact col_v80 x0 x1 x2 x3 x4 x5 x6 x7 x8 r

theorem brow_v91 (r : Fin 131072) (l : Fin 3) :
    val_main_v91 (F := Ideal) x0 x1 x2 x3 x4 x5 x6 x7 x8 (ix3 r 0 l) = (![val_main_v55 (F := Ideal) x0 x1 x2 x3 x4 x5 x6 x7 x8 (ix1 r), Pose.lit0, val_main_v56 (F := Ideal) x0 x1 x2 x3 x4 x5 x6 x7 x8 (ix1 r)] : Fin 3 → EReal) l := by
  rw [val_main_v91_apply, idx2_ext (idx_main_v91 (ix3 r 0 l)) r l rfl rfl]
  exact row_v81 x0 x1 x2 x3 x4 x5 x6 x7 x8 r l

theorem col_v82 (r : Fin 131072) : val_main_v82 (F := Ideal) (ix2 r 0) = Pose.lit0 := by
  rw [val_main_v82_apply, v59_at]

theorem col_v83 (r : Fin 131072) : val_main_v83 (F := Ideal) (ix2 r 0) = Pose.lit1 := by
  rw [val_main_v83_apply, v60_at]

theorem col_v84 (r : Fin 131072) : val_main_v84 (F := Ideal) (ix2 r 0) = Pose.lit0 := by
  rw [val_main_v84_apply, v59_at]

theorem row_v85 (r : Fin 131072) (l : Fin 3) :
    val_main_v85 (F := Ideal) (ix2 r l) = (![Pose.lit0, Pose.lit1, Pose.lit0] : Fin 3 → EReal) l := by
  unfold val_main_v85
  rw [cat_col]
  match l with
  | ⟨0, _⟩ => exact col_v82 r
  | ⟨1, _⟩ => exact col_v83 r
  | ⟨2, _⟩ => exact col_v84 r

theorem brow_v92 (r : Fin 131072) (l : Fin 3) :
    val_main_v92 (F := Ideal) (ix3 r 0 l) = (![Pose.lit0, Pose.lit1, Pose.lit0] : Fin 3 → EReal) l := by
  rw [val_main_v92_apply, idx2_ext (idx_main_v92 (ix3 r 0 l)) r l rfl rfl]
  exact row_v85 r l

theorem col_v87 (r : Fin 131072) : val_main_v87 (F := Ideal) x0 x1 x2 x3 x4 x5 x6 x7 x8 (ix2 r 0) = -(val_main_v56 (F := Ideal) x0 x1 x2 x3 x4 x5 x6 x7 x8 (ix1 r)) := by
  rw [val_main_v87_apply, idx1_ext (idx_main_v87 (ix2 r 0)) r rfl]
  rfl

theorem col_v88 (r : Fin 131072) : val_main_v88 (F := Ideal) (ix2 r 0) = Pose.lit0 := by
  rw [val_main_v88_apply, v59_at]

theorem col_v89 (r : Fin 131072) : val_main_v89 (F := Ideal) x0 x1 x2 x3 x4 x5 x6 x7 x8 (ix2 r 0) = val_main_v55 (F := Ideal) x0 x1 x2 x3 x4 x5 x6 x7 x8 (ix1 r) := by
  rw [val_main_v89_apply, idx1_ext (idx_main_v89 (ix2 r 0)) r rfl]

theorem row_v90 (r : Fin 131072) (l : Fin 3) :
    val_main_v90 (F := Ideal) x0 x1 x2 x3 x4 x5 x6 x7 x8 (ix2 r l) = (![-(val_main_v56 (F := Ideal) x0 x1 x2 x3 x4 x5 x6 x7 x8 (ix1 r)), Pose.lit0, val_main_v55 (F := Ideal) x0 x1 x2 x3 x4 x5 x6 x7 x8 (ix1 r)] : Fin 3 → EReal) l := by
  unfold val_main_v90
  rw [cat_col]
  match l with
  | ⟨0, _⟩ => exact col_v87 x0 x1 x2 x3 x4 x5 x6 x7 x8 r
  | ⟨1, _⟩ => exact col_v88 r
  | ⟨2, _⟩ => exact col_v89 x0 x1 x2 x3 x4 x5 x6 x7 x8 r

theorem brow_v93 (r : Fin 131072) (l : Fin 3) :
    val_main_v93 (F := Ideal) x0 x1 x2 x3 x4 x5 x6 x7 x8 (ix3 r 0 l) = (![-(val_main_v56 (F := Ideal) x0 x1 x2 x3 x4 x5 x6 x7 x8 (ix1 r)), Pose.lit0, val_main_v55 (F := Ideal) x0 x1 x2 x3 x4 x5 x6 x7 x8 (ix1 r)] : Fin 3 → EReal) l := by
  rw [val_main_v93_apply, idx2_ext (idx_main_v93 (ix3 r 0 l)) r l rfl rfl]
  exact row_v90 x0 x1 x2 x3 x4 x5 x6 x7 x8 r l

/-- The elementary rotation Y: three rows joined, each row three columns joined. -/
theorem v94_eq (r : Fin 131072) (i l : Fin 3) :
    val_main_v94 (F := Ideal) x0 x1 x2 x3 x4 x5 x6 x7 x8 (ix3 r i l) = Pose.matYof (val_main_v55 (F := Ideal) x0 x1 x2 x3 x4 x5 x6 x7 x8 (ix1 r)) (val_main_v56 (F := Ideal) x0 x1 x2 x3 x4 x5 x6 x7 x8 (ix1 r)) i l := by
  unfold val_main_v94
  rw [cat_row]
  match i with
  | ⟨0, _⟩ => exact brow_v91 x0 x1 x2 x3 x4 x5 x6 x7 x8 r l
  | ⟨1, _⟩ => exact brow_v92 r l
  | ⟨2, _⟩ => exact brow_v93 x0 x1 x2 x3 x4 x5 x6 x7 x8 r l

/-! ## Rotation Z -/

theorem col_v96 (r : Fin 131072) : val_main_v96 (F := Ideal) x0 x1 x2 x3 x4 x5 x6 x7 x8 (ix2 r 0) = val_main_v57 (F := Ideal) x0 x1 x2 x3 x4 x5 x6 x7 x8 (ix1 r) := by
  rw [val_main_v96_apply, idx1_ext (idx_main_v96 (ix2 r 0)) r rfl]

theorem col_v97 (r : Fin 131072) : val_main_v97 (F := Ideal) x0 x1 x2 x3 x4 x5 x6 x7 x8 (ix2 r 0) = -(val_main_v58 (F := Ideal) x0 x1 x2 x3 x4 x5 x6 x7 x8 (ix1 r)) := by
  rw [val_main_v97_apply, idx1_ext (idx_main_v97 (ix2 r 0)) r rfl]
  rfl

theorem col_v98 (r : Fin 131072) : val_main_v98 (F := Ideal) (ix2 r 0) = Pose.lit0 := by
  rw [val_main_v98_apply, v59_at]

theorem row_v99 (r : Fin 131072) (l : Fin 3) :
    val_main_v99 (F := Ideal) x0 x1 x2 x3 x4 x5 x6 x7 x8 (ix2 r l) = (![val_main_v57 (F := Ideal) x0 x1 x2 x3 x4 x5 x6 x7 x8 (ix1 r), -(val_main_v58 (F := Ideal) x0 x1 x2 x3 x4 x5 x6 x7 x8 (ix1 r)), Pose.lit0] : Fin 3 → EReal) l := by
  unfold val_main_v99
  rw [cat_col]
  match l with
  | ⟨0, _⟩ => exact col_v96 x0 x1 x2 x3 x4 x5 x6 x7 x8 r
  | ⟨1, _⟩ => exact col_v97 x0 x1 x2 x3 x4 x5 x6 x7 x8 r
  | ⟨2, _⟩ => exact col_v98 r

theorem brow_v108 (r : Fin 131072) (l : Fin 3) :
    val_main_v108 (F := Ideal) x0 x1 x2 x3 x4 x5 x6 x7 x8 (ix3 r 0 l) = (![val_main_v57 (F := Ideal) x0 x1 x2 x3 x4 x5 x6 x7 x8 (ix1 r), -(val_main_v58 (F := Ideal) x0 x1 x2 x3 x4 x5 x6 x7 x8 (ix1 r)), Pose.lit0] : Fin 3 → EReal) l := by
  rw [val_main_v108_apply, idx2_ext (idx_main_v108 (ix3 r 0 l)) r l rfl rfl]
  exact row_v99 x0 x1 x2 x3 x4 x5 x6 x7 x8 r l

theorem col_v100 (r : Fin 131072) : val_main_v100 (F := Ideal) x0 x1 x2 x3 x4 x5 x6 x7 x8 (ix2 r 0) = val_main_v58 (F := Ideal) x0 x1 x2 x3 x4 x5 x6 x7 x8 (ix1 r) := by
  rw [val_main_v100_apply, idx1_ext (idx_main_v100 (ix2 r 0)) r rfl]

theorem col_v101 (r : Fin 131072) : val_main_v101 (F := Ideal) x0 x1 x2 x3 x4 x5 x6 x7 x8 (ix2 r 0) = val_main_v57 (F := Ideal) x0 x1 x2 x3 x4 x5 x6 x7 x8 (ix1 r) := by
  rw [val_main_v101_apply, idx1_ext (idx_main_v101 (ix2 r 0)) r rfl]

theorem col_v102 (r : Fin 131072) : val_main_v102 (F := Ideal) (ix2 r 0) = Pose.lit0 := by
  rw [val_main_v102_apply, v59_at]

theorem row_v103 (r : Fin 131072) (l : Fin 3) :
    val_main_v103 (F := Ideal) x0 x1 x2 x3 x4 x5 x6 x7 x8 (ix2 r l) = (![val_main_v58 (F := Ideal) x0 x1 x2 x3 x4 x5 x6 x7 x8 (ix1 r), val_main_v57 (F := Ideal) x0 x1 x2 x3 x4 x5 x6 x7 x8 (ix1 r), Pose.lit0] : Fin 3 → EReal) l := by
  unfold val_main_v103
  rw [cat_col]
  match l with
  | ⟨0, _⟩ => exact col_v100 x0 x1 x2 x3 x4 x5 x6 x7 x8 r
  | ⟨1, _⟩ => exact col_v101 x0 x1 x2 x3 x4 x5 x6 x7 x8 r
  | ⟨2, _⟩ => exact col_v102 r

theorem brow_v109 (r : Fin 131072) (l : Fin 3) :
    val_main_v109 (F := Ideal) x0 x1 x2 x3 x4 x5 x6 x7 x8 (ix3 r 0 l) = (![val_main_v58 (F := Ideal) x0 x1 x2 x3 x4 x5 x6 x7 x8 (ix1 r), val_main_v57 (F := Ideal) x0 x1 x2 x3 x4 x5 x6 x7 x8 (ix1 r), Pose.lit0] : Fin 3 → EReal) l := by
  rw [val_main_v109_apply, idx2_ext (idx_main_v109 (ix3 r 0 l)) r l rfl rfl]
  exact row_v103 x0 x1 x2 x3 x4 x5 x6 x7 x8 r l

theorem col_v104 (r : Fin 131072) : val_main_v104 (F := Ideal) (ix2 r 0) = Pose.lit0 := by
  rw [val_main_v104_apply, v59_at]

theorem col_v105 (r : Fin 131072) : val_main_v105 (F := Ideal) (ix2 r 0) = Pose.lit0 := by
  rw [val_main_v105_apply, v59_at]

theorem col_v106 (r : Fin 131072) : val_main_v106 (F := Ideal) (ix2 r 0) = Pose.lit1 := by
  rw [val_main_v106_apply, v60_at]

theorem row_v107 (r : Fin 131072) (l : Fin 3) :
    val_main_v107 (F := Ideal) (ix2 r l) = (![Pose.lit0, Pose.lit0, Pose.lit1] : Fin 3 → EReal) l := by
  unfold val_main_v107
  rw [cat_col]
  match l with
  | ⟨0, _⟩ => exact col_v104 r
  | ⟨1, _⟩ => exact col_v105 r
  | ⟨2, _⟩ => exact col_v106 r

theorem brow_v110 (r : Fin 131072) (l : Fin 3) :
    val_main_v110 (F := Ideal) (ix3 r 0 l) = (![Pose.lit0, Pose.lit0, Pose.lit1] : Fin 3 → EReal) l := by
  rw [val_main_v110_apply, idx2_ext (idx_main_v110 (ix3 r 0 l)) r l rfl rfl]
  exact row_v107 r l

/-- The elementary rotation Z: three rows joined, each row three columns joined. -/
theorem v111_eq (r : Fin 131072) (i l : Fin 3) :
    val_main_v111 (F := Ideal) x0 x1 x2 x3 x4 x5 x6 x7 x8 (ix3 r i l) = Pose.matZof (val_main_v57 (F := Ideal) x0 x1 x2 x3 x4 x5 x6 x7 x8 (ix1 r)) (val_main_v58 (F := Ideal) x0 x1 x2 x3 x4 x5 x6 x7 x8 (ix1 r)) i l := by
  unfold val_main_v111
  rw [cat_row]
  match i with
  | ⟨0, _⟩ => exact brow_v108 x0 x1 x2 x3 x4 x5 x6 x7 x8 r l
  | ⟨1, _⟩ => exact brow_v109 x0 x1 x2 x3 x4 x5 x6 x7 x8 r l
  | ⟨2, _⟩ => exact brow_v110 r l

end Cert.ReferenceIdeal.RefValue

end
-- ==== Proof.RefPose.lean ====
/-
  The reference program's rotation, eigenvalue matrix and their products, read entry by entry.

  With X, Y, Z the three elementary rotations, the program forms (Z·Y)ᵀ by contracting Y's rows with Z's
  columns, then R = (Z·Y)·X by contracting over the first axis of both; E is the eigenvalue vector times the
  Kronecker delta (two index ramps compared and the truth value converted to a number); D = (R·E)·Rᵀ is formed
  as (R·E)ᵀ first, then contracted with R's columns. Every contraction is a sum over an index of extent three.
-/
import proofs.«124405_j83932250898799_2_alg».proof.Proof.RefPoseMats

noncomputable section

open Cert.ReferenceIdeal Cert.ReferenceIdeal.Gen Cert.ReferenceIdeal.Read Idealize.ShloMosaic Idealize.ShloMosaic.ValueIdx
open scoped BigOperators

namespace Cert.ReferenceIdeal.RefValue

/-! ## Where a contraction reads its operands -/

theorem lidx112 (r : Fin 131072) (p q k : Fin 3) : lidx_main_v112 (ix3 r p q) k = ix3 r k p :=
  idx3_ext _ _ _ _ rfl rfl rfl
theorem ridx112 (r : Fin 131072) (p q k : Fin 3) : ridx_main_v112 (ix3 r p q) k = ix3 r q k :=
  idx3_ext _ _ _ _ rfl rfl rfl
theorem lidx113 (r : Fin 131072) (p q k : Fin 3) : lidx_main_v113 (ix3 r p q) k = ix3 r k p :=
  idx3_ext _ _ _ _ rfl rfl rfl
theorem ridx113 (r : Fin 131072) (p q k : Fin 3) : ridx_main_v113 (ix3 r p q) k = ix3 r k q :=
  idx3_ext _ _ _ _ rfl rfl rfl
theorem lidx129 (r : Fin 131072) (p q k : Fin 3) : lidx_main_v129 (ix3 r p q) k = ix3 r k p :=
  idx3_ext _ _ _ _ rfl rfl rfl
theorem ridx129 (r : Fin 131072) (p q k : Fin 3) : ridx_main_v129 (ix3 r p q) k = ix3 r q k :=
  idx3_ext _ _ _ _ rfl rfl rfl
theorem lidx130 (r : Fin 131072) (p q k : Fin 3) : lidx_main_v130 (ix3 r p q) k = ix3 r k p :=
  idx3_ext _ _ _ _ rfl rfl rfl
theorem ridx130 (r : Fin 131072) (p q k : Fin 3) : ridx_main_v130 (ix3 r p q) k = ix3 r q k :=
  idx3_ext _ _ _ _ rfl rfl rfl

/-! ## The Kronecker delta -/

/-- Two ramps over a 3×3 grid, one along each axis, compared for equality: the one-bit answer. -/
theorem ramp_cmp : ∀ j k : Fin 3,
    IntOp.cmpi .eq (IntOp.addi (BitVec.ofNat 32 j.val) 0#32) (BitVec.ofNat 32 k.val) = if j = k then 1#1 else 0#1 := by
  decide

/-- The one-bit answer as an extended real. -/
theorem bit_to_real (j k : Fin 3) :
    FloatOps.uitofp (F := Ideal) .f32 (if j = k then 1#1 else 0#1 : BitVec 1) = Pose.eye j k := by
  unfold Pose.eye
  by_cases h : j = k
  · rw [if_pos h, if_pos h]
    show ((((1#1 : BitVec 1).toNat : ℕ) : ℝ) : EReal) = 1
    rw [show (1#1 : BitVec 1).toNat = 1 from rfl, Nat.cast_one, EReal.coe_one]
  · rw [if_neg h, if_neg h]
    show ((((0#1 : BitVec 1).toNat : ℕ) : ℝ) : EReal) = 0
    rw [show (0#1 : BitVec 1).toNat = 0 from rfl, Nat.cast_zero, EReal.coe_zero]

theorem v124_eq (j k : Fin 3) : val_main_v124 (F := Ideal) (ix2 j k) = Pose.eye j k := by
  rw [val_main_v124_apply, val_main_v123_apply, val_main_v122_apply, val_main_v119_apply, val_main_v120_apply,
    val_main_v121_apply, val_main_c_apply]
  exact (congrArg (FloatOps.uitofp (F := Ideal) .f32) (ramp_cmp j k)).trans (bit_to_real j k)

theorem v127_eq (r : Fin 131072) (j k : Fin 3) : val_main_v127 (F := Ideal) (ix3 r j k) = Pose.eye j k := by
  rw [val_main_v127_apply, val_main_v125_apply,
    idx2_ext (idx_main_v125 (idx_main_v127 (ix3 r j k))) j k rfl rfl]
  exact v124_eq j k

variable (x0 : (⟨S131072x288, .f32⟩ : BufTy).Contents (Elt Ideal)) (x1 : (⟨S288x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x7, .f32⟩ : BufTy).Contents (Elt Ideal))
  (x8 : (⟨S7, .f32⟩ : BufTy).Contents (Elt Ideal))

/-! ## The eigenvalue matrix -/

theorem col_v114 (r : Fin 131072) : val_main_v114 (F := Ideal) x0 x1 x2 x3 x4 x5 x6 x7 x8 (ix2 r 0) = val_main_v46 (F := Ideal) x0 x1 x2 x3 x4 x5 x6 x7 x8 (ix1 r) := by
  rw [val_main_v114_apply, idx1_ext (idx_main_v114 (ix2 r 0)) r rfl]
theorem col_v115 (r : Fin 131072) : val_main_v115 (F := Ideal) x0 x1 x2 x3 x4 x5 x6 x7 x8 (ix2 r 0) = val_main_v49 (F := Ideal) x0 x1 x2 x3 x4 x5 x6 x7 x8 (ix1 r) := by
  rw [val_main_v115_apply, idx1_ext (idx_main_v115 (ix2 r 0)) r rfl]
theorem col_v116 (r : Fin 131072) : val_main_v116 (F := Ideal) x0 x1 x2 x3 x4 x5 x6 x7 x8 (ix2 r 0) = val_main_v52 (F := Ideal) x0 x1 x2 x3 x4 x5 x6 x7 x8 (ix1 r) := by
  rw [val_main_v116_apply, idx1_ext (idx_main_v116 (ix2 r 0)) r rfl]

theorem row_v117 (r : Fin 131072) (j : Fin 3) :
    val_main_v117 (F := Ideal) x0 x1 x2 x3 x4 x5 x6 x7 x8 (ix2 r j) = (![val_main_v46 (F := Ideal) x0 x1 x2 x3 x4 x5 x6 x7 x8 (ix1 r), val_main_v49 (F := Ideal) x0 x1 x2 x3 x4 x5 x6 x7 x8 (ix1 r), val_main_v52 (F := Ideal) x0 x1 x2 x3 x4 x5 x6 x7 x8 (ix1 r)] : Fin 3 → EReal) j := by
  unfold val_main_v117
  rw [cat_col]
  match j with
  | ⟨0, _⟩ => exact col_v114 x0 x1 x2 x3 x4 x5 x6 x7 x8 r
  | ⟨1, _⟩ => exact col_v115 x0 x1 x2 x3 x4 x5 x6 x7 x8 r
  | ⟨2, _⟩ => exact col_v116 x0 x1 x2 x3 x4 x5 x6 x7 x8 r

theorem v126_eq (r : Fin 131072) (j k : Fin 3) :
    val_main_v126 (F := Ideal) x0 x1 x2 x3 x4 x5 x6 x7 x8 (ix3 r j k) = (![val_main_v46 (F := Ideal) x0 x1 x2 x3 x4 x5 x6 x7 x8 (ix1 r), val_main_v49 (F := Ideal) x0 x1 x2 x3 x4 x5 x6 x7 x8 (ix1 r), val_main_v52 (F := Ideal) x0 x1 x2 x3 x4 x5 x6 x7 x8 (ix1 r)] : Fin 3 → EReal) j := by
  rw [val_main_v126_apply, val_main_v118_apply,
    idx2_ext (idx_main_v118 (idx_main_v126 (ix3 r j k))) r j rfl rfl]
  exact row_v117 x0 x1 x2 x3 x4 x5 x6 x7 x8 r j

/-- E: the eigenvalue of row j times the delta. -/
theorem v128_eq (r : Fin 131072) (j k : Fin 3) :
    val_main_v128 (F := Ideal) x0 x1 x2 x3 x4 x5 x6 x7 x8 (ix3 r j k) = Pose.eigRof (val_main_v46 (F := Ideal) x0 x1 x2 x3 x4 x5 x6 x7 x8 (ix1 r)) (val_main_v49 (F := Ideal) x0 x1 x2 x3 x4 x5 x6 x7 x8 (ix1 r)) (val_main_v52 (F := Ideal) x0 x1 x2 x3 x4 x5 x6 x7 x8 (ix1 r)) j k := by
  rw [val_main_v128_apply, v126_eq, v127_eq]
  rfl

/-! ## The rotation -/

/-- (Z·Y)ᵀ: entry (p, q) is the sum over k of Y's (k, p) times Z's (q, k). -/
theorem v112_eq (r : Fin 131072) (p q : Fin 3) :
    val_main_v112 (F := Ideal) x0 x1 x2 x3 x4 x5 x6 x7 x8 (ix3 r p q)
      = ∑ k : Fin 3, Pose.matYof (val_main_v55 (F := Ideal) x0 x1 x2 x3 x4 x5 x6 x7 x8 (ix1 r)) (val_main_v56 (F := Ideal) x0 x1 x2 x3 x4 x5 x6 x7 x8 (ix1 r)) k p * Pose.matZof (val_main_v57 (F := Ideal) x0 x1 x2 x3 x4 x5 x6 x7 x8 (ix1 r)) (val_main_v58 (F := Ideal) x0 x1 x2 x3 x4 x5 x6 x7 x8 (ix1 r)) q k := by
  rw [val_main_v112_apply]
  refine Finset.sum_congr rfl fun k _ => ?_
  rw [lidx112, ridx112, v94_eq, v111_eq]

/-- R = (Z·Y)·X. -/
theorem v113_eq (r : Fin 131072) (i l : Fin 3) :
    val_main_v113 (F := Ideal) x0 x1 x2 x3 x4 x5 x6 x7 x8 (ix3 r i l) = Pose.rotRof (val_main_v53 (F := Ideal) x0 x1 x2 x3 x4 x5 x6 x7 x8 (ix1 r)) (val_main_v54 (F := Ideal) x0 x1 x2 x3 x4 x5 x6 x7 x8 (ix1 r)) (val_main_v55 (F := Ideal) x0 x1 x2 x3 x4 x5 x6 x7 x8 (ix1 r)) (val_main_v56 (F := Ideal) x0 x1 x2 x3 x4 x5 x6 x7 x8 (ix1 r)) (val_main_v57 (F := Ideal) x0 x1 x2 x3 x4 x5 x6 x7 x8 (ix1 r)) (val_main_v58 (F := Ideal) x0 x1 x2 x3 x4 x5 x6 x7 x8 (ix1 r)) i l := by
  rw [val_main_v113_apply]
  unfold Pose.rotRof
  refine Finset.sum_congr rfl fun k _ => ?_
  rw [lidx113, ridx113, v112_eq, v77_eq]

/-! ## D = (R·E)·Rᵀ -/

/-- (R·E)ᵀ: entry (p, q) is the sum over k of E's (k, p) times R's (q, k). -/
theorem v129_eq (r : Fin 131072) (p q : Fin 3) :
    val_main_v129 (F := Ideal) x0 x1 x2 x3 x4 x5 x6 x7 x8 (ix3 r p q)
      = ∑ k : Fin 3, val_main_v128 (F := Ideal) x0 x1 x2 x3 x4 x5 x6 x7 x8 (ix3 r k p) * val_main_v113 (F := Ideal) x0 x1 x2 x3 x4 x5 x6 x7 x8 (ix3 r q k) := by
  rw [val_main_v129_apply]
  refine Finset.sum_congr rfl fun k _ => ?_
  rw [lidx129, ridx129]

theorem v130_eq (r : Fin 131072) (i l : Fin 3) :
    val_main_v130 (F := Ideal) x0 x1 x2 x3 x4 x5 x6 x7 x8 (ix3 r i l)
      = Pose.diffRof (fun i l => val_main_v113 (F := Ideal) x0 x1 x2 x3 x4 x5 x6 x7 x8 (ix3 r i l)) (fun j k => val_main_v128 (F := Ideal) x0 x1 x2 x3 x4 x5 x6 x7 x8 (ix3 r j k)) i l := by
  rw [val_main_v130_apply]
  show _ = ∑ k : Fin 3, (∑ j : Fin 3, val_main_v128 (F := Ideal) x0 x1 x2 x3 x4 x5 x6 x7 x8 (ix3 r j k) * val_main_v113 (F := Ideal) x0 x1 x2 x3 x4 x5 x6 x7 x8 (ix3 r i j)) * val_main_v113 (F := Ideal) x0 x1 x2 x3 x4 x5 x6 x7 x8 (ix3 r l k)
  refine Finset.sum_congr rfl fun k _ => ?_
  rw [lidx130, ridx130, v129_eq]

end Cert.ReferenceIdeal.RefValue

end
-- ==== Proof.RefHead.lean ====
/-
  The reference program's perceptron head and per-row scalars, read index by index.

  Row r of the reference's first operations is the four-layer perceptron of the shared specification
  applied to row r of the input: each hidden layer is an inner product over the incoming row plus a
  bias, followed by max(·, 0); the head is one more inner product plus a bias. The operations after it
  turn the head's seven numbers o into six logistic gates, and from those the cosines and sines of the
  three Euler angles, the three eigenvalues and the shift tanh(o₆) + 1.
-/
import proofs.«124405_j83932250898799_2_alg».proof.Proof.Gen.ReferenceIdeal.Read
import proofs.«124405_j83932250898799_2_alg».proof.Proof.PoseSpec

noncomputable section

open Idealize.ShloMosaic Idealize.ShloMosaic.ValueIdx
open Cert.ReferenceIdeal Cert.ReferenceIdeal.Gen
open scoped BigOperators

namespace Cert.ReferenceIdeal.RefValue

variable (x0 : (⟨S131072x288, .f32⟩ : BufTy).Contents (Elt Ideal))
  (x1 : (⟨S288x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x7, .f32⟩ : BufTy).Contents (Elt Ideal)) (x8 : (⟨S7, .f32⟩ : BufTy).Contents (Elt Ideal))

/-! ## Index equations for the perceptron

  At the index (r, n) an inner product reads its left operand at (r, k) and its right operand at (k, n);
  the bias, broadcast first to one row and then to every row, is read at n. -/

theorem lidx_v0 (r : Fin 131072) (n : Fin 1024) (k : Fin 288) : Read.lidx_main_v0 (ix2 r n) k = ix2 r k :=
  funext fun a => Fin.ext (by match a with | ⟨0, _⟩ => rfl | ⟨1, _⟩ => rfl)
theorem ridx_v0 (r : Fin 131072) (n : Fin 1024) (k : Fin 288) : Read.ridx_main_v0 (ix2 r n) k = ix2 k n :=
  funext fun a => Fin.ext (by match a with | ⟨0, _⟩ => rfl | ⟨1, _⟩ => rfl)
theorem idx_v2 (r : Fin 131072) (n : Fin 1024) : Read.idx_main_v2 (ix2 r n) = ix2 (0 : Fin 1) n :=
  funext fun a => Fin.ext (by match a with | ⟨0, _⟩ => rfl | ⟨1, _⟩ => rfl)
theorem idx_v1 (z : Fin 1) (n : Fin 1024) : Read.idx_main_v1 (ix2 z n) = ix1 n :=
  funext fun a => Fin.ext (by match a with | ⟨0, _⟩ => rfl)

theorem lidx_v5 (r : Fin 131072) (n : Fin 1024) (k : Fin 1024) : Read.lidx_main_v5 (ix2 r n) k = ix2 r k :=
  funext fun a => Fin.ext (by match a with | ⟨0, _⟩ => rfl | ⟨1, _⟩ => rfl)
theorem ridx_v5 (r : Fin 131072) (n : Fin 1024) (k : Fin 1024) : Read.ridx_main_v5 (ix2 r n) k = ix2 k n :=
  funext fun a => Fin.ext (by match a with | ⟨0, _⟩ => rfl | ⟨1, _⟩ => rfl)
theorem idx_v7 (r : Fin 131072) (n : Fin 1024) : Read.idx_main_v7 (ix2 r n) = ix2 (0 : Fin 1) n :=
  funext fun a => Fin.ext (by match a with | ⟨0, _⟩ => rfl | ⟨1, _⟩ => rfl)
theorem idx_v6 (z : Fin 1) (n : Fin 1024) : Read.idx_main_v6 (ix2 z n) = ix1 n :=
  funext fun a => Fin.ext (by match a with | ⟨0, _⟩ => rfl)

theorem lidx_v10 (r : Fin 131072) (n : Fin 1024) (k : Fin 1024) : Read.lidx_main_v10 (ix2 r n) k = ix2 r k :=
  funext fun a => Fin.ext (by match a with | ⟨0, _⟩ => rfl | ⟨1, _⟩ => rfl)
theorem ridx_v10 (r : Fin 131072) (n : Fin 1024) (k : Fin 1024) : Read.ridx_main_v10 (ix2 r n) k = ix2 k n :=
  funext fun a => Fin.ext (by match a with | ⟨0, _⟩ => rfl | ⟨1, _⟩ => rfl)
theorem idx_v12 (r : Fin 131072) (n : Fin 1024) : Read.idx_main_v12 (ix2 r n) = ix2 (0 : Fin 1) n :=
  funext fun a => Fin.ext (by match a with | ⟨0, _⟩ => rfl | ⟨1, _⟩ => rfl)
theorem idx_v11 (z : Fin 1) (n : Fin 1024) : Read.idx_main_v11 (ix2 z n) = ix1 n :=
  funext fun a => Fin.ext (by match a with | ⟨0, _⟩ => rfl)

theorem lidx_v15 (r : Fin 131072) (n : Fin 7) (k : Fin 1024) : Read.lidx_main_v15 (ix2 r n) k = ix2 r k :=
  funext fun a => Fin.ext (by match a with | ⟨0, _⟩ => rfl | ⟨1, _⟩ => rfl)
theorem ridx_v15 (r : Fin 131072) (n : Fin 7) (k : Fin 1024) : Read.ridx_main_v15 (ix2 r n) k = ix2 k n :=
  funext fun a => Fin.ext (by match a with | ⟨0, _⟩ => rfl | ⟨1, _⟩ => rfl)
theorem idx_v17 (r : Fin 131072) (n : Fin 7) : Read.idx_main_v17 (ix2 r n) = ix2 (0 : Fin 1) n :=
  funext fun a => Fin.ext (by match a with | ⟨0, _⟩ => rfl | ⟨1, _⟩ => rfl)
theorem idx_v16 (z : Fin 1) (n : Fin 7) : Read.idx_main_v16 (ix2 z n) = ix1 n :=
  funext fun a => Fin.ext (by match a with | ⟨0, _⟩ => rfl)

/-! ## The three hidden layers and the head -/

/-- First hidden layer at (r, n). -/
theorem layer1_apply (r : Fin 131072) (n : Fin 1024) :
    Read.val_main_v4 x0 x1 x2 (ix2 r n)
      = Cert.Pose.relu (Cert.Pose.dense (fun k : Fin 288 => x0 (ix2 r k)) x1 x2 n) := by
  rw [Read.val_main_v4_apply, Read.val_main_v3_apply, Read.val_main_v0_apply, Read.val_main_v2_apply,
    Read.val_main_v1_apply, Read.val_main_call0_v0_apply, Read.val_main_call0_cst_apply]
  simp only [lidx_v0, ridx_v0, idx_v2, idx_v1, Ideal.addf_def, Ideal.maximumf_def, Ideal.ofBits_def]
  rfl

/-- Second hidden layer at (r, n): its incoming row is the first layer's row r. -/
theorem layer2_apply (r : Fin 131072) (n : Fin 1024) :
    Read.val_main_v9 x0 x1 x2 x3 x4 (ix2 r n)
      = Cert.Pose.relu (Cert.Pose.dense
          (fun k2 : Fin 1024 => Cert.Pose.relu (Cert.Pose.dense (fun k : Fin 288 => x0 (ix2 r k)) x1 x2 k2)) x3 x4 n) := by
  rw [Read.val_main_v9_apply, Read.val_main_v8_apply, Read.val_main_v5_apply, Read.val_main_v7_apply,
    Read.val_main_v6_apply, Read.val_main_call1_v0_apply, Read.val_main_call1_cst_apply]
  simp only [lidx_v5, ridx_v5, idx_v7, idx_v6, layer1_apply, Ideal.addf_def, Ideal.maximumf_def, Ideal.ofBits_def]
  rfl

/-- Third hidden layer at (r, n). -/
theorem layer3_apply (r : Fin 131072) (n : Fin 1024) :
    Read.val_main_v14 x0 x1 x2 x3 x4 x5 x6 (ix2 r n)
      = Cert.Pose.relu (Cert.Pose.dense
          (fun k3 : Fin 1024 => Cert.Pose.relu (Cert.Pose.dense
            (fun k2 : Fin 1024 => Cert.Pose.relu (Cert.Pose.dense (fun k : Fin 288 => x0 (ix2 r k)) x1 x2 k2)) x3 x4 k3))
          x5 x6 n) := by
  rw [Read.val_main_v14_apply, Read.val_main_v13_apply, Read.val_main_v10_apply, Read.val_main_v12_apply,
    Read.val_main_v11_apply, Read.val_main_call2_v0_apply, Read.val_main_call2_cst_apply]
  simp only [lidx_v10, ridx_v10, idx_v12, idx_v11, layer2_apply, Ideal.addf_def, Ideal.maximumf_def, Ideal.ofBits_def]
  rfl

/-- The head at (r, n) is the specification's perceptron on row r of the input. -/
theorem head_apply (r : Fin 131072) (n : Fin 7) :
    Read.val_main_v18 x0 x1 x2 x3 x4 x5 x6 x7 x8 (ix2 r n) = Cert.Pose.headOf x0 x1 x2 x3 x4 x5 x6 x7 x8 r n := by
  rw [Read.val_main_v18_apply, Read.val_main_v15_apply, Read.val_main_v17_apply, Read.val_main_v16_apply]
  simp only [lidx_v15, ridx_v15, idx_v17, idx_v16, layer3_apply, Ideal.addf_def]
  rfl

/-! ## From the head's row to gates, angles, eigenvalues and the shift -/

/-- The head's seven numbers for row r, as the reference computes them. -/
abbrev headRow (r : Fin 131072) : Fin 7 → EReal := fun n => Read.val_main_v18 x0 x1 x2 x3 x4 x5 x6 x7 x8 (ix2 r n)

/-- The reference's row is the specification's. -/
theorem headRow_eq (r : Fin 131072) : headRow x0 x1 x2 x3 x4 x5 x6 x7 x8 r = Cert.Pose.headOf x0 x1 x2 x3 x4 x5 x6 x7 x8 r :=
  funext fun n => head_apply x0 x1 x2 x3 x4 x5 x6 x7 x8 r n

/-- The slice of the first six columns reads column g of the seven. -/
theorem idx_v19 (r : Fin 131072) (g : Fin 6) (j : Fin 7) (hj : j.val = g.val) :
    Read.idx_main_v19 (ix2 r g) = ix2 r j :=
  funext fun a => Fin.ext (by match a with | ⟨0, _⟩ => rfl | ⟨1, _⟩ => exact hj.symm)

/-- A gate at (r, g): the reference spells the logistic function as 1 / (1 + exp(−x)) with the
    single-precision one, which is the real one. -/
theorem gate_at (r : Fin 131072) (g : Fin 6) (j : Fin 7) (hj : j.val = g.val) :
    Read.val_main_v25 x0 x1 x2 x3 x4 x5 x6 x7 x8 (ix2 r g) = Cert.Pose.gate (headRow x0 x1 x2 x3 x4 x5 x6 x7 x8 r) j := by
  rw [Read.val_main_v25_apply, Read.val_main_v24_apply, Read.val_main_cst_0_apply, Read.val_main_v23_apply,
    Read.val_main_v22_apply, Read.val_main_cst_apply, Read.val_main_v21_apply, Read.val_main_v20_apply,
    Read.val_main_v19_apply, idx_v19 r g j hj]
  simp only [Ideal.hostDivf_def, Ideal.ofBits_def, Ideal.addf_def, Ideal.hostUnary_exp_def, Ideal.hostNegf_def,
    Ideal.negf_def, Ideal.ofBits_one_f32]
  rfl

theorem gate_apply (r : Fin 131072) (g : Fin 6) :
    Read.val_main_v25 x0 x1 x2 x3 x4 x5 x6 x7 x8 (ix2 r g)
      = Cert.Pose.gate (headRow x0 x1 x2 x3 x4 x5 x6 x7 x8 r) ⟨g.val, Nat.lt_of_lt_of_le g.isLt (by decide)⟩ :=
  gate_at x0 x1 x2 x3 x4 x5 x6 x7 x8 r g _ rfl

/-! ## The per-row scalars

  Column c of the gates is taken by a slice [:, c:c+1] and a reshape to one number per row: at row r
  the reshape reads (r, 0) and the slice reads (r, c). -/

theorem idx_v32 (r : Fin 131072) : Read.idx_main_v32 (ix1 r) = ix2 r (0 : Fin 1) :=
  funext fun a => Fin.ext (by match a with | ⟨0, _⟩ => exact Nat.div_one _ | ⟨1, _⟩ => rfl)
theorem idx_v31 (r : Fin 131072) : Read.idx_main_v31 (ix2 r (0 : Fin 1)) = ix2 r (0 : Fin 6) :=
  funext fun a => Fin.ext (by match a with | ⟨0, _⟩ => rfl | ⟨1, _⟩ => rfl)
/-- Gate 0 of row r. -/
theorem gate0_row (r : Fin 131072) :
    Read.val_main_v32 x0 x1 x2 x3 x4 x5 x6 x7 x8 (ix1 r) = Cert.Pose.gate (headRow x0 x1 x2 x3 x4 x5 x6 x7 x8 r) 0 := by
  rw [Read.val_main_v32_apply, Read.val_main_v31_apply, idx_v32, idx_v31]
  exact gate_at x0 x1 x2 x3 x4 x5 x6 x7 x8 r 0 0 rfl

theorem idx_v36 (r : Fin 131072) : Read.idx_main_v36 (ix1 r) = ix2 r (0 : Fin 1) :=
  funext fun a => Fin.ext (by match a with | ⟨0, _⟩ => exact Nat.div_one _ | ⟨1, _⟩ => rfl)
theorem idx_v35 (r : Fin 131072) : Read.idx_main_v35 (ix2 r (0 : Fin 1)) = ix2 r (1 : Fin 6) :=
  funext fun a => Fin.ext (by match a with | ⟨0, _⟩ => rfl | ⟨1, _⟩ => rfl)
/-- Gate 1 of row r. -/
theorem gate1_row (r : Fin 131072) :
    Read.val_main_v36 x0 x1 x2 x3 x4 x5 x6 x7 x8 (ix1 r) = Cert.Pose.gate (headRow x0 x1 x2 x3 x4 x5 x6 x7 x8 r) 1 := by
  rw [Read.val_main_v36_apply, Read.val_main_v35_apply, idx_v36, idx_v35]
  exact gate_at x0 x1 x2 x3 x4 x5 x6 x7 x8 r 1 1 rfl

theorem idx_v40 (r : Fin 131072) : Read.idx_main_v40 (ix1 r) = ix2 r (0 : Fin 1) :=
  funext fun a => Fin.ext (by match a with | ⟨0, _⟩ => exact Nat.div_one _ | ⟨1, _⟩ => rfl)
theorem idx_v39 (r : Fin 131072) : Read.idx_main_v39 (ix2 r (0 : Fin 1)) = ix2 r (2 : Fin 6) :=
  funext fun a => Fin.ext (by match a with | ⟨0, _⟩ => rfl | ⟨1, _⟩ => rfl)
/-- Gate 2 of row r. -/
theorem gate2_row (r : Fin 131072) :
    Read.val_main_v40 x0 x1 x2 x3 x4 x5 x6 x7 x8 (ix1 r) = Cert.Pose.gate (headRow x0 x1 x2 x3 x4 x5 x6 x7 x8 r) 2 := by
  rw [Read.val_main_v40_apply, Read.val_main_v39_apply, idx_v40, idx_v39]
  exact gate_at x0 x1 x2 x3 x4 x5 x6 x7 x8 r 2 2 rfl

theorem idx_v44 (r : Fin 131072) : Read.idx_main_v44 (ix1 r) = ix2 r (0 : Fin 1) :=
  funext fun a => Fin.ext (by match a with | ⟨0, _⟩ => exact Nat.div_one _ | ⟨1, _⟩ => rfl)
theorem idx_v43 (r : Fin 131072) : Read.idx_main_v43 (ix2 r (0 : Fin 1)) = ix2 r (3 : Fin 6) :=
  funext fun a => Fin.ext (by match a with | ⟨0, _⟩ => rfl | ⟨1, _⟩ => rfl)
/-- Gate 3 of row r. -/
theorem gate3_row (r : Fin 131072) :
    Read.val_main_v44 x0 x1 x2 x3 x4 x5 x6 x7 x8 (ix1 r) = Cert.Pose.gate (headRow x0 x1 x2 x3 x4 x5 x6 x7 x8 r) 3 := by
  rw [Read.val_main_v44_apply, Read.val_main_v43_apply, idx_v44, idx_v43]
  exact gate_at x0 x1 x2 x3 x4 x5 x6 x7 x8 r 3 3 rfl

theorem idx_v48 (r : Fin 131072) : Read.idx_main_v48 (ix1 r) = ix2 r (0 : Fin 1) :=
  funext fun a => Fin.ext (by match a with | ⟨0, _⟩ => exact Nat.div_one _ | ⟨1, _⟩ => rfl)
theorem idx_v47 (r : Fin 131072) : Read.idx_main_v47 (ix2 r (0 : Fin 1)) = ix2 r (4 : Fin 6) :=
  funext fun a => Fin.ext (by match a with | ⟨0, _⟩ => rfl | ⟨1, _⟩ => rfl)
/-- Gate 4 of row r. -/
theorem gate4_row (r : Fin 131072) :
    Read.val_main_v48 x0 x1 x2 x3 x4 x5 x6 x7 x8 (ix1 r) = Cert.Pose.gate (headRow x0 x1 x2 x3 x4 x5 x6 x7 x8 r) 4 := by
  rw [Read.val_main_v48_apply, Read.val_main_v47_apply, idx_v48, idx_v47]
  exact gate_at x0 x1 x2 x3 x4 x5 x6 x7 x8 r 4 4 rfl

theorem idx_v51 (r : Fin 131072) : Read.idx_main_v51 (ix1 r) = ix2 r (0 : Fin 1) :=
  funext fun a => Fin.ext (by match a with | ⟨0, _⟩ => exact Nat.div_one _ | ⟨1, _⟩ => rfl)
theorem idx_v50 (r : Fin 131072) : Read.idx_main_v50 (ix2 r (0 : Fin 1)) = ix2 r (5 : Fin 6) :=
  funext fun a => Fin.ext (by match a with | ⟨0, _⟩ => rfl | ⟨1, _⟩ => rfl)
/-- Gate 5 of row r. -/
theorem gate5_row (r : Fin 131072) :
    Read.val_main_v51 x0 x1 x2 x3 x4 x5 x6 x7 x8 (ix1 r) = Cert.Pose.gate (headRow x0 x1 x2 x3 x4 x5 x6 x7 x8 r) 5 := by
  rw [Read.val_main_v51_apply, Read.val_main_v50_apply, idx_v51, idx_v50]
  exact gate_at x0 x1 x2 x3 x4 x5 x6 x7 x8 r 5 5 rfl

theorem idx_v27 (r : Fin 131072) : Read.idx_main_v27 (ix1 r) = ix2 r (0 : Fin 1) :=
  funext fun a => Fin.ext (by match a with | ⟨0, _⟩ => exact Nat.div_one _ | ⟨1, _⟩ => rfl)
theorem idx_v26 (r : Fin 131072) : Read.idx_main_v26 (ix2 r (0 : Fin 1)) = ix2 r (6 : Fin 7) :=
  funext fun a => Fin.ext (by match a with | ⟨0, _⟩ => rfl | ⟨1, _⟩ => rfl)

/-! ### Angles -/

theorem angX_apply (r : Fin 131072) :
    Read.val_main_v34 x0 x1 x2 x3 x4 x5 x6 x7 x8 (ix1 r) = Cert.Pose.angX (headRow x0 x1 x2 x3 x4 x5 x6 x7 x8 r) := by
  rw [Read.val_main_v34_apply, Read.val_main_v33_apply, Read.val_main_cst_2_apply, gate0_row]
  rfl
theorem angY_apply (r : Fin 131072) :
    Read.val_main_v38 x0 x1 x2 x3 x4 x5 x6 x7 x8 (ix1 r) = Cert.Pose.angY (headRow x0 x1 x2 x3 x4 x5 x6 x7 x8 r) := by
  rw [Read.val_main_v38_apply, Read.val_main_v37_apply, Read.val_main_cst_3_apply, gate1_row]
  rfl
theorem angZ_apply (r : Fin 131072) :
    Read.val_main_v42 x0 x1 x2 x3 x4 x5 x6 x7 x8 (ix1 r) = Cert.Pose.angZ (headRow x0 x1 x2 x3 x4 x5 x6 x7 x8 r) := by
  rw [Read.val_main_v42_apply, Read.val_main_v41_apply, Read.val_main_cst_4_apply, gate2_row]
  rfl

/-! ### Cosines and sines -/

theorem cx_apply (r : Fin 131072) :
    Read.val_main_v53 x0 x1 x2 x3 x4 x5 x6 x7 x8 (ix1 r) = Cert.Pose.cx (headRow x0 x1 x2 x3 x4 x5 x6 x7 x8 r) := by
  rw [Read.val_main_v53_apply, angX_apply]
  rfl
theorem sx_apply (r : Fin 131072) :
    Read.val_main_v54 x0 x1 x2 x3 x4 x5 x6 x7 x8 (ix1 r) = Cert.Pose.sx (headRow x0 x1 x2 x3 x4 x5 x6 x7 x8 r) := by
  rw [Read.val_main_v54_apply, angX_apply]
  rfl
theorem cy_apply (r : Fin 131072) :
    Read.val_main_v55 x0 x1 x2 x3 x4 x5 x6 x7 x8 (ix1 r) = Cert.Pose.cy (headRow x0 x1 x2 x3 x4 x5 x6 x7 x8 r) := by
  rw [Read.val_main_v55_apply, angY_apply]
  rfl
theorem sy_apply (r : Fin 131072) :
    Read.val_main_v56 x0 x1 x2 x3 x4 x5 x6 x7 x8 (ix1 r) = Cert.Pose.sy (headRow x0 x1 x2 x3 x4 x5 x6 x7 x8 r) := by
  rw [Read.val_main_v56_apply, angY_apply]
  rfl
theorem cz_apply (r : Fin 131072) :
    Read.val_main_v57 x0 x1 x2 x3 x4 x5 x6 x7 x8 (ix1 r) = Cert.Pose.cz (headRow x0 x1 x2 x3 x4 x5 x6 x7 x8 r) := by
  rw [Read.val_main_v57_apply, angZ_apply]
  rfl
theorem sz_apply (r : Fin 131072) :
    Read.val_main_v58 x0 x1 x2 x3 x4 x5 x6 x7 x8 (ix1 r) = Cert.Pose.sz (headRow x0 x1 x2 x3 x4 x5 x6 x7 x8 r) := by
  rw [Read.val_main_v58_apply, angZ_apply]
  rfl

/-! ### Eigenvalues -/

theorem eig1_apply (r : Fin 131072) :
    Read.val_main_v46 x0 x1 x2 x3 x4 x5 x6 x7 x8 (ix1 r) = Cert.Pose.eig1 (headRow x0 x1 x2 x3 x4 x5 x6 x7 x8 r) := by
  rw [Read.val_main_v46_apply, Read.val_main_v45_apply, Read.val_main_cst_5_apply, gate3_row]
  rfl
theorem eig2_apply (r : Fin 131072) :
    Read.val_main_v49 x0 x1 x2 x3 x4 x5 x6 x7 x8 (ix1 r) = Cert.Pose.eig2 (headRow x0 x1 x2 x3 x4 x5 x6 x7 x8 r) := by
  rw [Read.val_main_v49_apply, eig1_apply, gate4_row]
  rfl
theorem eig3_apply (r : Fin 131072) :
    Read.val_main_v52 x0 x1 x2 x3 x4 x5 x6 x7 x8 (ix1 r) = Cert.Pose.eig3 (headRow x0 x1 x2 x3 x4 x5 x6 x7 x8 r) := by
  rw [Read.val_main_v52_apply, eig2_apply, gate5_row]
  rfl

/-! ### The shift: tanh of the seventh number, plus one -/

theorem shift_apply (r : Fin 131072) :
    Read.val_main_v30 x0 x1 x2 x3 x4 x5 x6 x7 x8 (ix1 r) = Cert.Pose.shift (headRow x0 x1 x2 x3 x4 x5 x6 x7 x8 r) := by
  rw [Read.val_main_v30_apply, Read.val_main_v29_apply, Read.val_main_cst_1_apply, Read.val_main_v28_apply,
    Read.val_main_v27_apply, Read.val_main_v26_apply, idx_v27, idx_v26]
  rfl

end Cert.ReferenceIdeal.RefValue

end
-- ==== Proof.PoseAlgebra.lean ====
/-
  The closed forms of the rotation, the eigenvalue matrix and D = R·E·Rᵀ agree with the matrix
  products, entry by entry.

  Extended-real multiplication does not distribute over addition in general, so nothing is computed on
  the extended reals directly. Instead the six trigonometric values and the three eigenvalues are
  first shown to be real numbers: the logistic function takes a real value at every extended real
  (0 at ⊥, 1 at ⊤, 1/(1+e^{-x}) at a real x), the three scaling literals are real, products of reals
  are real, and cosine and sine of a real are real. Once all nine are real, every entry on either
  side is the image of a real polynomial in nine variables, and the two polynomials are equal by the
  laws of a commutative ring.
-/
import proofs.«124405_j83932250898799_2_alg».proof.Proof.PoseSpec

noncomputable section

open Idealize.ShloMosaic
open scoped BigOperators

namespace Cert.Pose

/-! ## The transcendental functions at the three kinds of extended real -/

theorem exp_top' : Ideal.exp (⊤ : EReal) = ⊤ := rfl
theorem exp_bot' : Ideal.exp (⊥ : EReal) = 0 := rfl
theorem exp_coe' (r : ℝ) : Ideal.exp (r : EReal) = (Real.exp r : EReal) := rfl
theorem cos_coe' (r : ℝ) : Ideal.cos (r : EReal) = (Real.cos r : EReal) := rfl
theorem sin_coe' (r : ℝ) : Ideal.sin (r : EReal) = (Real.sin r : EReal) := rfl

/-- The logistic function is real-valued on all of the extended reals: 1/(1+⊤) = 0 at ⊥,
    1/(1+0) = 1 at ⊤, and 1/(1+e^{-r}) with a positive denominator at a real r. -/
theorem logistic_real (x : EReal) : ∃ r : ℝ, Ideal.logistic x = (r : EReal) := by
  induction x using EReal.rec with
  | bot =>
    refine ⟨0, ?_⟩
    have h : (1 : EReal) + ⊤ = ⊤ := by
      rw [← EReal.coe_one]; exact EReal.coe_add_top 1
    simp [Ideal.logistic, Ideal.div, exp_top', h]
  | top =>
    refine ⟨1, ?_⟩
    simp [Ideal.logistic, Ideal.div, exp_bot']
  | coe r =>
    refine ⟨(1 + Real.exp (-r))⁻¹, ?_⟩
    have hpos : (0 : ℝ) < 1 + Real.exp (-r) := by positivity
    have h1 : (1 : EReal) + Ideal.exp (-(r : EReal)) = ((1 + Real.exp (-r) : ℝ) : EReal) := by
      rw [← EReal.coe_neg, exp_coe', EReal.coe_add, EReal.coe_one]
    rw [Ideal.logistic, h1, Ideal.div]
    have hne : ((1 + Real.exp (-r) : ℝ) : EReal) ≠ 0 := by
      exact_mod_cast hpos.ne'
    rw [if_neg hne, one_mul, ← EReal.coe_inv]

/-! ## The three scaling literals are real (their exponent fields are not all ones) -/

theorem lit2pi_real : ∃ r : ℝ, lit2pi = (r : EReal) := by
  unfold lit2pi
  simp [Ideal.ofBits, Ideal.ieee, -EReal.coe_mul]

theorem litpi_real : ∃ r : ℝ, litpi = (r : EReal) := by
  unfold litpi
  simp [Ideal.ofBits, Ideal.ieee, -EReal.coe_mul]

theorem litThr_real : ∃ r : ℝ, litThr = (r : EReal) := by
  unfold litThr
  simp [Ideal.ofBits, Ideal.ieee, -EReal.coe_mul]

/-! ## The nine real numbers -/

theorem gate_real (o : Fin 7 → EReal) (i : Fin 7) : ∃ r : ℝ, gate o i = (r : EReal) :=
  logistic_real (o i)

/-- The six trigonometric values and the three eigenvalues are real. -/
theorem nine_reals (o : Fin 7 → EReal) :
    ∃ a b c d e f p q t : ℝ,
      cx o = (a : EReal) ∧ sx o = (b : EReal) ∧ cy o = (c : EReal) ∧ sy o = (d : EReal) ∧
      cz o = (e : EReal) ∧ sz o = (f : EReal) ∧
      eig1 o = (p : EReal) ∧ eig2 o = (q : EReal) ∧ eig3 o = (t : EReal) := by
  obtain ⟨g0, h0⟩ := gate_real o 0
  obtain ⟨g1, h1⟩ := gate_real o 1
  obtain ⟨g2, h2⟩ := gate_real o 2
  obtain ⟨g3, h3⟩ := gate_real o 3
  obtain ⟨g4, h4⟩ := gate_real o 4
  obtain ⟨g5, h5⟩ := gate_real o 5
  obtain ⟨L2, hL2⟩ := lit2pi_real
  obtain ⟨L1, hL1⟩ := litpi_real
  obtain ⟨L3, hL3⟩ := litThr_real
  have hX : angX o = ((g0 * L2 : ℝ) : EReal) := by rw [angX, h0, hL2, ← EReal.coe_mul]
  have hY : angY o = ((g1 * L1 : ℝ) : EReal) := by rw [angY, h1, hL1, ← EReal.coe_mul]
  have hZ : angZ o = ((g2 * L2 : ℝ) : EReal) := by rw [angZ, h2, hL2, ← EReal.coe_mul]
  have hp : eig1 o = ((g3 * L3 : ℝ) : EReal) := by rw [eig1, h3, hL3, ← EReal.coe_mul]
  have hq : eig2 o = ((g3 * L3 * g4 : ℝ) : EReal) := by rw [eig2, hp, h4, ← EReal.coe_mul]
  have ht : eig3 o = ((g3 * L3 * g4 * g5 : ℝ) : EReal) := by rw [eig3, hq, h5, ← EReal.coe_mul]
  refine ⟨Real.cos (g0 * L2), Real.sin (g0 * L2), Real.cos (g1 * L1), Real.sin (g1 * L1),
    Real.cos (g2 * L2), Real.sin (g2 * L2), g3 * L3, g3 * L3 * g4, g3 * L3 * g4 * g5,
    ?_, ?_, ?_, ?_, ?_, ?_, hp, hq, ht⟩
  · rw [cx, hX, cos_coe']
  · rw [sx, hX, sin_coe']
  · rw [cy, hY, cos_coe']
  · rw [sy, hY, sin_coe']
  · rw [cz, hZ, cos_coe']
  · rw [sz, hZ, sin_coe']

/-! ## The rotation -/

theorem rotR_eq_rotK (o : Fin 7 → EReal) (i l : Fin 3) : rotR o i l = rotK o (flat i l) := by
  obtain ⟨a, b, c, d, e, f, p, q, t, ha, hb, hc, hd, he, hf, hp, hq, ht⟩ := nine_reals o
  fin_cases i <;> fin_cases l <;>
    simp [rotR, rotRof, rotK, flat, r00, r01, r02, r10, r11, r12, r20, r21, r22,
      ha, hb, hc, hd, he, hf, lit0_eq, lit1_eq, Fin.sum_univ_three, matXof, matYof, matZof]
  all_goals norm_cast
  all_goals ring

/-! ## The eigenvalue matrix -/

theorem eigR_eq_eigK (o : Fin 7 → EReal) (i l : Fin 3) : eigR o i l = eigK o (flat i l) := by
  fin_cases i <;> fin_cases l <;>
    simp [eigR, eigRof, eigK, flat, eye, lit0_eq]

/-! ## D = R·E·Rᵀ -/

theorem diffR_eq_diffK (o : Fin 7 → EReal) (i l : Fin 3) : diffR o i l = diffK o (flat i l) := by
  obtain ⟨a, b, c, d, e, f, p, q, t, ha, hb, hc, hd, he, hf, hp, hq, ht⟩ := nine_reals o
  have hR : ∀ i l, rotR o i l = rotK o (flat i l) := rotR_eq_rotK o
  have hE : ∀ i l, eigR o i l = eigK o (flat i l) := eigR_eq_eigK o
  simp only [diffR, diffRof, Fin.sum_univ_three, hR, hE]
  fin_cases i <;> fin_cases l <;>
    simp [rotK, eigK, diffK, flat, d00, d01, d02, d11, d12, d22,
      r00, r01, r02, r10, r11, r12, r20, r21, r22,
      ha, hb, hc, hd, he, hf, hp, hq, ht, lit0_eq]
  all_goals norm_cast
  all_goals ring

end Cert.Pose

end
-- ==== Proof.RefFinal.lean ====
/-
  The reference program's four results in the specification's closed form, and its run stated in that form.

  Entry (i, l) of the rotation, of the eigenvalue matrix and of D = R·E·Rᵀ for input row r is entry 3·i + l of the
  specification's row-major nine-vector for the head's seven numbers of row r; the fourth result is the shift. The
  matrix products the program forms are those of the specification (read entry by entry before), and the products'
  closed forms are a statement of real algebra (proved apart).
-/
import proofs.«124405_j83932250898799_2_alg».proof.Proof.RefPose
import proofs.«124405_j83932250898799_2_alg».proof.Proof.RefHead
import proofs.«124405_j83932250898799_2_alg».proof.Proof.PoseAlgebra
import proofs.«124405_j83932250898799_2_alg».proof.Proof.Gen.ReferenceIdeal.Run

noncomputable section

open Cert.ReferenceIdeal Cert.ReferenceIdeal.Gen Cert.ReferenceIdeal.Read Idealize.ShloMosaic Idealize.ShloMosaic.TcCoe
  Idealize.SL.Sem Idealize.ShloMosaic.ValueIdx
open scoped BigOperators

namespace Cert.ReferenceIdeal.RefValue

variable (x0 : (⟨S131072x288, .f32⟩ : BufTy).Contents (Elt Ideal)) (x1 : (⟨S288x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x7, .f32⟩ : BufTy).Contents (Elt Ideal))
  (x8 : (⟨S7, .f32⟩ : BufTy).Contents (Elt Ideal))

/-! ## One entry at a time -/

/-- R's entry (i, l) for row r is the specification's product of the three rotations. -/
theorem rot_at (r : Fin 131072) (i l : Fin 3) :
    val_main_v113 (F := Ideal) x0 x1 x2 x3 x4 x5 x6 x7 x8 (ix3 r i l) = Pose.rotR (Pose.headOf x0 x1 x2 x3 x4 x5 x6 x7 x8 r) i l := by
  rw [v113_eq, cx_apply, sx_apply, cy_apply, sy_apply, cz_apply, sz_apply, headRow_eq]
  rfl

/-- E's entry (j, k) for row r. -/
theorem eig_at (r : Fin 131072) (j k : Fin 3) :
    val_main_v128 (F := Ideal) x0 x1 x2 x3 x4 x5 x6 x7 x8 (ix3 r j k) = Pose.eigR (Pose.headOf x0 x1 x2 x3 x4 x5 x6 x7 x8 r) j k := by
  rw [v128_eq, eig1_apply, eig2_apply, eig3_apply, headRow_eq]
  rfl

/-- D's entry (i, l) for row r. -/
theorem diff_at (r : Fin 131072) (i l : Fin 3) :
    val_main_v130 (F := Ideal) x0 x1 x2 x3 x4 x5 x6 x7 x8 (ix3 r i l) = Pose.diffR (Pose.headOf x0 x1 x2 x3 x4 x5 x6 x7 x8 r) i l := by
  have hR : (fun i l => val_main_v113 (F := Ideal) x0 x1 x2 x3 x4 x5 x6 x7 x8 (ix3 r i l)) = Pose.rotR (Pose.headOf x0 x1 x2 x3 x4 x5 x6 x7 x8 r) :=
    funext fun i => funext fun l => rot_at x0 x1 x2 x3 x4 x5 x6 x7 x8 r i l
  have hE : (fun j k => val_main_v128 (F := Ideal) x0 x1 x2 x3 x4 x5 x6 x7 x8 (ix3 r j k)) = Pose.eigR (Pose.headOf x0 x1 x2 x3 x4 x5 x6 x7 x8 r) :=
    funext fun j => funext fun k => eig_at x0 x1 x2 x3 x4 x5 x6 x7 x8 r j k
  rw [v130_eq, hR, hE]
  rfl

/-! ## Whole arrays -/

theorem rot_eq :
    val_main_v113 (F := Ideal) x0 x1 x2 x3 x4 x5 x6 x7 x8 = fun j => Pose.rotK (Pose.headOf x0 x1 x2 x3 x4 x5 x6 x7 x8 (j 0)) (Pose.flat (j 1) (j 2)) := by
  funext j
  obtain ⟨a, b, c, rfl⟩ : ∃ (a : Fin 131072) (b c : Fin 3), j = ix3 a b c := ⟨j 0, j 1, j 2, eq_ix3 j⟩
  show val_main_v113 (F := Ideal) x0 x1 x2 x3 x4 x5 x6 x7 x8 (ix3 a b c) = Pose.rotK (Pose.headOf x0 x1 x2 x3 x4 x5 x6 x7 x8 a) (Pose.flat b c)
  rw [rot_at]
  exact Pose.rotR_eq_rotK _ b c

theorem eig_eq :
    val_main_v128 (F := Ideal) x0 x1 x2 x3 x4 x5 x6 x7 x8 = fun j => Pose.eigK (Pose.headOf x0 x1 x2 x3 x4 x5 x6 x7 x8 (j 0)) (Pose.flat (j 1) (j 2)) := by
  funext j
  obtain ⟨a, b, c, rfl⟩ : ∃ (a : Fin 131072) (b c : Fin 3), j = ix3 a b c := ⟨j 0, j 1, j 2, eq_ix3 j⟩
  show val_main_v128 (F := Ideal) x0 x1 x2 x3 x4 x5 x6 x7 x8 (ix3 a b c) = Pose.eigK (Pose.headOf x0 x1 x2 x3 x4 x5 x6 x7 x8 a) (Pose.flat b c)
  rw [eig_at]
  exact Pose.eigR_eq_eigK _ b c

theorem diff_eq :
    val_main_v130 (F := Ideal) x0 x1 x2 x3 x4 x5 x6 x7 x8 = fun j => Pose.diffK (Pose.headOf x0 x1 x2 x3 x4 x5 x6 x7 x8 (j 0)) (Pose.flat (j 1) (j 2)) := by
  funext j
  obtain ⟨a, b, c, rfl⟩ : ∃ (a : Fin 131072) (b c : Fin 3), j = ix3 a b c := ⟨j 0, j 1, j 2, eq_ix3 j⟩
  show val_main_v130 (F := Ideal) x0 x1 x2 x3 x4 x5 x6 x7 x8 (ix3 a b c) = Pose.diffK (Pose.headOf x0 x1 x2 x3 x4 x5 x6 x7 x8 a) (Pose.flat b c)
  rw [diff_at]
  exact Pose.diffR_eq_diffK _ b c

theorem shift_eq :
    val_main_v30 (F := Ideal) x0 x1 x2 x3 x4 x5 x6 x7 x8 = fun j => Pose.shift (Pose.headOf x0 x1 x2 x3 x4 x5 x6 x7 x8 (j 0)) := by
  funext j
  obtain ⟨a, rfl⟩ : ∃ a : Fin 131072, j = ix1 a := ⟨j 0, eq_ix1 j⟩
  show val_main_v30 (F := Ideal) x0 x1 x2 x3 x4 x5 x6 x7 x8 (ix1 a) = Pose.shift (Pose.headOf x0 x1 x2 x3 x4 x5 x6 x7 x8 a)
  rw [shift_apply, headRow_eq]

/-! ## The run -/

/-- On every device, from any memory with zero counters, every weakly fair execution of the reference terminates with
    its four results in the specification's closed form of the argument arrays, and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v113) = (fun j => Pose.rotK (Pose.headOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (j 0)) (Pose.flat (j 1) (j 2)))
      ∧ r.2.mem ((c.tc : Thread nD τ).loc main_v128) = (fun j => Pose.eigK (Pose.headOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (j 0)) (Pose.flat (j 1) (j 2)))
      ∧ r.2.mem ((c.tc : Thread nD τ).loc main_v130) = (fun j => Pose.diffK (Pose.headOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (j 0)) (Pose.flat (j 1) (j 2)))
      ∧ r.2.mem ((c.tc : Thread nD τ).loc main_v30) = (fun j => Pose.shift (Pose.headOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (j 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (Cert.ReferenceIdeal.defs (F := Ideal)) _ _).mono (fun _ h c =>
    ⟨(h c).1.trans ((val_main_v113_eq m c).trans (rot_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.1.trans ((val_main_v128_eq m c).trans (eig_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2.1.trans ((val_main_v130_eq m c).trans (diff_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2.2.1.trans ((val_main_v30_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).trans (shift_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))),
      (h c).2.2.2.2⟩)
    (Cert.ReferenceIdeal.Value.run (F := Ideal) m ρ)

end Cert.ReferenceIdeal.RefValue

end
-- ==== Proof.lean ====
/-
  The certificate's claim, assembled.

  Both programs compute, for each of the 131072 input rows, the seven numbers of a four-layer perceptron's
  head, and from them a rotation R (three Euler angles), a diagonal matrix E (three eigenvalues), the
  product D = R·E·Rᵀ and a shift tanh(·) + 1. The kernel works on blocks of 2048 rows, keeps the batch on
  the lanes and writes the nine entries of R, E and D in closed form; the reference builds the three
  elementary rotations and multiplies the matrices. On the extended reals the two agree entry by entry:
  the logistic function takes real values at every extended real, so the angles, their cosines and sines and
  the eigenvalues are real numbers whatever the inputs, and the matrix products expand to the closed forms
  by real algebra. The precondition is therefore not used by the value claim.

  The three frame claims are the generated frames (the reference's is its generated run with the results
  dropped); the idealization rewrote nothing, so `preserves` is `True`.
-/
import proofs.«124405_j83932250898799_2_alg».proof.Defs
import proofs.«124405_j83932250898799_2_alg».proof.Proof.Gen.Kernel
import proofs.«124405_j83932250898799_2_alg».proof.Proof.Gen.Kernel.Skeleton
import proofs.«124405_j83932250898799_2_alg».proof.Proof.Gen.Kernel.Launch
import proofs.«124405_j83932250898799_2_alg».proof.Proof.Gen.Kernel.Points
import proofs.«124405_j83932250898799_2_alg».proof.Proof.Gen.Kernel.Frame
import proofs.«124405_j83932250898799_2_alg».proof.Proof.Gen.KernelIdeal
import proofs.«124405_j83932250898799_2_alg».proof.Proof.Gen.KernelIdeal.Skeleton
import proofs.«124405_j83932250898799_2_alg».proof.Proof.Gen.KernelIdeal.Launch
import proofs.«124405_j83932250898799_2_alg».proof.Proof.Gen.KernelIdeal.Points
import proofs.«124405_j83932250898799_2_alg».proof.Proof.Gen.KernelIdeal.Frame
import proofs.«124405_j83932250898799_2_alg».proof.Proof.Gen.ReferenceIdeal
import proofs.«124405_j83932250898799_2_alg».proof.Proof.Gen.ReferenceIdeal.Run
import proofs.«124405_j83932250898799_2_alg».proof.Proof.Gen.ReferenceIdeal.Read
import proofs.«124405_j83932250898799_2_alg».proof.Proof.Gen.Pre_finite_inputs
import proofs.«124405_j83932250898799_2_alg».proof.Proof.KernRun
import proofs.«124405_j83932250898799_2_alg».proof.Proof.RefFinal
import Idealize.ShloMosaic.Adequacy
import Idealize.ShloMosaic.Init

noncomputable section

namespace Cert.Proof

open Idealize.ShloMosaic Idealize.SL.Sem Cert.Pose

theorem frame_k : Cert.frame_Kernel := fun m ρ _ => Cert.Kernel.Gen.frame m ρ

theorem frame_ki : Cert.frame_KernelIdeal := fun m ρ _ => Cert.KernelIdeal.Gen.frame m ρ

/-- The reference's frame: its generated run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both runs end with each result array holding the same function of the argument arrays: entry (b, i, l) of
    the three 3×3 results is the closed form of R, E, D at row-major position 3 i + l for the head of input row
    b, and entry b of the fourth is the shift of that head. The reference's arguments are the kernel's. -/
theorem algebraic : Cert.algebraic_KernelIdeal_ReferenceIdeal := by
  intro m ρ m' ρ' _ hagree
  refine ⟨fun c j => rotK (Cert.KernelIdeal.ArrValue.headRow m c (j 0)) (flat (j 1) (j 2)),
    fun c j => eigK (Cert.KernelIdeal.ArrValue.headRow m c (j 0)) (flat (j 1) (j 2)),
    fun c j => diffK (Cert.KernelIdeal.ArrValue.headRow m c (j 0)) (flat (j 1) (j 2)),
    fun c j => shift (Cert.KernelIdeal.ArrValue.headRow m c (j 0)),
    Cert.KernelIdeal.RunValue.run m ρ, ?_⟩
  refine (θ_run Cert.ReferenceIdeal.defs _ _).mono (fun _ h c => ?_) (Cert.ReferenceIdeal.RefValue.run m' ρ')
  obtain ⟨h1, h2, h3, h4, hargs⟩ := h c
  obtain ⟨a0, a1, a2, a3, a4, a5, a6, a7, a8⟩ := hagree c
  refine ⟨h1.trans ?_, h2.trans ?_, h3.trans ?_, h4.trans ?_, hargs⟩
  all_goals
    unfold Cert.KernelIdeal.ArrValue.headRow
    rw [a0, a1, a2, a3, a4, a5, a6, a7, a8]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
